-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x40 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x40 : Shape := ⟨2, ![50000, 40]⟩
abbrev S5000x40 : Shape := ⟨2, ![5000, 40]⟩
abbrev S650000x40 : Shape := ⟨2, ![650000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 137
  | .vmem => 48
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S50000x128, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S50000x128, .f32⟩
  | 83 => ⟨S50000x128, .f32⟩
  | 84 => ⟨S_, .i32⟩
  | 85 => ⟨S650000, .i32⟩
  | 86 => ⟨S650000, .i1⟩
  | 87 => ⟨S_, .i32⟩
  | 88 => ⟨S650000, .i32⟩
  | 89 => ⟨S650000, .i32⟩
  | 90 => ⟨S650000, .i32⟩
  | 91 => ⟨S650000x1, .i32⟩
  | 92 => ⟨S650000x128, .f32⟩
  | 93 => ⟨S650000x1, .f32⟩
  | 94 => ⟨S650000x128, .f32⟩
  | 95 => ⟨S650000x128, .f32⟩
  | 96 => ⟨S_, .f32⟩
  | 97 => ⟨S50000x128, .f32⟩
  | 98 => ⟨S650000x1, .i32⟩
  | 99 => ⟨S50000x128, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S50000x128, .f32⟩
  | 118 => ⟨S50000x40, .f32⟩
  | 119 => ⟨S_, .i32⟩
  | 120 => ⟨S650000, .i32⟩
  | 121 => ⟨S650000, .i1⟩
  | 122 => ⟨S_, .i32⟩
  | 123 => ⟨S650000, .i32⟩
  | 124 => ⟨S650000, .i32⟩
  | 125 => ⟨S650000, .i32⟩
  | 126 => ⟨S650000x1, .i32⟩
  | 127 => ⟨S650000x40, .f32⟩
  | _ => ⟨S50000x128, .f32⟩

abbrev hbmTy0_1 (i : Nat) : BufTy := match i % 128 with
  | 0 => ⟨S650000x1, .f32⟩
  | 1 => ⟨S650000x40, .f32⟩
  | 2 => ⟨S650000x40, .f32⟩
  | 3 => ⟨S_, .f32⟩
  | 4 => ⟨S50000x40, .f32⟩
  | 5 => ⟨S650000x1, .i32⟩
  | 6 => ⟨S50000x40, .f32⟩
  | 7 => ⟨S1x40, .f32⟩
  | 8 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x40, .f32⟩
  | .local _ .vmem, ⟨41, _⟩ => ⟨S5000x40, .f32⟩
  | .local _ .vmem, ⟨42, _⟩ => ⟨S5000x40, .f32⟩
  | .local _ .vmem, ⟨43, _⟩ => ⟨S5000x40, .f32⟩
  | .local _ .vmem, ⟨44, _⟩ => ⟨S5000x40, .f32⟩
  | .local _ .vmem, ⟨45, _⟩ => ⟨S1x40, .f32⟩
  | .local _ .vmem, ⟨46, _⟩ => ⟨S5000x40, .f32⟩
  | .local _ .vmem, ⟨47, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72_0 : Ref sig .tc := ⟨.hbm, 101, rfl⟩
abbrev main_v72_1 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_17 : Ref sig .tc := ⟨.hbm, 119, rfl⟩
abbrev main_v86 : Ref sig .tc := ⟨.hbm, 120, rfl⟩
abbrev main_v87 : Ref sig .tc := ⟨.hbm, 121, rfl⟩
abbrev main_c_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S650000x1_S650000x40_0_1 : S650000x1.BroadcastsInDim S650000x40 (![0, 1] : Fin 2 → Fin S650000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x40_S5000x40_1_0_0_1_n_n_wf : DotDims.WF S5000x128 S128x40 S5000x40 [1] [0] [0] [1] [] []
  gather_S50000x40_S650000x1_S650000x40_1_0_n_n_0_1_140_wf : GatherDims.WF S50000x40 S650000x1 S650000x40 [1] [0] [] [0] [] 1 ![1, 40]
  scatter_S50000x40_S650000x1_S650000x40_1_0_0_1_wf : ScatterDims.WF S50000x40 S650000x1 S650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x40.size a ≤ S50000x40.size a
  hwx6_2 : ∀ i : grid6.Coords, EltTy.bits .f32 = 32 ∨ (Rect.block (s := S50000x40) S5000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x40.size a ≤ S50000x40.size a
  hwx7_0 : ∀ i : grid7.Coords, EltTy.bits .f32 = 32 ∨ (Rect.block (s := S50000x40) S5000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x40.size a ≤ S1x40.size a
  hwx7_1 : ∀ i : grid7.Coords, EltTy.bits .f32 = 32 ∨ (Rect.block (s := S1x40) S1x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x40.size a ≤ S50000x40.size a
  hwx7_2 : ∀ i : grid7.Coords, EltTy.bits .f32 = 32 ∨ (Rect.block (s := S50000x40) S5000x40.size (cc7_transform_2 i) (hinb7_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S650000x1_S650000x40_1_0_n_n_0_1_140 : GatherDims S50000x40 S650000x1 S650000x40 where
  offsetDims := [1]
  collapsedSliceDims := [0]
  operandBatchingDims := []
  startIndicesBatchingDims := []
  startIndexMap := [0]
  indexVectorDim := 1
  sliceSizes := ![1, 40]
  wf := gather_S50000x40_S650000x1_S650000x40_1_0_n_n_0_1_140_wf
def scatter_S50000x40_S650000x1_S650000x40_1_0_0_1 : ScatterDims S50000x40 S650000x1 S650000x40 where
  updateWindowDims := [1]
  insertedWindowDims := [0]
  scatterDimsToOperandDims := [0]
  indexVectorDim := 1
  wf := scatter_S50000x40_S650000x1_S650000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v70) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v84) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v84) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S5000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v98) S5000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S1x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S5000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x40 : Shape := ⟨2, ![50000, 40]⟩
abbrev S650000x40 : Shape := ⟨2, ![650000, 40]⟩
abbrev S1x40 : Shape := ⟨2, ![1, 40]⟩
abbrev S50000x1 : Shape := ⟨2, ![50000, 1]⟩

abbrev nBuf : Space → Nat
  | .hbm => 189
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S50000x128, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S_, .i32⟩
  | 103 => ⟨S650000, .i32⟩
  | 104 => ⟨S650000, .i1⟩
  | 105 => ⟨S_, .i32⟩
  | 106 => ⟨S650000, .i32⟩
  | 107 => ⟨S650000, .i32⟩
  | 108 => ⟨S650000, .i32⟩
  | 109 => ⟨S650000x1, .i32⟩
  | 110 => ⟨S650000x128, .f32⟩
  | 111 => ⟨S650000x1, .f32⟩
  | 112 => ⟨S650000x128, .f32⟩
  | 113 => ⟨S650000x128, .f32⟩
  | 114 => ⟨S_, .f32⟩
  | 115 => ⟨S50000x128, .f32⟩
  | 116 => ⟨S650000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x40, .f32⟩
  | 27 => ⟨S_, .i32⟩
  | 28 => ⟨S650000, .i32⟩
  | 29 => ⟨S650000, .i1⟩
  | 30 => ⟨S_, .i32⟩
  | 31 => ⟨S650000, .i32⟩
  | 32 => ⟨S650000, .i32⟩
  | 33 => ⟨S650000, .i32⟩
  | 34 => ⟨S650000x1, .i32⟩
  | 35 => ⟨S650000x40, .f32⟩
  | 36 => ⟨S650000x1, .f32⟩
  | 37 => ⟨S650000x40, .f32⟩
  | 38 => ⟨S650000x40, .f32⟩
  | 39 => ⟨S_, .f32⟩
  | 40 => ⟨S50000x40, .f32⟩
  | 41 => ⟨S650000x1, .i32⟩
  | 42 => ⟨S50000x40, .f32⟩
  | 43 => ⟨S1x40, .f32⟩
  | 44 => ⟨S50000x40, .f32⟩
  | 45 => ⟨S50000x40, .f32⟩
  | 46 => ⟨S_, .f32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x40, .f32⟩
  | 53 => ⟨S50000x40, .f32⟩
  | 54 => ⟨S50000x40, .f32⟩
  | 55 => ⟨S_, .f32⟩
  | 56 => ⟨S50000, .f32⟩
  | 57 => ⟨S50000x1, .f32⟩
  | 58 => ⟨S50000x1, .f32⟩
  | 59 => ⟨S50000x40, .f32⟩
  | 60 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call0_cst : Ref sig .tc := ⟨.hbm, 98, rfl⟩
abbrev main_call0_v0 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_call1_cst : Ref sig .tc := ⟨.hbm, 151, rfl⟩
abbrev main_call1_v0 : Ref sig .tc := ⟨.hbm, 152, rfl⟩
abbrev main_v114 : Ref sig .tc := ⟨.hbm, 153, rfl⟩
abbrev main_v115 : Ref sig .tc := ⟨.hbm, 154, rfl⟩
abbrev main_c_21 : Ref sig .tc := ⟨.hbm, 155, rfl⟩
abbrev main_v116 : Ref sig .tc := ⟨.hbm, 156, rfl⟩
abbrev main_v117 : Ref sig .tc := ⟨.hbm, 157, rfl⟩
abbrev main_c_22 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_23 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_call2_cst : Ref sig .tc := ⟨.hbm, 174, rfl⟩
abbrev main_call2_v0 : Ref sig .tc := ⟨.hbm, 175, rfl⟩
abbrev main_call2_cst_0 : Ref sig .tc := ⟨.hbm, 176, rfl⟩
abbrev main_call2_v1 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_cst_1 : Ref sig .tc := ⟨.hbm, 183, rfl⟩
abbrev main_call2_v7 : Ref sig .tc := ⟨.hbm, 184, rfl⟩
abbrev main_call2_v8 : Ref sig .tc := ⟨.hbm, 185, rfl⟩
abbrev main_call2_v9 : Ref sig .tc := ⟨.hbm, 186, rfl⟩
abbrev main_call2_v10 : Ref sig .tc := ⟨.hbm, 187, rfl⟩
abbrev main_v132 : Ref sig .tc := ⟨.hbm, 188, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S650000x1_S650000x40_0_1 : S650000x1.BroadcastsInDim S650000x40 (![0, 1] : Fin 2 → Fin S650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x40_S50000x40_1_0_0_1_n_n_wf : DotDims.WF S50000x128 S128x40 S50000x40 [1] [0] [0] [1] [] []
  gather_S50000x40_S650000x1_S650000x40_1_0_n_n_0_1_140_wf : GatherDims.WF S50000x40 S650000x1 S650000x40 [1] [0] [] [0] [] 1 ![1, 40]
  scatter_S50000x40_S650000x1_S650000x40_1_0_0_1_wf : ScatterDims.WF S50000x40 S650000x1 S650000x40 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S650000x1_S650000x40_1_0_n_n_0_1_140 : GatherDims S50000x40 S650000x1 S650000x40 where
  offsetDims := [1]
  collapsedSliceDims := [0]
  operandBatchingDims := []
  startIndicesBatchingDims := []
  startIndexMap := [0]
  indexVectorDim := 1
  sliceSizes := ![1, 40]
  wf := gather_S50000x40_S650000x1_S650000x40_1_0_n_n_0_1_140_wf
def scatter_S50000x40_S650000x1_S650000x40_1_0_0_1 : ScatterDims S50000x40 S650000x1 S650000x40 where
  updateWindowDims := [1]
  insertedWindowDims := [0]
  scatterDimsToOperandDims := [0]
  indexVectorDim := 1
  wf := scatter_S50000x40_S650000x1_S650000x40_1_0_0_1_wf

class Facts : Prop extends Facts₀ where

variable [Facts]
-- ==== Proof.KRun.lean ====
/-
  The kernel program's run with its result named. The program is eight grid kernels among stretches of host
  operations; its buffers at each boundary are a fold from the launch memory, and the last boundary's contents
  are `W14`. Every weakly fair execution terminates without a fault, the result buffer ends at the last
  boundary's contents, and the twelve argument arrays end as launched.
-/
import proofs.«105290_j43542378447163_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends holding the last boundary's contents, the arguments what they held at launch. -/
theorem run_named : θ_run defs (onTc (τ := τ) (main (F := F))) ⟨m, fun _ => 0, ρ⟩ (fun r => ∀ c : Dev nD,
      r.2.mem ((c.tc : Thread nD τ).loc main_v100) = W14 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v100 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.Val

end
-- ==== Proof.LibTypedBufferCasts.lean ====
/-
  Moving a value between a tensor's type and its buffer's type is the identity.

  A function that a host program calls is printed with operations typed by the tensor each value holds; a value goes to
  its buffer and back by transport along the equation "the buffer's type is the tensor's type". Transport there and back
  is the identity, whatever the equation's proof: inside a composed term of such operations every pair cancels.
-/
import Idealize.ShloMosaic.Lib.StableHlo

noncomputable section

namespace Cert.Lib

open Idealize.ShloMosaic Idealize.ShloMosaic.StableHlo

/-- A value moved to its buffer's type and back is itself. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-- A buffer's contents moved to the tensor's type and back are themselves. -/
theorem toBuf_ofBuf {sig : RefSig} {T : BufTy} {Val : EltTy → Type} (x : TRef sig T) (v : x.ref.ty.Contents Val) :
    x.toBuf (x.ofBuf v) = v := by
  obtain ⟨r, h, _, _⟩ := x
  subst h
  rfl

end Cert.Lib

end
-- ==== Proof.RefStages.lean ====
/-
  The reference program's run read in stretches. Its @main is a straight line of 177 host operations; after them
  each buffer holds the fold of the operations' results over the launch contents. Cut at the layers' ends — the
  edge tables, the first layer's input, its rectified output, the second layer's input and output, the third
  aggregate plus bias, the log-softmax — each stretch's result is the next stage of the launch arguments, and the
  edge tables and the arguments pass through the later stretches unwritten. So the result buffer ends at the last
  stage: one composed function of the twelve arguments, named stage by stage.
-/
import proofs.«105290_j43542378447163_1_alg».proof.Proof.RefRun
import proofs.«105290_j43542378447163_1_alg».proof.Proof.RefRead
import proofs.«105290_j43542378447163_1_alg».proof.Proof.LibTypedBufferCasts
import Idealize.ShloMosaic.Lib.StableHlo.Run

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Operations run one stretch after another fold as the stretches' folds composed. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Stretch 1 of @main's operations. -/
abbrev part1 : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S650000 ![] bcast_S_S650000 : (⟨S_, .i32⟩ : BufTy).Contents (Elt F) → (⟨S650000, .i32⟩ : BufTy).Contents (Elt F)),
    binary main_v3 main_v14 main_v15 (cmpi .slt : (⟨S650000, .i32⟩ : BufTy).Contents (Elt F) → (⟨S650000, .i32⟩ : BufTy).Contents (Elt F) → (⟨S650000, .i1⟩ : BufTy).Contents (Elt F)),
    nullary main_c_2 (constantI S_ 32 50000#32),
    unary main_c_2 main_v16 (broadcastInDim S650000 ![] bcast_S_S650000 : (⟨S_, .i32⟩ : BufTy).Contents (Elt F) → (⟨S650000, .i32⟩ : BufTy).Contents (Elt F)),
    binary main_v3 main_v16 main_v17 (addi : (⟨S650000, .i32⟩ : BufTy).Contents (Elt F) → (⟨S650000, .i32⟩ : BufTy).Contents (Elt F) → (⟨S650000, .i32⟩ : BufTy).Contents (Elt F)),
    ternary main_v15 main_v17 main_v3 main_v18 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v18 main_v19 (broadcastInDim S650000x1 ![0] bcast_S650000_S650000x1_0 : (⟨S650000, .i32⟩ : BufTy).Contents (Elt F) → (⟨S650000x1, .i32⟩ : BufTy).Contents (Elt F)),
    binary main_v13 main_v19 main_v20 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_3 (constantI S_ 32 0#32),
    unary main_c_3 main_v21 (broadcastInDim S650000 ![] bcast_S_S650000 : (⟨S_, .i32⟩ : BufTy).Contents (Elt F) → (⟨S650000, .i32⟩ : BufTy).Contents (Elt F)),
    binary main_v6 main_v21 main_v22 (cmpi .slt : (⟨S650000, .i32⟩ : BufTy).Contents (Elt F) → (⟨S650000, .i32⟩ : BufTy).Contents (Elt F) → (⟨S650000, .i1⟩ : BufTy).Contents (Elt F)),
    nullary main_c_4 (constantI S_ 32 50000#32),
    unary main_c_4 main_v23 (broadcastInDim S650000 ![] bcast_S_S650000 : (⟨S_, .i32⟩ : BufTy).Contents (Elt F) → (⟨S650000, .i32⟩ : BufTy).Contents (Elt F)),
    binary main_v6 main_v23 main_v24 (addi : (⟨S650000, .i32⟩ : BufTy).Contents (Elt F) → (⟨S650000, .i32⟩ : BufTy).Contents (Elt F) → (⟨S650000, .i32⟩ : BufTy).Contents (Elt F)),
    ternary main_v22 main_v24 main_v6 main_v25 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v25 main_v26 (broadcastInDim S650000x1 ![0] bcast_S650000_S650000x1_0 : (⟨S650000, .i32⟩ : BufTy).Contents (Elt F) → (⟨S650000x1, .i32⟩ : BufTy).Contents (Elt F)),
    binary main_v13 main_v26 main_v27 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v20 main_v27 main_v28 (mulf : (⟨S650000, .f32⟩ : BufTy).Contents (Elt F) → (⟨S650000, .f32⟩ : BufTy).Contents (Elt F) → (⟨S650000, .f32⟩ : BufTy).Contents (Elt F)) ]

/-- Stretch 2 of @main's operations. -/
abbrev part2 : List (HloOp τ sig (Elt F)) :=
  [ binary main_arg0 main_arg2 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_5 (constantI S_ 32 0#32),
    unary main_c_5 main_v30 (broadcastInDim S650000 ![] bcast_S_S650000 : (⟨S_, .i32⟩ : BufTy).Contents (Elt F) → (⟨S650000, .i32⟩ : BufTy).Contents (Elt F)),
    binary main_v3 main_v30 main_v31 (cmpi .slt : (⟨S650000, .i32⟩ : BufTy).Contents (Elt F) → (⟨S650000, .i32⟩ : BufTy).Contents (Elt F) → (⟨S650000, .i1⟩ : BufTy).Contents (Elt F)),
    nullary main_c_6 (constantI S_ 32 50000#32),
    unary main_c_6 main_v32 (broadcastInDim S650000 ![] bcast_S_S650000 : (⟨S_, .i32⟩ : BufTy).Contents (Elt F) → (⟨S650000, .i32⟩ : BufTy).Contents (Elt F)),
    binary main_v3 main_v32 main_v33 (addi : (⟨S650000, .i32⟩ : BufTy).Contents (Elt F) → (⟨S650000, .i32⟩ : BufTy).Contents (Elt F) → (⟨S650000, .i32⟩ : BufTy).Contents (Elt F)),
    ternary main_v31 main_v33 main_v3 main_v34 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v34 main_v35 (broadcastInDim S650000x1 ![0] bcast_S650000_S650000x1_0 : (⟨S650000, .i32⟩ : BufTy).Contents (Elt F) → (⟨S650000x1, .i32⟩ : BufTy).Contents (Elt F)),
    binary main_v29 main_v35 main_v36 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v28 main_v37 (broadcastInDim S650000x1 ![0] bcast_S650000_S650000x1_0 : (⟨S650000, .f32⟩ : BufTy).Contents (Elt F) → (⟨S650000x1, .f32⟩ : BufTy).Contents (Elt F)),
    unary main_v37 main_v38 (broadcastInDim S650000x128 ![0, 1] bcast_S650000x1_S650000x128_0_1 : (⟨S650000x1, .f32⟩ : BufTy).Contents (Elt F) → (⟨S650000x128, .f32⟩ : BufTy).Contents (Elt F)),
    binary main_v36 main_v38 main_v39 (mulf : (⟨S650000x128, .f32⟩ : BufTy).Contents (Elt F) → (⟨S650000x128, .f32⟩ : BufTy).Contents (Elt F) → (⟨S650000x128, .f32⟩ : BufTy).Contents (Elt F)),
    nullary main_cst_7 (constant S_ .f32 0x00000000#32),
    unary main_cst_7 main_v40 (broadcastInDim S50000x128 ![] bcast_S_S50000x128 : (⟨S_, .f32⟩ : BufTy).Contents (Elt F) → (⟨S50000x128, .f32⟩ : BufTy).Contents (Elt F)),
    unary main_v6 main_v41 (broadcastInDim S650000x1 ![0] bcast_S650000_S650000x1_0 : (⟨S650000, .i32⟩ : BufTy).Contents (Elt F) → (⟨S650000x1, .i32⟩ : BufTy).Contents (Elt F)),
    ternary main_v40 main_v41 main_v39 main_v42 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v42 main_v44 main_v45 (addf : (⟨S50000x128, .f32⟩ : BufTy).Contents (Elt F) → (⟨S50000x128, .f32⟩ : BufTy).Contents (Elt F) → (⟨S50000x128, .f32⟩ : BufTy).Contents (Elt F)) ]

/-- Stretch 3 of @main's operations. -/
abbrev part3 : List (HloOp τ sig (Elt F)) :=
  [ nullary main_cst_8 (constant S_ .f32 0x00000000#32),
    binary main_v45 main_cst_8 main_v46 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v47 (broadcastInDim S128 ![] bcast_S_S128 : (⟨S_, .f32⟩ : BufTy).Contents (Elt F) → (⟨S128, .f32⟩ : BufTy).Contents (Elt F)),
    binary main_v46 main_v47 main_v48 (Host.divf : (⟨S128, .f32⟩ : BufTy).Contents (Elt F) → (⟨S128, .f32⟩ : BufTy).Contents (Elt F) → (⟨S128, .f32⟩ : BufTy).Contents (Elt F)),
    unary main_v48 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v45 main_v50 main_v51 (subf : (⟨S50000x128, .f32⟩ : BufTy).Contents (Elt F) → (⟨S50000x128, .f32⟩ : BufTy).Contents (Elt F) → (⟨S50000x128, .f32⟩ : BufTy).Contents (Elt F)),
    binary main_v51 main_v51 main_v52 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v52 main_cst_10 main_v53 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)),
    unary main_v48 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v45 main_v57 main_v58 (subf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v59 (broadcastInDim S128 ![] bcast_S_S128 : (⟨S_, .f32⟩ : BufTy).Contents (Elt F) → (⟨S128, .f32⟩ : BufTy).Contents (Elt F)),
    binary main_v55 main_v59 main_v60 (addf : (⟨S128, .f32⟩ : BufTy).Contents (Elt F) → (⟨S128, .f32⟩ : BufTy).Contents (Elt F) → (⟨S128, .f32⟩ : BufTy).Contents (Elt F)),
    unary main_v60 main_v61 (Host.rsqrt : (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v58 main_v63 main_v64 (mulf : (⟨S50000x128, .f32⟩ : BufTy).Contents (Elt F) → (⟨S50000x128, .f32⟩ : BufTy).Contents (Elt F) → (⟨S50000x128, .f32⟩ : BufTy).Contents (Elt F)),
    unary main_arg4 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v64 main_v66 main_v67 (mulf : (⟨S50000x128, .f32⟩ : BufTy).Contents (Elt F) → (⟨S50000x128, .f32⟩ : BufTy).Contents (Elt F) → (⟨S50000x128, .f32⟩ : BufTy).Contents (Elt F)),
    unary main_arg5 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v70) (TRef.of (T := ⟨S50000x128, .f32⟩) main_call0_v0) (TRef.of (T := ⟨S50000x128, .f32⟩) main_v71) maximumf ]

/-- Stretch 4 of @main's operations. -/
abbrev part4 : List (HloOp τ sig (Elt F)) :=
  [ binary main_v71 main_arg6 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_13 (constantI S_ 32 0#32),
    unary main_c_13 main_v73 (broadcastInDim S650000 ![] bcast_S_S650000 : (⟨S_, .i32⟩ : BufTy).Contents (Elt F) → (⟨S650000, .i32⟩ : BufTy).Contents (Elt F)),
    binary main_v3 main_v73 main_v74 (cmpi .slt : (⟨S650000, .i32⟩ : BufTy).Contents (Elt F) → (⟨S650000, .i32⟩ : BufTy).Contents (Elt F) → (⟨S650000, .i1⟩ : BufTy).Contents (Elt F)),
    nullary main_c_14 (constantI S_ 32 50000#32),
    unary main_c_14 main_v75 (broadcastInDim S650000 ![] bcast_S_S650000 : (⟨S_, .i32⟩ : BufTy).Contents (Elt F) → (⟨S650000, .i32⟩ : BufTy).Contents (Elt F)),
    binary main_v3 main_v75 main_v76 (addi : (⟨S650000, .i32⟩ : BufTy).Contents (Elt F) → (⟨S650000, .i32⟩ : BufTy).Contents (Elt F) → (⟨S650000, .i32⟩ : BufTy).Contents (Elt F)),
    ternary main_v74 main_v76 main_v3 main_v77 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v77 main_v78 (broadcastInDim S650000x1 ![0] bcast_S650000_S650000x1_0 : (⟨S650000, .i32⟩ : BufTy).Contents (Elt F) → (⟨S650000x1, .i32⟩ : BufTy).Contents (Elt F)),
    binary main_v72 main_v78 main_v79 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v28 main_v80 (broadcastInDim S650000x1 ![0] bcast_S650000_S650000x1_0 : (⟨S650000, .f32⟩ : BufTy).Contents (Elt F) → (⟨S650000x1, .f32⟩ : BufTy).Contents (Elt F)),
    unary main_v80 main_v81 (broadcastInDim S650000x128 ![0, 1] bcast_S650000x1_S650000x128_0_1 : (⟨S650000x1, .f32⟩ : BufTy).Contents (Elt F) → (⟨S650000x128, .f32⟩ : BufTy).Contents (Elt F)),
    binary main_v79 main_v81 main_v82 (mulf : (⟨S650000x128, .f32⟩ : BufTy).Contents (Elt F) → (⟨S650000x128, .f32⟩ : BufTy).Contents (Elt F) → (⟨S650000x128, .f32⟩ : BufTy).Contents (Elt F)),
    nullary main_cst_15 (constant S_ .f32 0x00000000#32),
    unary main_cst_15 main_v83 (broadcastInDim S50000x128 ![] bcast_S_S50000x128 : (⟨S_, .f32⟩ : BufTy).Contents (Elt F) → (⟨S50000x128, .f32⟩ : BufTy).Contents (Elt F)),
    unary main_v6 main_v84 (broadcastInDim S650000x1 ![0] bcast_S650000_S650000x1_0 : (⟨S650000, .i32⟩ : BufTy).Contents (Elt F) → (⟨S650000x1, .i32⟩ : BufTy).Contents (Elt F)),
    ternary main_v83 main_v84 main_v82 main_v85 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg7 main_v86 (broadcastInDim S1x128 ![1] bcast_S128_S1x128_1 : (⟨S128, .f32⟩ : BufTy).Contents (Elt F) → (⟨S1x128, .f32⟩ : BufTy).Contents (Elt F)),
    unary main_v86 main_v87 (broadcastInDim S50000x128 ![0, 1] bcast_S1x128_S50000x128_0_1 : (⟨S1x128, .f32⟩ : BufTy).Contents (Elt F) → (⟨S50000x128, .f32⟩ : BufTy).Contents (Elt F)),
    binary main_v85 main_v87 main_v88 (addf : (⟨S50000x128, .f32⟩ : BufTy).Contents (Elt F) → (⟨S50000x128, .f32⟩ : BufTy).Contents (Elt F) → (⟨S50000x128, .f32⟩ : BufTy).Contents (Elt F)) ]

/-- Stretch 5 of @main's operations. -/
abbrev part5 : List (HloOp τ sig (Elt F)) :=
  [ nullary main_cst_16 (constant S_ .f32 0x00000000#32),
    binary main_v88 main_cst_16 main_v89 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_17 (constant S_ .f32 0x47435000#32),
    unary main_cst_17 main_v90 (broadcastInDim S128 ![] bcast_S_S128 : (⟨S_, .f32⟩ : BufTy).Contents (Elt F) → (⟨S128, .f32⟩ : BufTy).Contents (Elt F)),
    binary main_v89 main_v90 main_v91 (Host.divf : (⟨S128, .f32⟩ : BufTy).Contents (Elt F) → (⟨S128, .f32⟩ : BufTy).Contents (Elt F) → (⟨S128, .f32⟩ : BufTy).Contents (Elt F)),
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v88 main_v93 main_v94 (subf : (⟨S50000x128, .f32⟩ : BufTy).Contents (Elt F) → (⟨S50000x128, .f32⟩ : BufTy).Contents (Elt F) → (⟨S50000x128, .f32⟩ : BufTy).Contents (Elt F)),
    binary main_v94 main_v94 main_v95 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v95 main_cst_18 main_v96 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v97 (broadcastInDim S128 ![] bcast_S_S128 : (⟨S_, .f32⟩ : BufTy).Contents (Elt F) → (⟨S128, .f32⟩ : BufTy).Contents (Elt F)),
    binary main_v96 main_v97 main_v98 (Host.divf : (⟨S128, .f32⟩ : BufTy).Contents (Elt F) → (⟨S128, .f32⟩ : BufTy).Contents (Elt F) → (⟨S128, .f32⟩ : BufTy).Contents (Elt F)),
    unary main_v91 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v88 main_v100 main_v101 (subf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x3727C5AC#32),
    unary main_cst_20 main_v102 (broadcastInDim S128 ![] bcast_S_S128 : (⟨S_, .f32⟩ : BufTy).Contents (Elt F) → (⟨S128, .f32⟩ : BufTy).Contents (Elt F)),
    binary main_v98 main_v102 main_v103 (addf : (⟨S128, .f32⟩ : BufTy).Contents (Elt F) → (⟨S128, .f32⟩ : BufTy).Contents (Elt F) → (⟨S128, .f32⟩ : BufTy).Contents (Elt F)),
    unary main_v103 main_v104 (Host.rsqrt : (⟨S128, .f32⟩ : BufTy).Contents (Elt F) → (⟨S128, .f32⟩ : BufTy).Contents (Elt F)),
    unary main_v104 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v101 main_v106 main_v107 (mulf : (⟨S50000x128, .f32⟩ : BufTy).Contents (Elt F) → (⟨S50000x128, .f32⟩ : BufTy).Contents (Elt F) → (⟨S50000x128, .f32⟩ : BufTy).Contents (Elt F)),
    unary main_arg8 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v107 main_v109 main_v110 (mulf : (⟨S50000x128, .f32⟩ : BufTy).Contents (Elt F) → (⟨S50000x128, .f32⟩ : BufTy).Contents (Elt F) → (⟨S50000x128, .f32⟩ : BufTy).Contents (Elt F)),
    unary main_arg9 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v110 main_v112 main_v113 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v113) (TRef.of (T := ⟨S50000x128, .f32⟩) main_call1_v0) (TRef.of (T := ⟨S50000x128, .f32⟩) main_v114) maximumf ]

/-- Stretch 6 of @main's operations. -/
abbrev part6 : List (HloOp τ sig (Elt F)) :=
  [ binary main_v114 main_arg10 main_v115 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_21 (constantI S_ 32 0#32),
    unary main_c_21 main_v116 (broadcastInDim S650000 ![] bcast_S_S650000 : (⟨S_, .i32⟩ : BufTy).Contents (Elt F) → (⟨S650000, .i32⟩ : BufTy).Contents (Elt F)),
    binary main_v3 main_v116 main_v117 (cmpi .slt : (⟨S650000, .i32⟩ : BufTy).Contents (Elt F) → (⟨S650000, .i32⟩ : BufTy).Contents (Elt F) → (⟨S650000, .i1⟩ : BufTy).Contents (Elt F)),
    nullary main_c_22 (constantI S_ 32 50000#32),
    unary main_c_22 main_v118 (broadcastInDim S650000 ![] bcast_S_S650000 : (⟨S_, .i32⟩ : BufTy).Contents (Elt F) → (⟨S650000, .i32⟩ : BufTy).Contents (Elt F)),
    binary main_v3 main_v118 main_v119 (addi : (⟨S650000, .i32⟩ : BufTy).Contents (Elt F) → (⟨S650000, .i32⟩ : BufTy).Contents (Elt F) → (⟨S650000, .i32⟩ : BufTy).Contents (Elt F)),
    ternary main_v117 main_v119 main_v3 main_v120 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v120 main_v121 (broadcastInDim S650000x1 ![0] bcast_S650000_S650000x1_0 : (⟨S650000, .i32⟩ : BufTy).Contents (Elt F) → (⟨S650000x1, .i32⟩ : BufTy).Contents (Elt F)),
    binary main_v115 main_v121 main_v122 ((fun x i => Host.gather gather_S50000x40_S650000x1_S650000x40_1_0_n_n_0_1_140 x i) : (⟨S50000x40, .f32⟩ : BufTy).Contents (Elt F) → (⟨S650000x1, .i32⟩ : BufTy).Contents (Elt F) → (⟨S650000x40, .f32⟩ : BufTy).Contents (Elt F)),
    unary main_v28 main_v123 (broadcastInDim S650000x1 ![0] bcast_S650000_S650000x1_0 : (⟨S650000, .f32⟩ : BufTy).Contents (Elt F) → (⟨S650000x1, .f32⟩ : BufTy).Contents (Elt F)),
    unary main_v123 main_v124 (broadcastInDim S650000x40 ![0, 1] bcast_S650000x1_S650000x40_0_1 : (⟨S650000x1, .f32⟩ : BufTy).Contents (Elt F) → (⟨S650000x40, .f32⟩ : BufTy).Contents (Elt F)),
    binary main_v122 main_v124 main_v125 (mulf : (⟨S650000x40, .f32⟩ : BufTy).Contents (Elt F) → (⟨S650000x40, .f32⟩ : BufTy).Contents (Elt F) → (⟨S650000x40, .f32⟩ : BufTy).Contents (Elt F)),
    nullary main_cst_23 (constant S_ .f32 0x00000000#32),
    unary main_cst_23 main_v126 (broadcastInDim S50000x40 ![] bcast_S_S50000x40 : (⟨S_, .f32⟩ : BufTy).Contents (Elt F) → (⟨S50000x40, .f32⟩ : BufTy).Contents (Elt F)),
    unary main_v6 main_v127 (broadcastInDim S650000x1 ![0] bcast_S650000_S650000x1_0 : (⟨S650000, .i32⟩ : BufTy).Contents (Elt F) → (⟨S650000x1, .i32⟩ : BufTy).Contents (Elt F)),
    ternary main_v126 main_v127 main_v125 main_v128 ((fun x i u => Host.scatterAdd scatter_S50000x40_S650000x1_S650000x40_1_0_0_1 x i u) : (⟨S50000x40, .f32⟩ : BufTy).Contents (Elt F) → (⟨S650000x1, .i32⟩ : BufTy).Contents (Elt F) → (⟨S650000x40, .f32⟩ : BufTy).Contents (Elt F) → (⟨S50000x40, .f32⟩ : BufTy).Contents (Elt F)),
    unary main_arg11 main_v129 (broadcastInDim S1x40 ![1] bcast_S40_S1x40_1 : (⟨S40, .f32⟩ : BufTy).Contents (Elt F) → (⟨S1x40, .f32⟩ : BufTy).Contents (Elt F)),
    unary main_v129 main_v130 (broadcastInDim S50000x40 ![0, 1] bcast_S1x40_S50000x40_0_1 : (⟨S1x40, .f32⟩ : BufTy).Contents (Elt F) → (⟨S50000x40, .f32⟩ : BufTy).Contents (Elt F)),
    binary main_v128 main_v130 main_v131 (addf : (⟨S50000x40, .f32⟩ : BufTy).Contents (Elt F) → (⟨S50000x40, .f32⟩ : BufTy).Contents (Elt F) → (⟨S50000x40, .f32⟩ : BufTy).Contents (Elt F)) ]

/-- Stretch 7 of @main's operations. -/
abbrev part7 : List (HloOp τ sig (Elt F)) :=
  [ TRef.nullary (TRef.of (T := ⟨S_, .f32⟩) main_call2_cst) (constant S_ .f32 0xFF800000#32),
    TRef.binary (TRef.of (T := ⟨S50000x40, .f32⟩) main_v131) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v131) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v132) subf ]

set_option maxRecDepth 100000 in
/-- @main's operations are the seven stretches in order. -/
theorem ops_split : (ops : List (HloOp τ sig (Elt F))) = part1 ++ (part2 ++ (part3 ++ (part4 ++ (part5 ++ (part6 ++ part7))))) := rfl

variable (V0 : Valuation τ sig (Elt F))

/-- The buffers' contents before the first stretch. -/
def val0 : Valuation τ sig (Elt F) := V0

theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl
theorem val0_main_arg2 : val0 V0 (no_index (Proc.devRef .tc main_arg2)) = V0 (Proc.devRef .tc main_arg2) := rfl
theorem val0_main_arg3 : val0 V0 (no_index (Proc.devRef .tc main_arg3)) = V0 (Proc.devRef .tc main_arg3) := rfl
theorem val0_main_arg4 : val0 V0 (no_index (Proc.devRef .tc main_arg4)) = V0 (Proc.devRef .tc main_arg4) := rfl
theorem val0_main_arg5 : val0 V0 (no_index (Proc.devRef .tc main_arg5)) = V0 (Proc.devRef .tc main_arg5) := rfl
theorem val0_main_arg6 : val0 V0 (no_index (Proc.devRef .tc main_arg6)) = V0 (Proc.devRef .tc main_arg6) := rfl
theorem val0_main_arg7 : val0 V0 (no_index (Proc.devRef .tc main_arg7)) = V0 (Proc.devRef .tc main_arg7) := rfl
theorem val0_main_arg8 : val0 V0 (no_index (Proc.devRef .tc main_arg8)) = V0 (Proc.devRef .tc main_arg8) := rfl
theorem val0_main_arg9 : val0 V0 (no_index (Proc.devRef .tc main_arg9)) = V0 (Proc.devRef .tc main_arg9) := rfl
theorem val0_main_arg10 : val0 V0 (no_index (Proc.devRef .tc main_arg10)) = V0 (Proc.devRef .tc main_arg10) := rfl
theorem val0_main_arg11 : val0 V0 (no_index (Proc.devRef .tc main_arg11)) = V0 (Proc.devRef .tc main_arg11) := rfl

/-- The buffers' contents after the first 1 stretch. -/
def val1 : Valuation τ sig (Elt F) := after part1 (val0 V0)
/-- The buffers stretch 1 writes. -/
abbrev part1_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]
set_option maxRecDepth 100000 in
theorem part1_writes : (part1 : List (HloOp τ sig (Elt F))).Forall fun op => op.writes ⊆ (part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem val1_keep (r : Ref sig .tc) (h : r ∉ part1_W) :
    val1 V0 (Proc.devRef .tc r) = val0 V0 (Proc.devRef .tc r) :=
  after_of_writes_sub part1 _ part1_writes h
theorem val1_main_arg0 : val1 V0 (no_index (Proc.devRef .tc main_arg0)) = V0 (Proc.devRef .tc main_arg0) :=
  (val1_keep V0 main_arg0 (by decide)).trans (val0_main_arg0 V0)
theorem val1_main_arg1 : val1 V0 (no_index (Proc.devRef .tc main_arg1)) = V0 (Proc.devRef .tc main_arg1) :=
  (val1_keep V0 main_arg1 (by decide)).trans (val0_main_arg1 V0)
theorem val1_main_arg2 : val1 V0 (no_index (Proc.devRef .tc main_arg2)) = V0 (Proc.devRef .tc main_arg2) :=
  (val1_keep V0 main_arg2 (by decide)).trans (val0_main_arg2 V0)
theorem val1_main_arg3 : val1 V0 (no_index (Proc.devRef .tc main_arg3)) = V0 (Proc.devRef .tc main_arg3) :=
  (val1_keep V0 main_arg3 (by decide)).trans (val0_main_arg3 V0)
theorem val1_main_arg4 : val1 V0 (no_index (Proc.devRef .tc main_arg4)) = V0 (Proc.devRef .tc main_arg4) :=
  (val1_keep V0 main_arg4 (by decide)).trans (val0_main_arg4 V0)
theorem val1_main_arg5 : val1 V0 (no_index (Proc.devRef .tc main_arg5)) = V0 (Proc.devRef .tc main_arg5) :=
  (val1_keep V0 main_arg5 (by decide)).trans (val0_main_arg5 V0)
theorem val1_main_arg6 : val1 V0 (no_index (Proc.devRef .tc main_arg6)) = V0 (Proc.devRef .tc main_arg6) :=
  (val1_keep V0 main_arg6 (by decide)).trans (val0_main_arg6 V0)
theorem val1_main_arg7 : val1 V0 (no_index (Proc.devRef .tc main_arg7)) = V0 (Proc.devRef .tc main_arg7) :=
  (val1_keep V0 main_arg7 (by decide)).trans (val0_main_arg7 V0)
theorem val1_main_arg8 : val1 V0 (no_index (Proc.devRef .tc main_arg8)) = V0 (Proc.devRef .tc main_arg8) :=
  (val1_keep V0 main_arg8 (by decide)).trans (val0_main_arg8 V0)
theorem val1_main_arg9 : val1 V0 (no_index (Proc.devRef .tc main_arg9)) = V0 (Proc.devRef .tc main_arg9) :=
  (val1_keep V0 main_arg9 (by decide)).trans (val0_main_arg9 V0)
theorem val1_main_arg10 : val1 V0 (no_index (Proc.devRef .tc main_arg10)) = V0 (Proc.devRef .tc main_arg10) :=
  (val1_keep V0 main_arg10 (by decide)).trans (val0_main_arg10 V0)
theorem val1_main_arg11 : val1 V0 (no_index (Proc.devRef .tc main_arg11)) = V0 (Proc.devRef .tc main_arg11) :=
  (val1_keep V0 main_arg11 (by decide)).trans (val0_main_arg11 V0)
set_option maxHeartbeats 4000000 in
/-- After the first stretch `main_v3` holds its stage of the edge list. -/
theorem val1_main_v3 : val1 V0 (no_index (Proc.devRef .tc main_v3)) = Cert.ReferenceIdeal.Read.val_main_v3 (F := F) (V0 (Proc.devRef .tc main_arg1)) := by
  unfold val1
  simp only [part1]
  after_results_simp
  first | (simp only [val0_main_arg1] <;> rfl) | rfl
set_option maxHeartbeats 4000000 in
/-- After the first stretch `main_v6` holds its stage of the edge list. -/
theorem val1_main_v6 : val1 V0 (no_index (Proc.devRef .tc main_v6)) = Cert.ReferenceIdeal.Read.val_main_v6 (F := F) (V0 (Proc.devRef .tc main_arg1)) := by
  unfold val1
  simp only [part1]
  after_results_simp
  first | (simp only [val0_main_arg1] <;> rfl) | rfl
set_option maxHeartbeats 4000000 in
/-- After the first stretch `main_v28` holds its stage of the edge list. -/
theorem val1_main_v28 : val1 V0 (no_index (Proc.devRef .tc main_v28)) = Cert.ReferenceIdeal.Read.val_main_v28 (F := F) (V0 (Proc.devRef .tc main_arg1)) := by
  unfold val1
  simp only [part1]
  after_results_simp
  first | (simp only [val0_main_arg1] <;> rfl) | rfl

/-- The buffers' contents after the first 2 stretches. -/
def val2 : Valuation τ sig (Elt F) := after part2 (val1 V0)
/-- The buffers stretch 2 writes. -/
abbrev part2_W : List (Ref sig .tc) := [main_v29, main_c_5, main_v30, main_v31, main_c_6, main_v32, main_v33, main_v34, main_v35, main_v36, main_v37, main_v38, main_v39, main_cst_7, main_v40, main_v41, main_v42, main_v43, main_v44, main_v45]
set_option maxRecDepth 100000 in
theorem part2_writes : (part2 : List (HloOp τ sig (Elt F))).Forall fun op => op.writes ⊆ (part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem val2_keep (r : Ref sig .tc) (h : r ∉ part2_W) :
    val2 V0 (Proc.devRef .tc r) = val1 V0 (Proc.devRef .tc r) :=
  after_of_writes_sub part2 _ part2_writes h
theorem val2_main_arg0 : val2 V0 (no_index (Proc.devRef .tc main_arg0)) = V0 (Proc.devRef .tc main_arg0) :=
  (val2_keep V0 main_arg0 (by decide)).trans (val1_main_arg0 V0)
theorem val2_main_arg1 : val2 V0 (no_index (Proc.devRef .tc main_arg1)) = V0 (Proc.devRef .tc main_arg1) :=
  (val2_keep V0 main_arg1 (by decide)).trans (val1_main_arg1 V0)
theorem val2_main_arg2 : val2 V0 (no_index (Proc.devRef .tc main_arg2)) = V0 (Proc.devRef .tc main_arg2) :=
  (val2_keep V0 main_arg2 (by decide)).trans (val1_main_arg2 V0)
theorem val2_main_arg3 : val2 V0 (no_index (Proc.devRef .tc main_arg3)) = V0 (Proc.devRef .tc main_arg3) :=
  (val2_keep V0 main_arg3 (by decide)).trans (val1_main_arg3 V0)
theorem val2_main_arg4 : val2 V0 (no_index (Proc.devRef .tc main_arg4)) = V0 (Proc.devRef .tc main_arg4) :=
  (val2_keep V0 main_arg4 (by decide)).trans (val1_main_arg4 V0)
theorem val2_main_arg5 : val2 V0 (no_index (Proc.devRef .tc main_arg5)) = V0 (Proc.devRef .tc main_arg5) :=
  (val2_keep V0 main_arg5 (by decide)).trans (val1_main_arg5 V0)
theorem val2_main_arg6 : val2 V0 (no_index (Proc.devRef .tc main_arg6)) = V0 (Proc.devRef .tc main_arg6) :=
  (val2_keep V0 main_arg6 (by decide)).trans (val1_main_arg6 V0)
theorem val2_main_arg7 : val2 V0 (no_index (Proc.devRef .tc main_arg7)) = V0 (Proc.devRef .tc main_arg7) :=
  (val2_keep V0 main_arg7 (by decide)).trans (val1_main_arg7 V0)
theorem val2_main_arg8 : val2 V0 (no_index (Proc.devRef .tc main_arg8)) = V0 (Proc.devRef .tc main_arg8) :=
  (val2_keep V0 main_arg8 (by decide)).trans (val1_main_arg8 V0)
theorem val2_main_arg9 : val2 V0 (no_index (Proc.devRef .tc main_arg9)) = V0 (Proc.devRef .tc main_arg9) :=
  (val2_keep V0 main_arg9 (by decide)).trans (val1_main_arg9 V0)
theorem val2_main_arg10 : val2 V0 (no_index (Proc.devRef .tc main_arg10)) = V0 (Proc.devRef .tc main_arg10) :=
  (val2_keep V0 main_arg10 (by decide)).trans (val1_main_arg10 V0)
theorem val2_main_arg11 : val2 V0 (no_index (Proc.devRef .tc main_arg11)) = V0 (Proc.devRef .tc main_arg11) :=
  (val2_keep V0 main_arg11 (by decide)).trans (val1_main_arg11 V0)
theorem val2_main_v3 : val2 V0 (no_index (Proc.devRef .tc main_v3)) = Cert.ReferenceIdeal.Read.val_main_v3 (F := F) (V0 (Proc.devRef .tc main_arg1)) :=
  (val2_keep V0 main_v3 (by decide)).trans (val1_main_v3 V0)
theorem val2_main_v6 : val2 V0 (no_index (Proc.devRef .tc main_v6)) = Cert.ReferenceIdeal.Read.val_main_v6 (F := F) (V0 (Proc.devRef .tc main_arg1)) :=
  (val2_keep V0 main_v6 (by decide)).trans (val1_main_v6 V0)
theorem val2_main_v28 : val2 V0 (no_index (Proc.devRef .tc main_v28)) = Cert.ReferenceIdeal.Read.val_main_v28 (F := F) (V0 (Proc.devRef .tc main_arg1)) :=
  (val2_keep V0 main_v28 (by decide)).trans (val1_main_v28 V0)
set_option maxHeartbeats 4000000 in
/-- After stretch 2 `main_v45` holds its stage of the arguments. -/
theorem val2_main_v45 : val2 V0 (no_index (Proc.devRef .tc main_v45)) = Cert.ReferenceIdeal.Read.val_main_v45 (F := F) (V0 (Proc.devRef .tc main_arg0)) (V0 (Proc.devRef .tc main_arg1)) (V0 (Proc.devRef .tc main_arg2)) (V0 (Proc.devRef .tc main_arg3)) := by
  unfold val2
  simp only [part2]
  after_results_simp
  simp only [val1_main_v3, val1_main_v6, val1_main_v28, val1_main_arg0, val1_main_arg2, val1_main_arg3] <;> rfl

/-- The buffers' contents after the first 3 stretches. -/
def val3 : Valuation τ sig (Elt F) := after part3 (val2 V0)
/-- The buffers stretch 3 writes. -/
abbrev part3_W : List (Ref sig .tc) := [main_cst_8, main_v46, main_cst_9, main_v47, main_v48, main_v49, main_v50, main_v51, main_v52, main_cst_10, main_v53, main_cst_11, main_v54, main_v55, main_v56, main_v57, main_v58, main_cst_12, main_v59, main_v60, main_v61, main_v62, main_v63, main_v64, main_v65, main_v66, main_v67, main_v68, main_v69, main_v70, main_call0_cst, main_call0_v0, main_v71]
set_option maxRecDepth 100000 in
theorem part3_writes : (part3 : List (HloOp τ sig (Elt F))).Forall fun op => op.writes ⊆ (part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem val3_keep (r : Ref sig .tc) (h : r ∉ part3_W) :
    val3 V0 (Proc.devRef .tc r) = val2 V0 (Proc.devRef .tc r) :=
  after_of_writes_sub part3 _ part3_writes h
theorem val3_main_arg0 : val3 V0 (no_index (Proc.devRef .tc main_arg0)) = V0 (Proc.devRef .tc main_arg0) :=
  (val3_keep V0 main_arg0 (by decide)).trans (val2_main_arg0 V0)
theorem val3_main_arg1 : val3 V0 (no_index (Proc.devRef .tc main_arg1)) = V0 (Proc.devRef .tc main_arg1) :=
  (val3_keep V0 main_arg1 (by decide)).trans (val2_main_arg1 V0)
theorem val3_main_arg2 : val3 V0 (no_index (Proc.devRef .tc main_arg2)) = V0 (Proc.devRef .tc main_arg2) :=
  (val3_keep V0 main_arg2 (by decide)).trans (val2_main_arg2 V0)
theorem val3_main_arg3 : val3 V0 (no_index (Proc.devRef .tc main_arg3)) = V0 (Proc.devRef .tc main_arg3) :=
  (val3_keep V0 main_arg3 (by decide)).trans (val2_main_arg3 V0)
theorem val3_main_arg4 : val3 V0 (no_index (Proc.devRef .tc main_arg4)) = V0 (Proc.devRef .tc main_arg4) :=
  (val3_keep V0 main_arg4 (by decide)).trans (val2_main_arg4 V0)
theorem val3_main_arg5 : val3 V0 (no_index (Proc.devRef .tc main_arg5)) = V0 (Proc.devRef .tc main_arg5) :=
  (val3_keep V0 main_arg5 (by decide)).trans (val2_main_arg5 V0)
theorem val3_main_arg6 : val3 V0 (no_index (Proc.devRef .tc main_arg6)) = V0 (Proc.devRef .tc main_arg6) :=
  (val3_keep V0 main_arg6 (by decide)).trans (val2_main_arg6 V0)
theorem val3_main_arg7 : val3 V0 (no_index (Proc.devRef .tc main_arg7)) = V0 (Proc.devRef .tc main_arg7) :=
  (val3_keep V0 main_arg7 (by decide)).trans (val2_main_arg7 V0)
theorem val3_main_arg8 : val3 V0 (no_index (Proc.devRef .tc main_arg8)) = V0 (Proc.devRef .tc main_arg8) :=
  (val3_keep V0 main_arg8 (by decide)).trans (val2_main_arg8 V0)
theorem val3_main_arg9 : val3 V0 (no_index (Proc.devRef .tc main_arg9)) = V0 (Proc.devRef .tc main_arg9) :=
  (val3_keep V0 main_arg9 (by decide)).trans (val2_main_arg9 V0)
theorem val3_main_arg10 : val3 V0 (no_index (Proc.devRef .tc main_arg10)) = V0 (Proc.devRef .tc main_arg10) :=
  (val3_keep V0 main_arg10 (by decide)).trans (val2_main_arg10 V0)
theorem val3_main_arg11 : val3 V0 (no_index (Proc.devRef .tc main_arg11)) = V0 (Proc.devRef .tc main_arg11) :=
  (val3_keep V0 main_arg11 (by decide)).trans (val2_main_arg11 V0)
theorem val3_main_v3 : val3 V0 (no_index (Proc.devRef .tc main_v3)) = Cert.ReferenceIdeal.Read.val_main_v3 (F := F) (V0 (Proc.devRef .tc main_arg1)) :=
  (val3_keep V0 main_v3 (by decide)).trans (val2_main_v3 V0)
theorem val3_main_v6 : val3 V0 (no_index (Proc.devRef .tc main_v6)) = Cert.ReferenceIdeal.Read.val_main_v6 (F := F) (V0 (Proc.devRef .tc main_arg1)) :=
  (val3_keep V0 main_v6 (by decide)).trans (val2_main_v6 V0)
theorem val3_main_v28 : val3 V0 (no_index (Proc.devRef .tc main_v28)) = Cert.ReferenceIdeal.Read.val_main_v28 (F := F) (V0 (Proc.devRef .tc main_arg1)) :=
  (val3_keep V0 main_v28 (by decide)).trans (val2_main_v28 V0)
set_option maxHeartbeats 4000000 in
/-- After stretch 3 `main_v71` holds its stage of the arguments. -/
theorem val3_main_v71 : val3 V0 (no_index (Proc.devRef .tc main_v71)) = Cert.ReferenceIdeal.Read.val_main_v71 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val3
  simp only [part3]
  after_results_simp
  simp only [val2_main_v45, val2_main_arg4, val2_main_arg5] <;> rfl

/-- The buffers' contents after the first 4 stretches. -/
def val4 : Valuation τ sig (Elt F) := after part4 (val3 V0)
/-- The buffers stretch 4 writes. -/
abbrev part4_W : List (Ref sig .tc) := [main_v72, main_c_13, main_v73, main_v74, main_c_14, main_v75, main_v76, main_v77, main_v78, main_v79, main_v80, main_v81, main_v82, main_cst_15, main_v83, main_v84, main_v85, main_v86, main_v87, main_v88]
set_option maxRecDepth 100000 in
theorem part4_writes : (part4 : List (HloOp τ sig (Elt F))).Forall fun op => op.writes ⊆ (part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem val4_keep (r : Ref sig .tc) (h : r ∉ part4_W) :
    val4 V0 (Proc.devRef .tc r) = val3 V0 (Proc.devRef .tc r) :=
  after_of_writes_sub part4 _ part4_writes h
theorem val4_main_arg0 : val4 V0 (no_index (Proc.devRef .tc main_arg0)) = V0 (Proc.devRef .tc main_arg0) :=
  (val4_keep V0 main_arg0 (by decide)).trans (val3_main_arg0 V0)
theorem val4_main_arg1 : val4 V0 (no_index (Proc.devRef .tc main_arg1)) = V0 (Proc.devRef .tc main_arg1) :=
  (val4_keep V0 main_arg1 (by decide)).trans (val3_main_arg1 V0)
theorem val4_main_arg2 : val4 V0 (no_index (Proc.devRef .tc main_arg2)) = V0 (Proc.devRef .tc main_arg2) :=
  (val4_keep V0 main_arg2 (by decide)).trans (val3_main_arg2 V0)
theorem val4_main_arg3 : val4 V0 (no_index (Proc.devRef .tc main_arg3)) = V0 (Proc.devRef .tc main_arg3) :=
  (val4_keep V0 main_arg3 (by decide)).trans (val3_main_arg3 V0)
theorem val4_main_arg4 : val4 V0 (no_index (Proc.devRef .tc main_arg4)) = V0 (Proc.devRef .tc main_arg4) :=
  (val4_keep V0 main_arg4 (by decide)).trans (val3_main_arg4 V0)
theorem val4_main_arg5 : val4 V0 (no_index (Proc.devRef .tc main_arg5)) = V0 (Proc.devRef .tc main_arg5) :=
  (val4_keep V0 main_arg5 (by decide)).trans (val3_main_arg5 V0)
theorem val4_main_arg6 : val4 V0 (no_index (Proc.devRef .tc main_arg6)) = V0 (Proc.devRef .tc main_arg6) :=
  (val4_keep V0 main_arg6 (by decide)).trans (val3_main_arg6 V0)
theorem val4_main_arg7 : val4 V0 (no_index (Proc.devRef .tc main_arg7)) = V0 (Proc.devRef .tc main_arg7) :=
  (val4_keep V0 main_arg7 (by decide)).trans (val3_main_arg7 V0)
theorem val4_main_arg8 : val4 V0 (no_index (Proc.devRef .tc main_arg8)) = V0 (Proc.devRef .tc main_arg8) :=
  (val4_keep V0 main_arg8 (by decide)).trans (val3_main_arg8 V0)
theorem val4_main_arg9 : val4 V0 (no_index (Proc.devRef .tc main_arg9)) = V0 (Proc.devRef .tc main_arg9) :=
  (val4_keep V0 main_arg9 (by decide)).trans (val3_main_arg9 V0)
theorem val4_main_arg10 : val4 V0 (no_index (Proc.devRef .tc main_arg10)) = V0 (Proc.devRef .tc main_arg10) :=
  (val4_keep V0 main_arg10 (by decide)).trans (val3_main_arg10 V0)
theorem val4_main_arg11 : val4 V0 (no_index (Proc.devRef .tc main_arg11)) = V0 (Proc.devRef .tc main_arg11) :=
  (val4_keep V0 main_arg11 (by decide)).trans (val3_main_arg11 V0)
theorem val4_main_v3 : val4 V0 (no_index (Proc.devRef .tc main_v3)) = Cert.ReferenceIdeal.Read.val_main_v3 (F := F) (V0 (Proc.devRef .tc main_arg1)) :=
  (val4_keep V0 main_v3 (by decide)).trans (val3_main_v3 V0)
theorem val4_main_v6 : val4 V0 (no_index (Proc.devRef .tc main_v6)) = Cert.ReferenceIdeal.Read.val_main_v6 (F := F) (V0 (Proc.devRef .tc main_arg1)) :=
  (val4_keep V0 main_v6 (by decide)).trans (val3_main_v6 V0)
theorem val4_main_v28 : val4 V0 (no_index (Proc.devRef .tc main_v28)) = Cert.ReferenceIdeal.Read.val_main_v28 (F := F) (V0 (Proc.devRef .tc main_arg1)) :=
  (val4_keep V0 main_v28 (by decide)).trans (val3_main_v28 V0)
set_option maxHeartbeats 4000000 in
/-- After stretch 4 `main_v88` holds its stage of the arguments. -/
theorem val4_main_v88 : val4 V0 (no_index (Proc.devRef .tc main_v88)) = Cert.ReferenceIdeal.Read.val_main_v88 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val4
  simp only [part4]
  after_results_simp
  simp only [val3_main_v71, val3_main_v3, val3_main_v6, val3_main_v28, val3_main_arg6, val3_main_arg7] <;> rfl

/-- The buffers' contents after the first 5 stretches. -/
def val5 : Valuation τ sig (Elt F) := after part5 (val4 V0)
/-- The buffers stretch 5 writes. -/
abbrev part5_W : List (Ref sig .tc) := [main_cst_16, main_v89, main_cst_17, main_v90, main_v91, main_v92, main_v93, main_v94, main_v95, main_cst_18, main_v96, main_cst_19, main_v97, main_v98, main_v99, main_v100, main_v101, main_cst_20, main_v102, main_v103, main_v104, main_v105, main_v106, main_v107, main_v108, main_v109, main_v110, main_v111, main_v112, main_v113, main_call1_cst, main_call1_v0, main_v114]
set_option maxRecDepth 100000 in
theorem part5_writes : (part5 : List (HloOp τ sig (Elt F))).Forall fun op => op.writes ⊆ (part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 5 does not write keeps its contents through it. -/
theorem val5_keep (r : Ref sig .tc) (h : r ∉ part5_W) :
    val5 V0 (Proc.devRef .tc r) = val4 V0 (Proc.devRef .tc r) :=
  after_of_writes_sub part5 _ part5_writes h
theorem val5_main_arg0 : val5 V0 (no_index (Proc.devRef .tc main_arg0)) = V0 (Proc.devRef .tc main_arg0) :=
  (val5_keep V0 main_arg0 (by decide)).trans (val4_main_arg0 V0)
theorem val5_main_arg1 : val5 V0 (no_index (Proc.devRef .tc main_arg1)) = V0 (Proc.devRef .tc main_arg1) :=
  (val5_keep V0 main_arg1 (by decide)).trans (val4_main_arg1 V0)
theorem val5_main_arg2 : val5 V0 (no_index (Proc.devRef .tc main_arg2)) = V0 (Proc.devRef .tc main_arg2) :=
  (val5_keep V0 main_arg2 (by decide)).trans (val4_main_arg2 V0)
theorem val5_main_arg3 : val5 V0 (no_index (Proc.devRef .tc main_arg3)) = V0 (Proc.devRef .tc main_arg3) :=
  (val5_keep V0 main_arg3 (by decide)).trans (val4_main_arg3 V0)
theorem val5_main_arg4 : val5 V0 (no_index (Proc.devRef .tc main_arg4)) = V0 (Proc.devRef .tc main_arg4) :=
  (val5_keep V0 main_arg4 (by decide)).trans (val4_main_arg4 V0)
theorem val5_main_arg5 : val5 V0 (no_index (Proc.devRef .tc main_arg5)) = V0 (Proc.devRef .tc main_arg5) :=
  (val5_keep V0 main_arg5 (by decide)).trans (val4_main_arg5 V0)
theorem val5_main_arg6 : val5 V0 (no_index (Proc.devRef .tc main_arg6)) = V0 (Proc.devRef .tc main_arg6) :=
  (val5_keep V0 main_arg6 (by decide)).trans (val4_main_arg6 V0)
theorem val5_main_arg7 : val5 V0 (no_index (Proc.devRef .tc main_arg7)) = V0 (Proc.devRef .tc main_arg7) :=
  (val5_keep V0 main_arg7 (by decide)).trans (val4_main_arg7 V0)
theorem val5_main_arg8 : val5 V0 (no_index (Proc.devRef .tc main_arg8)) = V0 (Proc.devRef .tc main_arg8) :=
  (val5_keep V0 main_arg8 (by decide)).trans (val4_main_arg8 V0)
theorem val5_main_arg9 : val5 V0 (no_index (Proc.devRef .tc main_arg9)) = V0 (Proc.devRef .tc main_arg9) :=
  (val5_keep V0 main_arg9 (by decide)).trans (val4_main_arg9 V0)
theorem val5_main_arg10 : val5 V0 (no_index (Proc.devRef .tc main_arg10)) = V0 (Proc.devRef .tc main_arg10) :=
  (val5_keep V0 main_arg10 (by decide)).trans (val4_main_arg10 V0)
theorem val5_main_arg11 : val5 V0 (no_index (Proc.devRef .tc main_arg11)) = V0 (Proc.devRef .tc main_arg11) :=
  (val5_keep V0 main_arg11 (by decide)).trans (val4_main_arg11 V0)
theorem val5_main_v3 : val5 V0 (no_index (Proc.devRef .tc main_v3)) = Cert.ReferenceIdeal.Read.val_main_v3 (F := F) (V0 (Proc.devRef .tc main_arg1)) :=
  (val5_keep V0 main_v3 (by decide)).trans (val4_main_v3 V0)
theorem val5_main_v6 : val5 V0 (no_index (Proc.devRef .tc main_v6)) = Cert.ReferenceIdeal.Read.val_main_v6 (F := F) (V0 (Proc.devRef .tc main_arg1)) :=
  (val5_keep V0 main_v6 (by decide)).trans (val4_main_v6 V0)
theorem val5_main_v28 : val5 V0 (no_index (Proc.devRef .tc main_v28)) = Cert.ReferenceIdeal.Read.val_main_v28 (F := F) (V0 (Proc.devRef .tc main_arg1)) :=
  (val5_keep V0 main_v28 (by decide)).trans (val4_main_v28 V0)
set_option maxHeartbeats 4000000 in
/-- After stretch 5 `main_v114` holds its stage of the arguments. -/
theorem val5_main_v114 : val5 V0 (no_index (Proc.devRef .tc main_v114)) = Cert.ReferenceIdeal.Read.val_main_v114 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val5
  simp only [part5]
  after_results_simp
  simp only [val4_main_v88, val4_main_arg8, val4_main_arg9] <;> rfl

/-- The buffers' contents after the first 6 stretches. -/
def val6 : Valuation τ sig (Elt F) := after part6 (val5 V0)
/-- The buffers stretch 6 writes. -/
abbrev part6_W : List (Ref sig .tc) := [main_v115, main_c_21, main_v116, main_v117, main_c_22, main_v118, main_v119, main_v120, main_v121, main_v122, main_v123, main_v124, main_v125, main_cst_23, main_v126, main_v127, main_v128, main_v129, main_v130, main_v131]
set_option maxRecDepth 100000 in
theorem part6_writes : (part6 : List (HloOp τ sig (Elt F))).Forall fun op => op.writes ⊆ (part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 6 does not write keeps its contents through it. -/
theorem val6_keep (r : Ref sig .tc) (h : r ∉ part6_W) :
    val6 V0 (Proc.devRef .tc r) = val5 V0 (Proc.devRef .tc r) :=
  after_of_writes_sub part6 _ part6_writes h
theorem val6_main_arg0 : val6 V0 (no_index (Proc.devRef .tc main_arg0)) = V0 (Proc.devRef .tc main_arg0) :=
  (val6_keep V0 main_arg0 (by decide)).trans (val5_main_arg0 V0)
theorem val6_main_arg1 : val6 V0 (no_index (Proc.devRef .tc main_arg1)) = V0 (Proc.devRef .tc main_arg1) :=
  (val6_keep V0 main_arg1 (by decide)).trans (val5_main_arg1 V0)
theorem val6_main_arg2 : val6 V0 (no_index (Proc.devRef .tc main_arg2)) = V0 (Proc.devRef .tc main_arg2) :=
  (val6_keep V0 main_arg2 (by decide)).trans (val5_main_arg2 V0)
theorem val6_main_arg3 : val6 V0 (no_index (Proc.devRef .tc main_arg3)) = V0 (Proc.devRef .tc main_arg3) :=
  (val6_keep V0 main_arg3 (by decide)).trans (val5_main_arg3 V0)
theorem val6_main_arg4 : val6 V0 (no_index (Proc.devRef .tc main_arg4)) = V0 (Proc.devRef .tc main_arg4) :=
  (val6_keep V0 main_arg4 (by decide)).trans (val5_main_arg4 V0)
theorem val6_main_arg5 : val6 V0 (no_index (Proc.devRef .tc main_arg5)) = V0 (Proc.devRef .tc main_arg5) :=
  (val6_keep V0 main_arg5 (by decide)).trans (val5_main_arg5 V0)
theorem val6_main_arg6 : val6 V0 (no_index (Proc.devRef .tc main_arg6)) = V0 (Proc.devRef .tc main_arg6) :=
  (val6_keep V0 main_arg6 (by decide)).trans (val5_main_arg6 V0)
theorem val6_main_arg7 : val6 V0 (no_index (Proc.devRef .tc main_arg7)) = V0 (Proc.devRef .tc main_arg7) :=
  (val6_keep V0 main_arg7 (by decide)).trans (val5_main_arg7 V0)
theorem val6_main_arg8 : val6 V0 (no_index (Proc.devRef .tc main_arg8)) = V0 (Proc.devRef .tc main_arg8) :=
  (val6_keep V0 main_arg8 (by decide)).trans (val5_main_arg8 V0)
theorem val6_main_arg9 : val6 V0 (no_index (Proc.devRef .tc main_arg9)) = V0 (Proc.devRef .tc main_arg9) :=
  (val6_keep V0 main_arg9 (by decide)).trans (val5_main_arg9 V0)
theorem val6_main_arg10 : val6 V0 (no_index (Proc.devRef .tc main_arg10)) = V0 (Proc.devRef .tc main_arg10) :=
  (val6_keep V0 main_arg10 (by decide)).trans (val5_main_arg10 V0)
theorem val6_main_arg11 : val6 V0 (no_index (Proc.devRef .tc main_arg11)) = V0 (Proc.devRef .tc main_arg11) :=
  (val6_keep V0 main_arg11 (by decide)).trans (val5_main_arg11 V0)
theorem val6_main_v3 : val6 V0 (no_index (Proc.devRef .tc main_v3)) = Cert.ReferenceIdeal.Read.val_main_v3 (F := F) (V0 (Proc.devRef .tc main_arg1)) :=
  (val6_keep V0 main_v3 (by decide)).trans (val5_main_v3 V0)
theorem val6_main_v6 : val6 V0 (no_index (Proc.devRef .tc main_v6)) = Cert.ReferenceIdeal.Read.val_main_v6 (F := F) (V0 (Proc.devRef .tc main_arg1)) :=
  (val6_keep V0 main_v6 (by decide)).trans (val5_main_v6 V0)
theorem val6_main_v28 : val6 V0 (no_index (Proc.devRef .tc main_v28)) = Cert.ReferenceIdeal.Read.val_main_v28 (F := F) (V0 (Proc.devRef .tc main_arg1)) :=
  (val6_keep V0 main_v28 (by decide)).trans (val5_main_v28 V0)
set_option maxHeartbeats 4000000 in
/-- After stretch 6 `main_v131` holds its stage of the arguments. -/
theorem val6_main_v131 : val6 V0 (no_index (Proc.devRef .tc main_v131)) = Cert.ReferenceIdeal.Read.val_main_v131 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val6
  simp only [part6]
  after_results_simp
  simp only [val5_main_v114, val5_main_v3, val5_main_v6, val5_main_v28, val5_main_arg10, val5_main_arg11] <;> rfl

/-- The buffers' contents after the first 7 stretches. -/
def val7 : Valuation τ sig (Elt F) := after part7 (val6 V0)
/-- The buffers stretch 7 writes. -/
abbrev part7_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v132]
set_option maxRecDepth 100000 in
theorem part7_writes : (part7 : List (HloOp τ sig (Elt F))).Forall fun op => op.writes ⊆ (part7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 7 does not write keeps its contents through it. -/
theorem val7_keep (r : Ref sig .tc) (h : r ∉ part7_W) :
    val7 V0 (Proc.devRef .tc r) = val6 V0 (Proc.devRef .tc r) :=
  after_of_writes_sub part7 _ part7_writes h
set_option maxHeartbeats 4000000 in
/-- After stretch 7 `main_v132` holds its stage of the arguments. -/
theorem val7_main_v132 : val7 V0 (no_index (Proc.devRef .tc main_v132)) = Cert.ReferenceIdeal.Read.val_main_v132 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val7
  simp only [part7]
  after_results_simp
  simp only [val6_main_v131]
  have hy : ∀ y : (⟨S50000x40, .f32⟩ : BufTy).Contents (Elt F),
      (TRef.of (sig := sig) (T := ⟨S50000x40, .f32⟩) main_v131).ofBuf y = y := fun _ => rfl
  have hz : ∀ z : (⟨S50000x40, .f32⟩ : BufTy).Contents (Elt F),
      (TRef.of (sig := sig) (T := ⟨S50000x40, .f32⟩) main_v132).toBuf z = z := fun _ => rfl
  simp only [Cert.Lib.ofBuf_toBuf, hy, hz, Cert.ReferenceIdeal.Read.val_main_call2_cst, Cert.ReferenceIdeal.Read.val_main_call2_v0, Cert.ReferenceIdeal.Read.val_main_call2_cst_0, Cert.ReferenceIdeal.Read.val_main_call2_v1, Cert.ReferenceIdeal.Read.val_main_call2_v2, Cert.ReferenceIdeal.Read.val_main_call2_v3, Cert.ReferenceIdeal.Read.val_main_call2_v4, Cert.ReferenceIdeal.Read.val_main_call2_v5, Cert.ReferenceIdeal.Read.val_main_call2_v6, Cert.ReferenceIdeal.Read.val_main_call2_cst_1, Cert.ReferenceIdeal.Read.val_main_call2_v7, Cert.ReferenceIdeal.Read.val_main_call2_v8, Cert.ReferenceIdeal.Read.val_main_call2_v9, Cert.ReferenceIdeal.Read.val_main_call2_v10, Cert.ReferenceIdeal.Read.val_main_v132]
  all_goals rfl

/-- After all the operations the result buffer holds the last stage of the launch arguments. -/
theorem result_stage : after (ops : List (HloOp τ sig (Elt F))) V0 (Proc.devRef .tc main_v132) = Cert.ReferenceIdeal.Read.val_main_v132 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [ops_split]
  simp only [after_append]
  exact val7_main_v132 V0

/-- No operation writes an argument. -/
theorem arg_kept (r : Ref sig .tc) (h1 : r ∉ (part1_W)) (h2 : r ∉ part2_W) (h3 : r ∉ part3_W) (h4 : r ∉ part4_W)
    (h5 : r ∉ part5_W) (h6 : r ∉ part6_W) (h7 : r ∉ part7_W) :
    after (ops : List (HloOp τ sig (Elt F))) V0 (Proc.devRef .tc r) = V0 (Proc.devRef .tc r) := by
  rw [ops_split]
  simp only [after_append]
  exact (val7_keep V0 r h7).trans ((val6_keep V0 r h6).trans ((val5_keep V0 r h5).trans ((val4_keep V0 r h4).trans
    ((val3_keep V0 r h3).trans ((val2_keep V0 r h2).trans (val1_keep V0 r h1))))))

/-- On every device, from any memory with zero counters: every weakly fair execution of the reference terminates
    with its result at the last stage of the launch arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132)
        = Cert.ReferenceIdeal.Read.val_main_v132 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v132).trans (result_stage (launchContents m c)),
     (h c main_arg0).trans (arg_kept (launchContents m c) main_arg0 (by decide) (by decide) (by decide) (by decide) (by decide) (by decide) (by decide)),
     (h c main_arg1).trans (arg_kept (launchContents m c) main_arg1 (by decide) (by decide) (by decide) (by decide) (by decide) (by decide) (by decide)),
     (h c main_arg2).trans (arg_kept (launchContents m c) main_arg2 (by decide) (by decide) (by decide) (by decide) (by decide) (by decide) (by decide)),
     (h c main_arg3).trans (arg_kept (launchContents m c) main_arg3 (by decide) (by decide) (by decide) (by decide) (by decide) (by decide) (by decide)),
     (h c main_arg4).trans (arg_kept (launchContents m c) main_arg4 (by decide) (by decide) (by decide) (by decide) (by decide) (by decide) (by decide)),
     (h c main_arg5).trans (arg_kept (launchContents m c) main_arg5 (by decide) (by decide) (by decide) (by decide) (by decide) (by decide) (by decide)),
     (h c main_arg6).trans (arg_kept (launchContents m c) main_arg6 (by decide) (by decide) (by decide) (by decide) (by decide) (by decide) (by decide)),
     (h c main_arg7).trans (arg_kept (launchContents m c) main_arg7 (by decide) (by decide) (by decide) (by decide) (by decide) (by decide) (by decide)),
     (h c main_arg8).trans (arg_kept (launchContents m c) main_arg8 (by decide) (by decide) (by decide) (by decide) (by decide) (by decide) (by decide)),
     (h c main_arg9).trans (arg_kept (launchContents m c) main_arg9 (by decide) (by decide) (by decide) (by decide) (by decide) (by decide) (by decide)),
     (h c main_arg10).trans (arg_kept (launchContents m c) main_arg10 (by decide) (by decide) (by decide) (by decide) (by decide) (by decide) (by decide)),
     (h c main_arg11).trans (arg_kept (launchContents m c) main_arg11 (by decide) (by decide) (by decide) (by decide) (by decide) (by decide) (by decide))⟩)
    (run_after m ρ)

end Cert.ReferenceIdeal.Stages

end
-- ==== Proof.Kept.lean ====
/-
  Buffers nothing writes. The program's memory at each boundary between its stretches of host operations and its
  kernels is a fold from the launch memory; a buffer that no operation of a stretch writes and that is no array of
  a kernel is carried through unchanged. Stated here for each buffer a later stage reads: the argument arrays, and
  the edge tables (sources, destinations, edge weights) computed before the first kernel.
-/
import proofs.«105290_j43542378447163_1_alg».proof.Proof.Gen.KernelIdeal.Frame

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- No operation of the named stretch writes the buffer: each operation's written buffer is another one. -/
macro "not_written" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Argument `main_arg0` still holds its launch contents at boundary 1: nothing before it writes the buffer. -/
theorem arg0_at1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (by not_written hostOps0)

/-- Argument `main_arg2` still holds its launch contents at boundary 1: nothing before it writes the buffer. -/
theorem arg2_at1 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (by not_written hostOps0)

/-- Argument `main_arg3` still holds its launch contents at boundary 2: nothing before it writes the buffer. -/
theorem arg3_at2 (c : Dev nD) : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by not_written hostOps0)

/-- Argument `main_arg4` still holds its launch contents at boundary 4: nothing before it writes the buffer. -/
theorem arg4_at4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by not_written hostOps1)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (by not_written hostOps0)

/-- Argument `main_arg5` still holds its launch contents at boundary 4: nothing before it writes the buffer. -/
theorem arg5_at4 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by not_written hostOps1)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by not_written hostOps0)

/-- Argument `main_arg6` still holds its launch contents at boundary 6: nothing before it writes the buffer. -/
theorem arg6_at6 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (by not_written hostOps2)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by not_written hostOps1)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by not_written hostOps0)

/-- Argument `main_arg7` still holds its launch contents at boundary 7: nothing before it writes the buffer. -/
theorem arg7_at7 (c : Dev nD) : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (by not_written hostOps2)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (by not_written hostOps1)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (by not_written hostOps0)

/-- Argument `main_arg8` still holds its launch contents at boundary 9: nothing before it writes the buffer. -/
theorem arg8_at9 (c : Dev nD) : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (by not_written hostOps4)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (by not_written hostOps2)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (by not_written hostOps1)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (by not_written hostOps0)

/-- Argument `main_arg9` still holds its launch contents at boundary 9: nothing before it writes the buffer. -/
theorem arg9_at9 (c : Dev nD) : W9 m ρ c (Proc.devRef .tc main_arg9) = W0 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (by not_written hostOps4)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (by not_written hostOps2)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (by not_written hostOps1)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (by not_written hostOps0)

/-- Argument `main_arg10` still holds its launch contents at boundary 11: nothing before it writes the buffer. -/
theorem arg10_at11 (c : Dev nD) : W11 m ρ c (Proc.devRef .tc main_arg10) = W0 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (by not_written hostOps5)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (by not_written hostOps4)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (by not_written hostOps2)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (by not_written hostOps1)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (by not_written hostOps0)

/-- Argument `main_arg11` still holds its launch contents at boundary 12: nothing before it writes the buffer. -/
theorem arg11_at12 (c : Dev nD) : W12 m ρ c (Proc.devRef .tc main_arg11) = W0 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (by not_written hostOps5)
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (by not_written hostOps4)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (by not_written hostOps2)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (by not_written hostOps1)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (by not_written hostOps0)

/-- Buffer `main_v3`, written before the first kernel, holds the same contents at boundary 2: nothing in between writes it. -/
theorem src_at2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- Buffer `main_v6`, written before the first kernel, holds the same contents at boundary 2: nothing in between writes it. -/
theorem dst_at2 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

/-- Buffer `main_v28`, written before the first kernel, holds the same contents at boundary 2: nothing in between writes it. -/
theorem nrm_at2 (c : Dev nD) : W2 m ρ c (Proc.devRef .tc main_v28) = W1 m ρ c (Proc.devRef .tc main_v28) :=
  calc W2 m ρ c (Proc.devRef .tc main_v28)
    _ = W1 m ρ c (Proc.devRef .tc main_v28) := W2_of_ne m ρ c main_v28 (by decide)

/-- Buffer `main_v3`, written before the first kernel, holds the same contents at boundary 7: nothing in between writes it. -/
theorem src_at7 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written hostOps2)
    _ = W3 m ρ c (Proc.devRef .tc main_v3) := W4_of_ne m ρ c main_v3 (by decide)
    _ = W2 m ρ c (Proc.devRef .tc main_v3) := StableHlo.after_of_forall_not_mem (b := Proc.devRef .tc main_v3) _ _ (by not_written hostOps1)
    _ = W1 m ρ c (Proc.devRef .tc main_v3) := W2_of_ne m ρ c main_v3 (by decide)

/-- Buffer `main_v6`, written before the first kernel, holds the same contents at boundary 7: nothing in between writes it. -/
theorem dst_at7 (c : Dev nD) : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (by not_written hostOps2)
    _ = W3 m ρ c (Proc.devRef .tc main_v6) := W4_of_ne m ρ c main_v6 (by decide)
    _ = W2 m ρ c (Proc.devRef .tc main_v6) := StableHlo.after_of_forall_not_mem (b := Proc.devRef .tc main_v6) _ _ (by not_written hostOps1)
    _ = W1 m ρ c (Proc.devRef .tc main_v6) := W2_of_ne m ρ c main_v6 (by decide)

/-- Buffer `main_v28`, written before the first kernel, holds the same contents at boundary 7: nothing in between writes it. -/
theorem nrm_at7 (c : Dev nD) : W7 m ρ c (Proc.devRef .tc main_v28) = W1 m ρ c (Proc.devRef .tc main_v28) :=
  calc W7 m ρ c (Proc.devRef .tc main_v28)
    _ = W6 m ρ c (Proc.devRef .tc main_v28) := W7_of_ne m ρ c main_v28 (by decide)
    _ = W5 m ρ c (Proc.devRef .tc main_v28) := W6_of_ne m ρ c main_v28 (by decide)
    _ = W4 m ρ c (Proc.devRef .tc main_v28) := StableHlo.after_of_forall_not_mem (b := Proc.devRef .tc main_v28) _ _ (by not_written hostOps2)
    _ = W3 m ρ c (Proc.devRef .tc main_v28) := W4_of_ne m ρ c main_v28 (by decide)
    _ = W2 m ρ c (Proc.devRef .tc main_v28) := StableHlo.after_of_forall_not_mem (b := Proc.devRef .tc main_v28) _ _ (by not_written hostOps1)
    _ = W1 m ρ c (Proc.devRef .tc main_v28) := W2_of_ne m ρ c main_v28 (by decide)

/-- Buffer `main_v3`, written before the first kernel, holds the same contents at boundary 12: nothing in between writes it. -/
theorem src_at12 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem (b := Proc.devRef .tc main_v3) _ _ (by not_written hostOps5)
    _ = W8 m ρ c (Proc.devRef .tc main_v3) := W9_of_ne m ρ c main_v3 (by decide)
    _ = W7 m ρ c (Proc.devRef .tc main_v3) := StableHlo.after_of_forall_not_mem (b := Proc.devRef .tc main_v3) _ _ (by not_written hostOps4)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written hostOps2)
    _ = W3 m ρ c (Proc.devRef .tc main_v3) := W4_of_ne m ρ c main_v3 (by decide)
    _ = W2 m ρ c (Proc.devRef .tc main_v3) := StableHlo.after_of_forall_not_mem (b := Proc.devRef .tc main_v3) _ _ (by not_written hostOps1)
    _ = W1 m ρ c (Proc.devRef .tc main_v3) := W2_of_ne m ρ c main_v3 (by decide)

/-- Buffer `main_v6`, written before the first kernel, holds the same contents at boundary 12: nothing in between writes it. -/
theorem dst_at12 (c : Dev nD) : W12 m ρ c (Proc.devRef .tc main_v6) = W1 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := StableHlo.after_of_forall_not_mem (b := Proc.devRef .tc main_v6) _ _ (by not_written hostOps5)
    _ = W8 m ρ c (Proc.devRef .tc main_v6) := W9_of_ne m ρ c main_v6 (by decide)
    _ = W7 m ρ c (Proc.devRef .tc main_v6) := StableHlo.after_of_forall_not_mem (b := Proc.devRef .tc main_v6) _ _ (by not_written hostOps4)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (by not_written hostOps2)
    _ = W3 m ρ c (Proc.devRef .tc main_v6) := W4_of_ne m ρ c main_v6 (by decide)
    _ = W2 m ρ c (Proc.devRef .tc main_v6) := StableHlo.after_of_forall_not_mem (b := Proc.devRef .tc main_v6) _ _ (by not_written hostOps1)
    _ = W1 m ρ c (Proc.devRef .tc main_v6) := W2_of_ne m ρ c main_v6 (by decide)

/-- Buffer `main_v28`, written before the first kernel, holds the same contents at boundary 12: nothing in between writes it. -/
theorem nrm_at12 (c : Dev nD) : W12 m ρ c (Proc.devRef .tc main_v28) = W1 m ρ c (Proc.devRef .tc main_v28) :=
  calc W12 m ρ c (Proc.devRef .tc main_v28)
    _ = W11 m ρ c (Proc.devRef .tc main_v28) := W12_of_ne m ρ c main_v28 (by decide)
    _ = W10 m ρ c (Proc.devRef .tc main_v28) := W11_of_ne m ρ c main_v28 (by decide)
    _ = W9 m ρ c (Proc.devRef .tc main_v28) := StableHlo.after_of_forall_not_mem (b := Proc.devRef .tc main_v28) _ _ (by not_written hostOps5)
    _ = W8 m ρ c (Proc.devRef .tc main_v28) := W9_of_ne m ρ c main_v28 (by decide)
    _ = W7 m ρ c (Proc.devRef .tc main_v28) := StableHlo.after_of_forall_not_mem (b := Proc.devRef .tc main_v28) _ _ (by not_written hostOps4)
    _ = W6 m ρ c (Proc.devRef .tc main_v28) := W7_of_ne m ρ c main_v28 (by decide)
    _ = W5 m ρ c (Proc.devRef .tc main_v28) := W6_of_ne m ρ c main_v28 (by decide)
    _ = W4 m ρ c (Proc.devRef .tc main_v28) := StableHlo.after_of_forall_not_mem (b := Proc.devRef .tc main_v28) _ _ (by not_written hostOps2)
    _ = W3 m ρ c (Proc.devRef .tc main_v28) := W4_of_ne m ρ c main_v28 (by decide)
    _ = W2 m ρ c (Proc.devRef .tc main_v28) := StableHlo.after_of_forall_not_mem (b := Proc.devRef .tc main_v28) _ _ (by not_written hostOps1)
    _ = W1 m ρ c (Proc.devRef .tc main_v28) := W2_of_ne m ρ c main_v28 (by decide)

end Cert.KernelIdeal.Val

end
-- ==== Proof.StageGlue.lean ====
/-
  The edge tables. Before its first kernel the program computes, from the edge list alone, the source and
  destination rows with one self-loop per node appended, and each edge's weight (the product of the two endpoints'
  reciprocal root degrees). The reference computes the same three arrays by the same operations, so at the first
  boundary the program's three buffers are the reference's three stages of the edge list.
-/
import proofs.«105290_j43542378447163_1_alg».proof.Proof.Kept
import proofs.«105290_j43542378447163_1_alg».proof.Proof.RefRead
import Idealize.ShloMosaic.PureOps.Ideal
import Idealize.ShloMosaic.Lib.StableHlo.Run

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

set_option maxHeartbeats 4000000 in
/-- The source rows (edge sources, then every node once). -/
theorem src_at1 (c : Dev nD) :
    W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp <;> rfl

set_option maxHeartbeats 4000000 in
/-- The destination rows (edge destinations, then every node once). -/
theorem dst_at1 (c : Dev nD) :
    W1 m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  after_results_simp <;> rfl

set_option maxHeartbeats 4000000 in
/-- The edge weights. -/
theorem nrm_at1 (c : Dev nD) :
    W1 m ρ c (Proc.devRef .tc main_v28) = Cert.ReferenceIdeal.Read.val_main_v28 (F := Ideal) (m ((c.tc : Thread nD τ).loc main_arg1)) := by
  show StableHlo.after hostOps0 (W0 m ρ c) (Proc.devRef .tc main_v28) = _
  after_results_simp <;> rfl

end Cert.KernelIdeal.Val

end
-- ==== Proof.Prod0.lean ====
/- The first layer's matrix product, as one array. The kernel multiplies the [50000, 128] feature array by the [128, 128]
   weights one block of 5000 rows at a time: each of the ten grid points rounds its row block and the weights to bf16,
   multiplies them into a zero accumulator and writes the [5000, 128] result block back. Over the extended reals the
   rounding is the identity and the zero accumulator adds nothing, so a block's result at (a, b) is the sum over the
   contracted coordinate of x (a, c) · w (c, b); row a of block t is row 5000·t + a of the array, the ten blocks cover all
   50000 rows, and so the result array ends holding, at (r, q), the sum over k of X (r, k) · W (k, q). -/
import proofs.«105290_j43542378447163_1_alg».proof.Proof.Gen.KernelIdeal.Frame
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The kernel's contraction record is the plain one: rows of the left operand against columns of the right. -/
theorem plain0 : dot_S5000x128_S128x128_S5000x128_1_0_0_1_n_n = DotDims.plain 5000 128 128 := rfl

/-- The origin of a two-axis block, as the constant-zero offsets. -/
theorem origin0 : (![0, 0] : Fin 2 → Nat) = fun _ => 0 := funext fun a => by fin_cases a <;> rfl

set_option maxHeartbeats 400000 in
/-- What the body computes from a block of rows `x` and the weights `w`, entry by entry: the plain product `x · w`. Rounding
    the operands changes nothing over the extended reals, and the zero accumulator adds nothing. -/
theorem pay0_at (x : FVec Ideal S5000x128 .f32) (w : FVec Ideal S128x128 .f32) (a : Fin 5000) (b : Fin 128) :
    k0_pay1 x w (ix2 a b) = ∑ c : Fin 128, x (ix2 a c) * w (ix2 c b) := by
  unfold k0_pay1
  rw [plain0]
  exact (Ideal.matmul_constant_zero_apply (DotDims.plain 5000 128 128) none _ _ (ix2 a b)).trans
    ((Ideal.dotGeneral_apply (DotDims.plain 5000 128 128) none default _ _ (ix2 a b)).symm.trans
      (StackMember.dotGeneral_plain_apply none _ _ a b))

set_option maxHeartbeats 400000 in
/-- A block of rows times the weights, read at a block index, is the whole product `X · W` read where the result block puts
    the index: entry (off + a, b) of `X · W` uses row off + a of `X` only. The three index maps say how the blocks sit in
    their arrays; only their coordinates are used. -/
theorem block0 (x : FVec Ideal S5000x128 .f32) (w : FVec Ideal S128x128 .f32)
    (X : FVec Ideal S50000x128 .f32) (W : FVec Ideal S128x128 .f32)
    (ex : S5000x128.Idx → S50000x128.Idx) (ew : S128x128.Idx → S128x128.Idx) (eo : S5000x128.Idx → S50000x128.Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : S5000x128.Idx) :
    k0_pay1 x w j = Host.dotGeneral (F := Ideal) (φ₁ := .f32) (φ₂ := .f32) (DotDims.plain 50000 128 128) none X W (eo j) := by
  obtain ⟨a, b, rfl⟩ : ∃ (a : Fin 5000) (b : Fin 128), j = ix2 a b := ⟨j 0, j 1, eq_ix2 j⟩
  obtain ⟨r, b', hab⟩ : ∃ (r : Fin 50000) (b' : Fin 128), eo (ix2 a b) = ix2 r b' :=
    ⟨eo (ix2 a b) 0, eo (ix2 a b) 1, eq_ix2 _⟩
  have hr : r.val = off + a.val := by
    have := heo0 (ix2 a b); rw [hab] at this; exact this
  have hb : b'.val = b.val := by
    have := heo1 (ix2 a b); rw [hab] at this; exact this
  rw [pay0_at, hab, StackMember.dotGeneral_plain_apply]
  refine Finset.sum_congr rfl fun c _ => ?_
  rw [hx, hw]
  have e1 : ex (ix2 a c) = ix2 r c := by
    funext d; apply Fin.ext
    match d with
    | ⟨0, _⟩ => exact (hex0 (ix2 a c)).trans hr.symm
    | ⟨1, _⟩ => exact hex1 (ix2 a c)
  have e2 : ew (ix2 c b) = ix2 c b' := by
    funext d; apply Fin.ext
    match d with
    | ⟨0, _⟩ => exact hew0 (ix2 c b)
    | ⟨1, _⟩ => exact (hew1 (ix2 c b)).trans hb.symm
  rw [e1, e2]

/-- Where each window's block sits at grid point `t`: the row blocks of the left operand and of the result are the `t`-th,
    the weights are one block. Decided over the ten points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 400000 in
/-- What grid point `t` writes back is block `t` of the whole product of the two arrays as the region finds them. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) (DotDims.plain 50000 128 128) none (V c main_arg0) (V c main_arg2)) := by
  show (cfg0.win 2).cut (grid0.coords t) ((dat0 V c).after 2 t) = _
  rw [after0_2]
  unfold out0_2
  rw [View.canon_unit_zero origin0]
  simp only [View.ld_unit_zero (S := S5000x128) origin0, View.ld_unit_zero (S := S128x128) origin0]
  obtain ⟨e0, e1, e2, e3, e4, e5⟩ := idx0 t
  funext j
  refine block0 (iblk0 V c 0 t) (iblk0 V c 1 t) (V c main_arg0) (V c main_arg2)
    (((cfg0.win 0).blk t).view.emb) (((cfg0.win 1).blk t).view.emb) (((cfg0.win 2).blk t).view.emb) (5000 * t.val)
    (fun y => rfl) (fun y => rfl) ?_ ?_ ?_ ?_ ?_ ?_ j
  · intro y; show win0_0.index t (0 : Fin 2) * 5000 + 1 * (y 0).val = _; omega
  · intro y; show win0_0.index t (1 : Fin 2) * 128 + 1 * (y 1).val = _; omega
  · intro y; show win0_1.index t (0 : Fin 2) * 128 + 1 * (y 0).val = _; omega
  · intro y; show win0_1.index t (1 : Fin 2) * 128 + 1 * (y 1).val = _; omega
  · intro y; show win0_2.index t (0 : Fin 2) * 5000 + 1 * (y 0).val = _; omega
  · intro y; show win0_2.index t (1 : Fin 2) * 128 + 1 * (y 1).val = _; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every row of the result lies in some point's block: row `r` in that of point `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e0, e1, e2, e3, e4, e5⟩ := idx0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- The result array after the region is the whole product of the two arrays the region finds. -/
theorem final0 (c : Dev nD) :
    (dat0 (F := Ideal) V c).arrAt 2 cfg0.N
      = Host.dotGeneral (F := Ideal) (φ₁ := .f32) (φ₂ := .f32) (DotDims.plain 50000 128 128) none (V c main_arg0) (V c main_arg2) :=
  (dat0 (F := Ideal) V c).arrAt_eq_of_cover 2 _ (fun t _ => flushed0_eq V c t) (cover0)

/-- Entry (r, q) of the result array after the region, over the arrays as the region finds them. -/
theorem prod0_at (c : Dev nD) (r : Fin 50000) (q : Fin 128) :
    @Eq EReal ((dat0 (F := Ideal) V c).arrAt 2 cfg0.N (ix2 r q))
      (Finset.sum (M := EReal) Finset.univ fun k : Fin 128 =>
        HMul.hMul (α := EReal) (β := EReal) (γ := EReal) (V c main_arg0 (ix2 r k)) (V c main_arg2 (ix2 k q))) :=
  (congrFun (final0 V c) (ix2 r q)).trans
    (StackMember.dotGeneral_plain_apply none (V c main_arg0 : FVec Ideal S50000x128 .f32) (V c main_arg2 : FVec Ideal S128x128 .f32) r q)

/-- Entry (r, q) of the result array after the region: row `r` of the left array `x` against column `q` of the weights `w`. -/
theorem prod0 (c : Dev nD) (r : Fin 50000) (q : Fin 128) (x : S50000x128.Idx → EReal) (w : S128x128.Idx → EReal)
    (hx : V c main_arg0 = x) (hw : V c main_arg2 = w) :
    (dat0 (F := Ideal) V c).arrAt 2 cfg0.N (ix2 r q) = ∑ k : Fin 128, x (ix2 r k) * w (ix2 k q) := by
  subst hx hw
  exact prod0_at V c r q

end Cert.KernelIdeal.Val

end
-- ==== Proof.StageProd0.lean ====
/-
  The first layer's matrix product. The kernel multiplies each block of 5000 rows by the whole weight matrix; its
  output array after the run is the product of the whole input with the weights, which is the reference's product
  of the same two arrays.
-/
import proofs.«105290_j43542378447163_1_alg».proof.Proof.Kept
import proofs.«105290_j43542378447163_1_alg».proof.Proof.RefRead
import proofs.«105290_j43542378447163_1_alg».proof.Proof.Prod0
import Idealize.ShloMosaic.PureOps.Ideal

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

/-- The kernel's product array is the reference's product stage. -/
theorem st_H0 (c : Dev nD) :
    W2 m ρ c (Proc.devRef .tc main_v29) = Cert.ReferenceIdeal.Read.val_main_v29 (F := Ideal) (m ((c.tc : Thread nD τ).loc main_arg0)) (m ((c.tc : Thread nD τ).loc main_arg2)) := by
  refine (W2_arr m ρ c 2).trans ?_
  rw [final0 (V1 m ρ) c]
  show Host.dotGeneral (F := Ideal) (φ₁ := .f32) (φ₂ := .f32) (DotDims.plain 50000 128 128) none
      (W1 m ρ c (Proc.devRef .tc main_arg0)) (W1 m ρ c (Proc.devRef .tc main_arg2)) = _
  rw [arg0_at1 m ρ c, arg2_at1 m ρ c]
  rfl

end Cert.KernelIdeal.Val

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.StageAgg1.lean ====
/-
  The first layer's aggregation. Between the product kernel and the next kernel the program gathers the product's
  rows at the edge sources, scales each by its edge weight and adds them into the destination rows, and recasts
  the bias vector as a one-row array. The reference does the same to the same product with the same edge tables,
  so the aggregate is the reference's aggregate stage; the one-row bias is the reference's bias row (a recast of a
  vector to one row is its spread along the second axis).
-/
import proofs.«105290_j43542378447163_1_alg».proof.Proof.StageGlue
import proofs.«105290_j43542378447163_1_alg».proof.Proof.StageProd0
import proofs.«105290_j43542378447163_1_alg».proof.Proof.LibRowOfVector
import Idealize.ShloMosaic.PureOps.Ideal
import Idealize.ShloMosaic.Lib.StableHlo.Run

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

set_option maxHeartbeats 4000000 in
/-- The aggregate at the next kernel's entry is the reference's aggregate stage. -/
theorem st_agg1 (c : Dev nD) :
    W3 m ρ c (Proc.devRef .tc main_v42) = Cert.ReferenceIdeal.Read.val_main_v42 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v42) = _
  after_results_simp
  rw [st_H0 m ρ c, (src_at2 m ρ c).trans (src_at1 m ρ c), (dst_at2 m ρ c).trans (dst_at1 m ρ c),
    (nrm_at2 m ρ c).trans (nrm_at1 m ρ c)]
  rfl

set_option maxHeartbeats 4000000 in
/-- The one-row bias at the next kernel's entry is the reference's bias row. -/
theorem st_bias1 (c : Dev nD) :
    W3 m ρ c (Proc.devRef .tc main_v43) = Cert.ReferenceIdeal.Read.val_main_v43 (F := Ideal) (m ((c.tc : Thread nD τ).loc main_arg3)) := by
  show StableHlo.after hostOps1 (W2 m ρ c) (Proc.devRef .tc main_v43) = _
  after_results_simp
  rw [arg3_at2 m ρ c]
  exact Cert.Lib.shapeCast_row_eq_broadcastInDim (n := 128) _ _ _

end Cert.KernelIdeal.Val

end
-- ==== Proof.LibRowBlockSum.lean ====
/-
  A general lemma about sums over the indices of a two-axis array whose first extent is a product a·b: the sum over
  all indices (r, c), r < a·b, c < n, is the sum over the a row blocks t of the sum over the indices (p, c), p < b,
  c < n, of the term at row p + b·t. It holds in any commutative additive monoid — so over the extended reals, with
  infinite values allowed: only the order and grouping of a finite sum change.
-/
import Idealize.ShloMosaic.PureOps.Ideal
import Idealize.ShloMosaic.Lib.ValueIdx

noncomputable section

namespace Cert.Lib

open Idealize.ShloMosaic Idealize.ShloMosaic.ValueIdx

/-- Row `p` of row block `t`, of `a` blocks of `b` rows: row p + b·t. -/
def blockRow {a b : ℕ} (t : Fin a) (p : Fin b) : Fin (a * b) := finProdFinEquiv (t, p)

theorem blockRow_val {a b : ℕ} (t : Fin a) (p : Fin b) : (blockRow t p).val = p.val + b * t.val := rfl

/-- A sum over the a·b rows is the double sum over a blocks of b rows. -/
theorem sum_rows_blocks {M : Type*} [AddCommMonoid M] {a b : ℕ} (g : Fin (a * b) → M) :
    ∑ r, g r = ∑ t : Fin a, ∑ p : Fin b, g (blockRow t p) := by
  rw [← Equiv.sum_comp (finProdFinEquiv (m := a) (n := b)) g, Fintype.sum_prod_type]
  rfl

/-- A sum over the indices of an [a·b, n] array is the sum over the row blocks of the sums over the indices of a
    [b, n] block, the term read at the block's row. -/
theorem sum_row_blocks {M : Type*} [AddCommMonoid M] {a b n : ℕ} (f : (⟨2, ![a * b, n]⟩ : Shape).Idx → M) :
    ∑ j, f j = ∑ t : Fin a, ∑ idx : (⟨2, ![b, n]⟩ : Shape).Idx, f (ix2 (blockRow t (idx 0)) (idx 1)) := by
  rw [sum_idx2, sum_rows_blocks]
  refine Finset.sum_congr rfl fun t _ => ?_
  rw [sum_idx2]
  rfl

end Cert.Lib

end
-- ==== Proof.Stats1.lean ====
/- The accumulated column statistics of the first normalisation: over the ten row blocks of 5000 rows of x (a [50000, 128] array), with the bias row b ([1, 128]) added to every row, the kernel keeps two [1, 128] running rows — reset to zero at the first block, then at every block increased, column by column, by the block's sum of x + b and of (x + b)². Over the extended reals the order and grouping of a finite sum do not matter, so after the tenth block column q of the first row is the sum over all 50000 rows r of x(r, q) + b(q), and of the second the sum of the squares (x(r, q) + b(q))²; each output array is one block, written back after the last point, so the arrays end holding those rows. -/
import proofs.«105290_j43542378447163_1_alg».proof.Proof.Gen.KernelIdeal.Frame
import proofs.«105290_j43542378447163_1_alg».proof.Proof.LibRowBlockSum
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-! ## What one grid point leaves in the two running rows

At every point the body reads the row block x₀, the bias row x₁ and the two running rows, and stores the running rows
increased by the block's column sums; at the first point it first stores zero rows and reads those back. -/

/-- The zero offset of a whole-buffer access. -/
theorem stats1_hz : (![0, 0] : Fin 2 → Nat) = fun _ => 0 := funext fun a => by fin_cases a <;> rfl

section AnyF
variable {F : FTy → Type} [FloatOps F]

/-- At a later point the first running row, holding xo2, is left at the sum payload of the block, the bias row and xo2. -/
theorem stats1_out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero stats1_hz]
  simp only [View.readAt_eq_ld, h1.read_unread, h2.read_unread, h3.read_unread,
    View.ld_unit_zero (S := S5000x128) stats1_hz, View.ld_unit_zero (S := S1x128) stats1_hz]

/-- At a later point the second running row, holding xo3, is left at the sum-of-squares payload of the block, the bias row and xo3. -/
theorem stats1_out_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero stats1_hz]
  simp only [View.readAt_eq_ld, h1.read_unread, h2.read_unread, h4.read_unread,
    View.ld_unit_zero (S := S5000x128) stats1_hz, View.ld_unit_zero (S := S1x128) stats1_hz]

/-- At the first point the first running row is left at the sum payload over the zero row just stored. -/
theorem stats1_out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) stats1_hz, View.readCov_unit_zero (S := S1x128) _ stats1_hz]
  simp only [View.readAt_eq_ld, h1.read_unread, h2.read_unread,
    View.ld_unit_zero (S := S5000x128) stats1_hz, View.ld_unit_zero (S := S1x128) stats1_hz]

/-- At the first point the second running row is left at the sum-of-squares payload over the zero row just stored. -/
theorem stats1_out_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) stats1_hz, View.readCov_unit_zero (S := S1x128) _ stats1_hz]
  simp only [View.readAt_eq_ld, h1.read_unread, h2.read_unread,
    View.ld_unit_zero (S := S5000x128) stats1_hz, View.ld_unit_zero (S := S1x128) stats1_hz]

end AnyF

/-! ## The payloads read at a column, over the extended reals -/

/-- The sum over the rows of a [5000, 128] block, started from zero, read at column q, is the finite sum over the 5000 rows p of the entries (p, q). -/
theorem stats1_col_sum (src : FVec Ideal S5000x128 .f32) (h : S5000x128.Reduces [0] S128) (hφ : FKind.Formats .f32)
    (hacc : (0x00000000#32 : BitVec FTy.f32.bits) = FKind.add.neutral .f32 hφ) (q : Fin 128) :
    multiReduction .add [0] S128 src 0x00000000#32 h hφ hacc (ix1 q) = ∑ p : Fin 5000, src (ix2 p q) := by
  refine (Ideal.multiReduction_add_single src 0x00000000#32 h hφ hacc (ix1 q)).trans ?_
  show ∑ k : Fin 5000, src (h.lift (ix1 q) k) = _
  refine Finset.sum_congr rfl fun k _ => congrArg src ?_
  funext d; apply Fin.ext
  fin_cases d <;> rfl

/-- The block with the bias row added to every row, at (p, q): x₀(p, q) + x₁(0, q). -/
theorem stats1_pay3_apply (x0 : Vec Ideal S5000x128 .f32) (x1 : Vec Ideal S1x128 .f32) (p : Fin 5000) (q : Fin 128) :
    k1_pay3 (F := Ideal) x0 x1 (ix2 p q) = x0 (ix2 p q) + x1 (ix2 (0 : Fin 1) q) := by
  unfold k1_pay3
  rw [shapeCast_self, shapeCast_self]
  exact congrArg (x0 (ix2 p q) + ·) (broadcastTo_1b_ab_apply x1 broadcasts_S1x128_S5000x128 p q)

/-- The first reset row is zero. -/
theorem stats1_pay1_apply (q : Fin 128) : k1_pay1 (F := Ideal) (ix2 (0 : Fin 1) q) = 0 :=
  Ideal.ofBits_zero_f32

/-- The second reset row is zero. -/
theorem stats1_pay2_apply (q : Fin 128) : k1_pay2 (F := Ideal) (ix2 (0 : Fin 1) q) = 0 :=
  Ideal.ofBits_zero_f32

/-- The new first running row at column q: the old one plus the block's column sum of x₀ + x₁. -/
theorem stats1_pay4_apply (x0 : Vec Ideal S5000x128 .f32) (x1 acc : Vec Ideal S1x128 .f32) (q : Fin 128) :
    k1_pay4 (F := Ideal) x0 x1 acc (ix2 (0 : Fin 1) q)
      = acc (ix2 (0 : Fin 1) q) + ∑ p : Fin 5000, (x0 (ix2 p q) + x1 (ix2 (0 : Fin 1) q)) := by
  unfold k1_pay4
  dsimp only
  rw [shapeCast_self]
  refine congrArg (acc (ix2 (0 : Fin 1) q) + ·) ?_
  refine (shapeCast_a_1a_apply _ shapeCasts_S128_S1x128 (0 : Fin 1) q).trans ?_
  refine (stats1_col_sum _ _ _ _ q).trans ?_
  exact Finset.sum_congr rfl fun p _ => stats1_pay3_apply x0 x1 p q

/-- The new second running row at column q: the old one plus the block's column sum of (x₀ + x₁)². -/
theorem stats1_pay5_apply (x0 : Vec Ideal S5000x128 .f32) (x1 acc : Vec Ideal S1x128 .f32) (q : Fin 128) :
    k1_pay5 (F := Ideal) x0 x1 acc (ix2 (0 : Fin 1) q)
      = acc (ix2 (0 : Fin 1) q) + ∑ p : Fin 5000, (x0 (ix2 p q) + x1 (ix2 (0 : Fin 1) q)) * (x0 (ix2 p q) + x1 (ix2 (0 : Fin 1) q)) := by
  unfold k1_pay5
  dsimp only
  rw [shapeCast_self]
  refine congrArg (acc (ix2 (0 : Fin 1) q) + ·) ?_
  refine (shapeCast_a_1a_apply _ shapeCasts_S128_S1x128 (0 : Fin 1) q).trans ?_
  refine (stats1_col_sum _ _ _ _ q).trans ?_
  refine Finset.sum_congr rfl fun p _ => ?_
  exact congrArg₂ (· * ·) (stats1_pay3_apply x0 x1 p q) (stats1_pay3_apply x0 x1 p q)

section Regions
variable (V : (c : Dev nD) → (b : Ref sig .tc) → Buf (Elt Ideal) ((c : Thread nD τ).loc b))

/-! ## The input blocks read off their arrays -/

/-- At point t the window of x is at row block t, column block 0; the bias row's window is always its whole array. -/
theorem stats1_idx_facts : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Entry (p, q) of the row block of x at point t is x at row p + 5000 t, column q. -/
theorem stats1_iblk0_apply (c : Dev nD) (t : Fin cfg1.N) (p : Fin 5000) (q : Fin 128) (r : Fin 50000)
    (hr : r.val = p.val + 5000 * t.val) :
    (iblk1 V c 0 t : Vec Ideal S5000x128 .f32) (ix2 p q) = V c main_v42 (ix2 r q) := by
  obtain ⟨e0, e1, -, -⟩ := stats1_idx_facts t
  show V c main_v42 (((cfg1.win 0).blk t).view.emb (ix2 p q)) = V c main_v42 (ix2 r q)
  refine congrArg (V c main_v42) ?_
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- The bias row's block at any point is the bias row. -/
theorem stats1_iblk1_apply (c : Dev nD) (t : Fin cfg1.N) (q : Fin 128) :
    (iblk1 V c 1 t : Vec Ideal S1x128 .f32) (ix2 (0 : Fin 1) q) = V c main_v43 (ix2 (0 : Fin 1) q) := by
  obtain ⟨-, -, e2, e3⟩ := stats1_idx_facts t
  show V c main_v43 (((cfg1.win 1).blk t).view.emb (ix2 (0 : Fin 1) q)) = V c main_v43 (ix2 (0 : Fin 1) q)
  refine congrArg (V c main_v43) ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-! ## What the two buffers hold after each point -/

/-- After the first point: the two payloads over the zero rows. -/
theorem stats1_first (c : Dev nD) (t : Fin cfg1.N) (h0 : t.val % 10 = 0) :
    outsAt1 V c t.val t.isLt
      = (k1_pay4 (iblk1 V c 0 t) (iblk1 V c 1 t) (k1_pay1 (F := Ideal)),
         k1_pay5 (iblk1 V c 0 t) (iblk1 V c 1 t) (k1_pay2 (F := Ideal))) := by
  rw [outsAt1_A V c t h0]
  exact congrArg₂ Prod.mk
    (stats1_out_A_2 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))
    (stats1_out_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t))

/-- After a later point: the two payloads over what the point before left. -/
theorem stats1_step (c : Dev nD) (t : Fin cfg1.N) (h0 : ¬t.val % 10 = 0) :
    outsAt1 V c t.val t.isLt
      = (k1_pay4 (iblk1 V c 0 t) (iblk1 V c 1 t) (outsAt1 V c (t.val - 1) (Nat.lt_of_le_of_lt (Nat.sub_le _ _) t.isLt)).1,
         k1_pay5 (iblk1 V c 0 t) (iblk1 V c 1 t) (outsAt1 V c (t.val - 1) (Nat.lt_of_le_of_lt (Nat.sub_le _ _) t.isLt)).2) := by
  rw [outsAt1_B V c t h0]
  exact congrArg₂ Prod.mk
    (stats1_out_B_2 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
      (outsAt1 V c (t.val - 1) (Nat.lt_of_le_of_lt (Nat.sub_le _ _) t.isLt)).1 (outsAt1 V c (t.val - 1) (Nat.lt_of_le_of_lt (Nat.sub_le _ _) t.isLt)).2)
    (stats1_out_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
      (outsAt1 V c (t.val - 1) (Nat.lt_of_le_of_lt (Nat.sub_le _ _) t.isLt)).1 (outsAt1 V c (t.val - 1) (Nat.lt_of_le_of_lt (Nat.sub_le _ _) t.isLt)).2)

end Regions

/-- Column q of x + b summed over the rows 5000 s, …, 5000 s + 4999 of row block s (zero past the tenth block). -/
def stats1_blockSum (x : S50000x128.Idx → EReal) (b : S1x128.Idx → EReal) (s : ℕ) (q : Fin 128) : EReal :=
  if h : s < 10 then
    ∑ p : Fin 5000, (x (ix2 (⟨p.val + 5000 * s, by have := p.isLt; omega⟩ : Fin 50000) q) + b (ix2 (0 : Fin 1) q))
  else 0

/-- The same for the squares of x + b. -/
def stats1_blockSq (x : S50000x128.Idx → EReal) (b : S1x128.Idx → EReal) (s : ℕ) (q : Fin 128) : EReal :=
  if h : s < 10 then
    ∑ p : Fin 5000, (x (ix2 (⟨p.val + 5000 * s, by have := p.isLt; omega⟩ : Fin 50000) q) + b (ix2 (0 : Fin 1) q))
      * (x (ix2 (⟨p.val + 5000 * s, by have := p.isLt; omega⟩ : Fin 50000) q) + b (ix2 (0 : Fin 1) q))
  else 0

/-- A block x₀ that reads x at the rows of row block s, and a row x₁ that reads b, have the column sum of x₀ + x₁ equal to that block sum. -/
theorem stats1_blockSum_eq (x : S50000x128.Idx → EReal) (b : S1x128.Idx → EReal) (x0 : Vec Ideal S5000x128 .f32)
    (x1 : Vec Ideal S1x128 .f32) (s : ℕ) (hs : s < 10) (q : Fin 128)
    (h0 : ∀ (p : Fin 5000) (r : Fin 50000), r.val = p.val + 5000 * s → x0 (ix2 p q) = x (ix2 r q))
    (h1 : x1 (ix2 (0 : Fin 1) q) = b (ix2 (0 : Fin 1) q)) :
    ∑ p : Fin 5000, (x0 (ix2 p q) + x1 (ix2 (0 : Fin 1) q)) = stats1_blockSum x b s q := by
  unfold stats1_blockSum
  rw [dif_pos hs]
  refine Finset.sum_congr rfl fun p _ => ?_
  exact congrArg₂ (· + ·) (h0 p ⟨p.val + 5000 * s, by have := p.isLt; omega⟩ rfl) h1

/-- The same for the squares. -/
theorem stats1_blockSq_eq (x : S50000x128.Idx → EReal) (b : S1x128.Idx → EReal) (x0 : Vec Ideal S5000x128 .f32)
    (x1 : Vec Ideal S1x128 .f32) (s : ℕ) (hs : s < 10) (q : Fin 128)
    (h0 : ∀ (p : Fin 5000) (r : Fin 50000), r.val = p.val + 5000 * s → x0 (ix2 p q) = x (ix2 r q))
    (h1 : x1 (ix2 (0 : Fin 1) q) = b (ix2 (0 : Fin 1) q)) :
    ∑ p : Fin 5000, (x0 (ix2 p q) + x1 (ix2 (0 : Fin 1) q)) * (x0 (ix2 p q) + x1 (ix2 (0 : Fin 1) q))
      = stats1_blockSq x b s q := by
  unfold stats1_blockSq
  rw [dif_pos hs]
  refine Finset.sum_congr rfl fun p _ => ?_
  have e := congrArg₂ (· + ·) (h0 p ⟨p.val + 5000 * s, by have := p.isLt; omega⟩ rfl) h1
  exact congrArg₂ (· * ·) e e

section Regions2
variable (V : (c : Dev nD) → (b : Ref sig .tc) → Buf (Elt Ideal) ((c : Thread nD τ).loc b))

/-- The grid has ten points. -/
theorem stats1_lt (t : Fin cfg1.N) : t.val < 10 := by
  have hN : cfg1.N = 10 := N_1
  have := t.isLt; omega

set_option maxHeartbeats 400000 in
/-- THE RUNNING ROWS: after point n, column q of the first holds the block sums of blocks 0 … n added up, and of the second the block sums of squares — by induction on the point (zero + the first block's sum at the first point; the previous total + the point's block sum after). -/
theorem stats1_outsAt_eq (c : Dev nD) : ∀ (n : ℕ) (h : n < cfg1.N) (q : Fin 128),
    (outsAt1 V c n h).1 (ix2 (0 : Fin 1) q) = ∑ s ∈ Finset.range (n + 1), stats1_blockSum (V c main_v42) (V c main_v43) s q
    ∧ (outsAt1 V c n h).2 (ix2 (0 : Fin 1) q) = ∑ s ∈ Finset.range (n + 1), stats1_blockSq (V c main_v42) (V c main_v43) s q
  | 0, h, q => by
    rw [stats1_first V c ⟨0, h⟩ rfl, Finset.sum_range_one, Finset.sum_range_one]
    constructor
    · refine (stats1_pay4_apply (iblk1 V c 0 ⟨0, h⟩) (iblk1 V c 1 ⟨0, h⟩) (k1_pay1 (F := Ideal)) q).trans ?_
      rw [stats1_pay1_apply, zero_add]
      exact stats1_blockSum_eq (V c main_v42) (V c main_v43) (iblk1 V c 0 ⟨0, h⟩) (iblk1 V c 1 ⟨0, h⟩) 0 (by decide) q
        (fun p r hr => stats1_iblk0_apply V c ⟨0, h⟩ p q r hr) (stats1_iblk1_apply V c ⟨0, h⟩ q)
    · refine (stats1_pay5_apply (iblk1 V c 0 ⟨0, h⟩) (iblk1 V c 1 ⟨0, h⟩) (k1_pay2 (F := Ideal)) q).trans ?_
      rw [stats1_pay2_apply, zero_add]
      exact stats1_blockSq_eq (V c main_v42) (V c main_v43) (iblk1 V c 0 ⟨0, h⟩) (iblk1 V c 1 ⟨0, h⟩) 0 (by decide) q
        (fun p r hr => stats1_iblk0_apply V c ⟨0, h⟩ p q r hr) (stats1_iblk1_apply V c ⟨0, h⟩ q)
  | n + 1, h, q => by
    have hN : cfg1.N = 10 := N_1
    have hB : ¬(⟨n + 1, h⟩ : Fin cfg1.N).val % 10 = 0 := by dsimp only; omega
    obtain ⟨ih1, ih2⟩ := stats1_outsAt_eq c n (Nat.lt_of_succ_lt h) q
    rw [stats1_step V c ⟨n + 1, h⟩ hB, Finset.sum_range_succ _ (n + 1), Finset.sum_range_succ _ (n + 1)]
    constructor
    · refine (stats1_pay4_apply (iblk1 V c 0 ⟨n + 1, h⟩) (iblk1 V c 1 ⟨n + 1, h⟩) _ q).trans ?_
      exact congrArg₂ (· + ·) ih1
        (stats1_blockSum_eq (V c main_v42) (V c main_v43) (iblk1 V c 0 ⟨n + 1, h⟩) (iblk1 V c 1 ⟨n + 1, h⟩) (n + 1) (stats1_lt ⟨n + 1, h⟩) q
          (fun p r hr => stats1_iblk0_apply V c ⟨n + 1, h⟩ p q r hr) (stats1_iblk1_apply V c ⟨n + 1, h⟩ q))
    · refine (stats1_pay5_apply (iblk1 V c 0 ⟨n + 1, h⟩) (iblk1 V c 1 ⟨n + 1, h⟩) _ q).trans ?_
      exact congrArg₂ (· + ·) ih2
        (stats1_blockSq_eq (V c main_v42) (V c main_v43) (iblk1 V c 0 ⟨n + 1, h⟩) (iblk1 V c 1 ⟨n + 1, h⟩) (n + 1) (stats1_lt ⟨n + 1, h⟩) q
          (fun p r hr => stats1_iblk0_apply V c ⟨n + 1, h⟩ p q r hr) (stats1_iblk1_apply V c ⟨n + 1, h⟩ q))

end Regions2

section Regions3
variable (V : (c : Dev nD) → (b : Ref sig .tc) → Buf (Elt Ideal) ((c : Thread nD τ).loc b))

/-! ## The two arrays after the run -/

/-- What the first running row holds after the last point, as contents of the first output array (its one block is the array). -/
abbrev stats1_res2 (c : Dev nD) : Buf (Elt Ideal) ((c : Thread nD τ).loc main_v44_0) :=
  (outsAt1 V c 9 (by rw [show cfg1.N = 10 from N_1]; decide)).1
/-- The second of them. -/
abbrev stats1_res3 (c : Dev nD) : Buf (Elt Ideal) ((c : Thread nD τ).loc main_v44_1) :=
  (outsAt1 V c 9 (by rw [show cfg1.N = 10 from N_1]; decide)).2

/-- The one write-back of the first output, after the last point, writes that row: block (0, 0) of a [1, 128] array read through zero offsets is the array. -/
theorem stats1_flushed_2 (c : Dev nD) (t : Fin cfg1.N) (hf : (cfg1.win 2).flush t = true) :
    (dat1 V c).flushed 2 t = ((cfg1.win 2).blk t).view.read (Elt Ideal) (stats1_res2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v44_0.ty.shape.size a) = fun _ => 0 := funext fun a => by fin_cases a <;> decide
  exact (Memref.read_access_unit_zero (Elt Ideal) main_v44_0 hz' (fun a => by rw [congrFun hz' a]; simp) (stats1_res2 V c)).symm

/-- The same for the second output. -/
theorem stats1_flushed_3 (c : Dev nD) (t : Fin cfg1.N) (hf : (cfg1.win 3).flush t = true) :
    (dat1 V c).flushed 3 t = ((cfg1.win 3).blk t).view.read (Elt Ideal) (stats1_res3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v44_1.ty.shape.size a) = fun _ => 0 := funext fun a => by fin_cases a <;> decide
  exact (Memref.read_access_unit_zero (Elt Ideal) main_v44_1 hz' (fun a => by rw [congrFun hz' a]; simp) (stats1_res3 V c)).symm

/-- So the first output array ends holding the first running row after the last point: the last point's block covers the array. -/
theorem stats1_final_2 (c : Dev nD) : (dat1 V c).arrAt 2 cfg1.N = stats1_res2 V c :=
  (dat1 V c).arrAt_eq_of_cover 2 (stats1_res2 V c) (stats1_flushed_2 V c) fun i =>
    ⟨t1_9, (flush1_2 t1_9).mpr rfl, by
      show i ∈ ((View.whole main_v44_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- And the second output array the second running row. -/
theorem stats1_final_3 (c : Dev nD) : (dat1 V c).arrAt 3 cfg1.N = stats1_res3 V c :=
  (dat1 V c).arrAt_eq_of_cover 3 (stats1_res3 V c) (stats1_flushed_3 V c) fun i =>
    ⟨t1_9, (flush1_3 t1_9).mpr rfl, by
      show i ∈ ((View.whole main_v44_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

end Regions3

/-! ## The ten block sums are the sum over all the rows -/

/-- Ten numbers f 0, …, f 9, each the sum of g over the 5000 rows p + 5000 s of row block s, add up to the sum of g over all 50000 rows (50000 = 10 · 5000; only the grouping of a finite sum changes). -/
theorem stats1_join (g : Fin 50000 → EReal) (f : ℕ → EReal)
    (hf : ∀ (s : ℕ) (h : s < 10), f s = ∑ p : Fin 5000, g ⟨p.val + 5000 * s, by have := p.isLt; omega⟩) :
    ∑ s ∈ Finset.range (9 + 1), f s = ∑ r : Fin 50000, g r := by
  rw [← Fin.sum_univ_eq_sum_range f (9 + 1)]
  refine Eq.trans ?_ (Cert.Lib.sum_rows_blocks (a := 10) (b := 5000) g).symm
  refine Finset.sum_congr rfl fun t _ => ?_
  rw [hf t.val t.isLt]
  rfl

section Regions4
variable (V : (c : Dev nD) → (b : Ref sig .tc) → Buf (Elt Ideal) ((c : Thread nD τ).loc b))

/-- After the run, column q of the first output holds the sum over all 50000 rows of x + b. -/
theorem stats1_sum (c : Dev nD) (q : Fin 128) (x : S50000x128.Idx → EReal) (b : S1x128.Idx → EReal)
    (hx : V c main_v42 = x) (hb : V c main_v43 = b) :
    (dat1 (F := Ideal) V c).arrAt 2 cfg1.N (ix2 (0 : Fin 1) q)
      = ∑ r : Fin 50000, (x (ix2 r q) + b (ix2 (0 : Fin 1) q)) := by
  refine (congrFun (stats1_final_2 V c) (ix2 (0 : Fin 1) q)).trans ?_
  refine ((stats1_outsAt_eq V c 9 _ q).1).trans ?_
  rw [hx, hb]
  exact stats1_join (fun r => x (ix2 r q) + b (ix2 (0 : Fin 1) q)) _
    (fun s h => by unfold stats1_blockSum; rw [dif_pos h])

/-- After the run, column q of the second output holds the sum over all 50000 rows of (x + b)². -/
theorem stats1_sumsq (c : Dev nD) (q : Fin 128) (x : S50000x128.Idx → EReal) (b : S1x128.Idx → EReal)
    (hx : V c main_v42 = x) (hb : V c main_v43 = b) :
    (dat1 (F := Ideal) V c).arrAt 3 cfg1.N (ix2 (0 : Fin 1) q)
      = ∑ r : Fin 50000, (x (ix2 r q) + b (ix2 (0 : Fin 1) q)) * (x (ix2 r q) + b (ix2 (0 : Fin 1) q)) := by
  refine (congrFun (stats1_final_3 V c) (ix2 (0 : Fin 1) q)).trans ?_
  refine ((stats1_outsAt_eq V c 9 _ q).2).trans ?_
  rw [hx, hb]
  exact stats1_join (fun r => (x (ix2 r q) + b (ix2 (0 : Fin 1) q)) * (x (ix2 r q) + b (ix2 (0 : Fin 1) q))) _
    (fun s h => by unfold stats1_blockSq; rw [dif_pos h])

end Regions4

end Cert.KernelIdeal.Val
end
-- ==== Proof.Norm2.lean ====
/- Region 2 of the kernel's program normalises a [50000,128] array point by point: to each entry it adds its
   column's entry of a first row, subtracts that of a second, multiplies by those of a third and a fourth, adds that of
   a fifth, and takes the maximum with zero. The region works on ten blocks of 5000 rows; every block reads the five
   rows whole and its own 5000 rows of the array. This file reads the output array after the region, entry by entry,
   as that formula of the entry contents: first the body's arithmetic at one entry of a block, then where a block's
   entries sit in the arrays (block t's row a is the array's row 5000·t + a), then the ten blocks cover the array. -/
import proofs.«105290_j43542378447163_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offsets of a whole-buffer access, all zero. -/
theorem norm2_offsets : (![0, 0] : Fin 2 → Nat) = fun _ => 0 := funext fun a => by fin_cases a <;> rfl

/-- The body's arithmetic at entry (a, b) of a block: the five rows are read at column b. -/
theorem norm2_payload (x0 : Vec Ideal S5000x128 .f32) (x1 x2 x3 x4 x5 : Vec Ideal S1x128 .f32) (a : Fin 5000) (b : Fin 128) :
    k2_pay1 (F := Ideal) x0 x1 x2 x3 x4 x5 (ix2 a b)
      = max ((((x0 (ix2 a b) + x1 (ix2 (0 : Fin 1) b)) - x2 (ix2 (0 : Fin 1) b)) * x3 (ix2 (0 : Fin 1) b)) * x4 (ix2 (0 : Fin 1) b) + x5 (ix2 (0 : Fin 1) b)) 0 := by
  unfold k2_pay1
  simp only [shapeCast_self]
  rw [maximumf_apply, addf_apply, mulf_apply, mulf_apply, subf_apply, addf_apply, broadcast_apply,
    broadcastTo_1b_ab_apply, broadcastTo_1b_ab_apply, broadcastTo_1b_ab_apply, broadcastTo_1b_ab_apply, broadcastTo_1b_ab_apply]
  show max _ (Ideal.ofBits .f32 0x00000000#32) = _
  rw [Ideal.ofBits_zero_f32]

/-- The formula at entry (r, q), of the array X and the five rows. -/
def norm2_at (X : S50000x128.Idx → EReal) (B1 B2 B3 B4 B5 : S1x128.Idx → EReal) (r : Fin 50000) (q : Fin 128) : EReal :=
  max ((((X (ix2 r q) + B1 (ix2 (0 : Fin 1) q)) - B2 (ix2 (0 : Fin 1) q)) * B3 (ix2 (0 : Fin 1) q)) * B4 (ix2 (0 : Fin 1) q) + B5 (ix2 (0 : Fin 1) q)) 0

/-- The formula spelt out. -/
theorem norm2_at_eq (X : S50000x128.Idx → EReal) (B1 B2 B3 B4 B5 : S1x128.Idx → EReal) (r : Fin 50000) (q : Fin 128) :
    norm2_at X B1 B2 B3 B4 B5 r q
      = max ((((X (ix2 r q) + B1 (ix2 (0 : Fin 1) q)) - B2 (ix2 (0 : Fin 1) q)) * B3 (ix2 (0 : Fin 1) q)) * B4 (ix2 (0 : Fin 1) q) + B5 (ix2 (0 : Fin 1) q)) 0 := rfl

/-- The output array as a function of the region's entry contents. -/
def norm2_fn (c : Dev nD) : S50000x128.Idx → Elt Ideal .f32 := fun i =>
  norm2_at (V c main_v42) (V c main_v43) (V c main_v46) (V c main_v53) (V c main_v54) (V c main_v55) (i 0) (i 1)

/-- Which block of its array each window reads at each of the ten points: the big array's windows move one block of
    rows per point, the rows stay. -/
theorem norm2_index_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- Entry (a, b) of the input's block at point t is the array's entry (5000·t + a, b). -/
theorem norm2_block_in (c : Dev nD) (t : Fin cfg2.N) (a : Fin 5000) (b : Fin 128) (p : Fin 50000)
    (hp : p.val = t.val * 5000 + a.val) : iblk2 V c 0 t (ix2 a b) = V c main_v42 (ix2 p b) := by
  show V c main_v42 (((cfg2.win 0).blk t).view.emb (ix2 a b)) = V c main_v42 (ix2 p b)
  refine congrArg _ (funext fun d => Fin.ext ?_)
  obtain ⟨e00, e01, e10, e11, e20, e21, e30, e31, e40, e41, e50, e51, e60, e61⟩ := norm2_index_facts t
  match d with
  | ⟨0, _⟩ => show win2_0.index t (0 : Fin 2) * 5000 + 1 * a.val = p.val; omega
  | ⟨1, _⟩ => show win2_0.index t (1 : Fin 2) * 128 + 1 * b.val = b.val; omega

/-- Row window 1's block at any point is the whole row. -/
theorem norm2_block_row1 (c : Dev nD) (t : Fin cfg2.N) (b : Fin 128) :
    iblk2 V c 1 t (ix2 (0 : Fin 1) b) = V c main_v43 (ix2 (0 : Fin 1) b) := by
  show V c main_v43 (((cfg2.win 1).blk t).view.emb (ix2 (0 : Fin 1) b)) = V c main_v43 (ix2 (0 : Fin 1) b)
  refine congrArg _ (funext fun d => Fin.ext ?_)
  obtain ⟨e00, e01, e10, e11, e20, e21, e30, e31, e40, e41, e50, e51, e60, e61⟩ := norm2_index_facts t
  match d with
  | ⟨0, _⟩ => show win2_1.index t (0 : Fin 2) * 1 + 1 * 0 = 0; omega
  | ⟨1, _⟩ => show win2_1.index t (1 : Fin 2) * 128 + 1 * b.val = b.val; omega

/-- Row window 2's block at any point is the whole row. -/
theorem norm2_block_row2 (c : Dev nD) (t : Fin cfg2.N) (b : Fin 128) :
    iblk2 V c 2 t (ix2 (0 : Fin 1) b) = V c main_v46 (ix2 (0 : Fin 1) b) := by
  show V c main_v46 (((cfg2.win 2).blk t).view.emb (ix2 (0 : Fin 1) b)) = V c main_v46 (ix2 (0 : Fin 1) b)
  refine congrArg _ (funext fun d => Fin.ext ?_)
  obtain ⟨e00, e01, e10, e11, e20, e21, e30, e31, e40, e41, e50, e51, e60, e61⟩ := norm2_index_facts t
  match d with
  | ⟨0, _⟩ => show win2_2.index t (0 : Fin 2) * 1 + 1 * 0 = 0; omega
  | ⟨1, _⟩ => show win2_2.index t (1 : Fin 2) * 128 + 1 * b.val = b.val; omega

/-- Row window 3's block at any point is the whole row. -/
theorem norm2_block_row3 (c : Dev nD) (t : Fin cfg2.N) (b : Fin 128) :
    iblk2 V c 3 t (ix2 (0 : Fin 1) b) = V c main_v53 (ix2 (0 : Fin 1) b) := by
  show V c main_v53 (((cfg2.win 3).blk t).view.emb (ix2 (0 : Fin 1) b)) = V c main_v53 (ix2 (0 : Fin 1) b)
  refine congrArg _ (funext fun d => Fin.ext ?_)
  obtain ⟨e00, e01, e10, e11, e20, e21, e30, e31, e40, e41, e50, e51, e60, e61⟩ := norm2_index_facts t
  match d with
  | ⟨0, _⟩ => show win2_3.index t (0 : Fin 2) * 1 + 1 * 0 = 0; omega
  | ⟨1, _⟩ => show win2_3.index t (1 : Fin 2) * 128 + 1 * b.val = b.val; omega

/-- Row window 4's block at any point is the whole row. -/
theorem norm2_block_row4 (c : Dev nD) (t : Fin cfg2.N) (b : Fin 128) :
    iblk2 V c 4 t (ix2 (0 : Fin 1) b) = V c main_v54 (ix2 (0 : Fin 1) b) := by
  show V c main_v54 (((cfg2.win 4).blk t).view.emb (ix2 (0 : Fin 1) b)) = V c main_v54 (ix2 (0 : Fin 1) b)
  refine congrArg _ (funext fun d => Fin.ext ?_)
  obtain ⟨e00, e01, e10, e11, e20, e21, e30, e31, e40, e41, e50, e51, e60, e61⟩ := norm2_index_facts t
  match d with
  | ⟨0, _⟩ => show win2_4.index t (0 : Fin 2) * 1 + 1 * 0 = 0; omega
  | ⟨1, _⟩ => show win2_4.index t (1 : Fin 2) * 128 + 1 * b.val = b.val; omega

/-- Row window 5's block at any point is the whole row. -/
theorem norm2_block_row5 (c : Dev nD) (t : Fin cfg2.N) (b : Fin 128) :
    iblk2 V c 5 t (ix2 (0 : Fin 1) b) = V c main_v55 (ix2 (0 : Fin 1) b) := by
  show V c main_v55 (((cfg2.win 5).blk t).view.emb (ix2 (0 : Fin 1) b)) = V c main_v55 (ix2 (0 : Fin 1) b)
  refine congrArg _ (funext fun d => Fin.ext ?_)
  obtain ⟨e00, e01, e10, e11, e20, e21, e30, e31, e40, e41, e50, e51, e60, e61⟩ := norm2_index_facts t
  match d with
  | ⟨0, _⟩ => show win2_5.index t (0 : Fin 2) * 1 + 1 * 0 = 0; omega
  | ⟨1, _⟩ => show win2_5.index t (1 : Fin 2) * 128 + 1 * b.val = b.val; omega

/-- Entry (a, b) of the output's block at point t sits at the array's index (5000·t + a, b). -/
theorem norm2_block_out (t : Fin cfg2.N) (a : Fin 5000) (b : Fin 128) (p : Fin 50000)
    (hp : p.val = t.val * 5000 + a.val) : ((cfg2.win 6).blk t).view.emb (ix2 a b) = ix2 p b := by
  refine funext fun d => Fin.ext ?_
  obtain ⟨e00, e01, e10, e11, e20, e21, e30, e31, e40, e41, e50, e51, e60, e61⟩ := norm2_index_facts t
  match d with
  | ⟨0, _⟩ => show win2_6.index t (0 : Fin 2) * 5000 + 1 * a.val = p.val; omega
  | ⟨1, _⟩ => show win2_6.index t (1 : Fin 2) * 128 + 1 * b.val = b.val; omega

/-- What point t writes back is block t of the function. -/
theorem norm2_flushed (c : Dev nD) (t : Fin cfg2.N) :
    (dat2 (F := Ideal) V c).flushed 6 t = ((cfg2.win 6).blk t).view.read (Elt Ideal) (norm2_fn V c) := by
  show (cfg2.win 6).cut (grid2.coords t) ((dat2 V c).after 6 t) = _
  rw [after2_6]
  unfold out2_6
  rw [View.canon_unit_zero norm2_offsets]
  simp only [View.ld_unit_zero (S := S5000x128) norm2_offsets, View.ld_unit_zero (S := S1x128) norm2_offsets]
  funext j
  obtain ⟨a, b, rfl⟩ : ∃ (a : Fin 5000) (b : Fin 128), j = ix2 a b := ⟨j 0, j 1, eq_ix2 j⟩
  have ht : t.val < 10 := lt_of_lt_of_eq t.isLt N_2
  have ha : a.val < 5000 := a.isLt
  obtain ⟨p, hp⟩ : ∃ p : Fin 50000, p.val = t.val * 5000 + a.val := ⟨⟨t.val * 5000 + a.val, by omega⟩, rfl⟩
  show k2_pay1 (F := Ideal) (iblk2 V c 0 t) (iblk2 V c 1 t) (iblk2 V c 2 t) (iblk2 V c 3 t) (iblk2 V c 4 t) (iblk2 V c 5 t) (ix2 a b)
    = norm2_fn V c (((cfg2.win 6).blk t).view.emb (ix2 a b))
  refine (norm2_payload (iblk2 V c 0 t) (iblk2 V c 1 t) (iblk2 V c 2 t) (iblk2 V c 3 t) (iblk2 V c 4 t) (iblk2 V c 5 t) a b).trans ?_
  rw [norm2_block_in V c t a b p hp, norm2_block_row1 V c t b, norm2_block_row2 V c t b, norm2_block_row3 V c t b,
    norm2_block_row4 V c t b, norm2_block_row5 V c t b, norm2_block_out t a b p hp]
  rfl

/-- An index of the array is in point t's block iff each coordinate is in the block's range on its axis. -/
theorem norm2_mem_block (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v56).slice (win2_6.rect t)).set ↔ _
  rw [View.set_slice_whole, Rect.mem_set_unit]
  exact Iff.rfl

/-- Every index of the array is in the block of the point its row falls in. -/
theorem norm2_cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, htv⟩ : ∃ t : Fin cfg2.N, t.val = (i 0).val / 5000 :=
    ⟨⟨(i 0).val / 5000, lt_of_lt_of_eq (by omega : (i 0).val / 5000 < 10) N_2.symm⟩, rfl⟩
  obtain ⟨e00, e01, e10, e11, e20, e21, e30, e31, e40, e41, e50, e51, e60, e61⟩ := norm2_index_facts t
  refine ⟨t, flush2_6 t, ?_⟩
  rw [norm2_mem_block]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the region is the function. -/
theorem norm2_array (c : Dev nD) : (dat2 (F := Ideal) V c).arrAt 6 cfg2.N = norm2_fn V c :=
  (dat2 V c).arrAt_eq_of_cover 6 (norm2_fn V c) (fun t _ => norm2_flushed V c t) norm2_cover

/-- The output array after the region, entry by entry, as the formula of the region's entry contents. -/
theorem norm2_entry (c : Dev nD) (r : Fin 50000) (q : Fin 128) :
    (dat2 (F := Ideal) V c).arrAt 6 cfg2.N (ix2 r q)
      = norm2_at (V c main_v42) (V c main_v43) (V c main_v46) (V c main_v53) (V c main_v54) (V c main_v55) r q := by
  rw [norm2_array V c]
  rfl

/-- The same with the formula spelt out, the entry contents of the array and of the five rows named x and b1 … b5. -/
theorem norm2 (c : Dev nD) (r : Fin 50000) (q : Fin 128) (x : S50000x128.Idx → EReal) (b1 b2 b3 b4 b5 : S1x128.Idx → EReal)
    (hx : V c main_v42 = x) (h1 : V c main_v43 = b1) (h2 : V c main_v46 = b2) (h3 : V c main_v53 = b3) (h4 : V c main_v54 = b4)
    (h5 : V c main_v55 = b5) :
    (dat2 (F := Ideal) V c).arrAt 6 cfg2.N (ix2 r q)
      = max ((((x (ix2 r q) + b1 (ix2 (0 : Fin 1) q)) - b2 (ix2 (0 : Fin 1) q)) * b3 (ix2 (0 : Fin 1) q)) * b4 (ix2 (0 : Fin 1) q) + b5 (ix2 (0 : Fin 1) q)) 0 := by
  subst hx h1 h2 h3 h4 h5
  exact norm2_entry V c r q

end Cert.KernelIdeal.Val

end
-- ==== Proof.LibBatchNorm.lean ====
/-
  Batch normalisation of one column, two ways. For a column h of extended reals over a finite set of rows,
  c the row count, e the variance offset, g the scale and b the shift:
  * the one-pass form takes the two sums S1 = Σ h and S2 = Σ h², the mean S1 / c, and the variance
    S2 / c - (S1 / c)²;
  * the two-pass form takes the mean first and then the mean of the squared deviations.
  Both then return max (((h - mean) · rsqrt (variance + e)) · g + b, 0). Over the reals Σ (h - μ)² = Σ h² - c μ²
  with μ = Σ h / c, so the two variances agree; on the extended reals that needs every entry of the column to
  be a real number (with an infinite entry the one-pass variance is ∞ - ∞ while the two-pass one is +∞).
  A real column with real scale and shift and a positive real offset normalises to a real number.
-/
import Idealize.ShloMosaic.PureOps.Ideal

noncomputable section

namespace Cert.Bridge

open Idealize.ShloMosaic

/-- An extended real that is a real number. -/
def IsReal (x : EReal) : Prop := ∃ a : ℝ, x = (a : EReal)

theorem isReal_coe (a : ℝ) : IsReal (a : EReal) := ⟨a, rfl⟩
theorem isReal_zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real number by a nonzero real is their real quotient. -/
theorem div_real (x : ℝ) {y : ℝ} (hy : y ≠ 0) : Ideal.div (x : EReal) (y : EReal) = ((x / y : ℝ) : EReal) := by
  rw [Ideal.div_coe hy, ← EReal.coe_mul]; congr 1; ring

/-- The reciprocal square root of a positive real is a real number. -/
theorem isReal_rsqrt_pos {r : ℝ} (hr : 0 < r) : IsReal (Ideal.rsqrt (r : EReal)) := by
  rw [Ideal.rsqrt_coe, if_neg (not_lt.mpr hr.le), if_neg hr.ne']; exact isReal_coe _

variable {ι : Type*} [Fintype ι]

/-- Over the reals: the mean of the squares less the squared mean is the mean of the squared deviations. -/
theorem variance_two_ways (a : ι → ℝ) (N : ℝ) (hN : N = (Fintype.card ι : ℝ)) (hN0 : N ≠ 0) :
    (∑ i, a i * a i) / N - (∑ i, a i) / N * ((∑ i, a i) / N)
      = (∑ i, (a i - (∑ j, a j) / N) * (a i - (∑ j, a j) / N)) / N := by
  have h : ∑ i, (a i - (∑ j, a j) / N) * (a i - (∑ j, a j) / N)
      = (∑ i, a i * a i) - 2 * ((∑ j, a j) / N) * (∑ i, a i) + N * (((∑ j, a j) / N) * ((∑ j, a j) / N)) := by
    have : ∀ i, (a i - (∑ j, a j) / N) * (a i - (∑ j, a j) / N)
        = a i * a i - 2 * ((∑ j, a j) / N) * a i + ((∑ j, a j) / N) * ((∑ j, a j) / N) := fun i => by ring
    simp only [this, Finset.sum_add_distrib, Finset.sum_sub_distrib, ← Finset.mul_sum, Finset.sum_const,
      Finset.card_univ, nsmul_eq_mul, ← hN]
    ring
  rw [h]; field_simp; ring

/-- The one-pass normalisation of entry i of a column. -/
def normOnePass (h : ι → EReal) (c e g b : EReal) (i : ι) : EReal :=
  max ((((h i - Ideal.div (∑ r, h r) c)
      * Ideal.rsqrt ((Ideal.div (∑ r, h r * h r) c - Ideal.div (∑ r, h r) c * Ideal.div (∑ r, h r) c) + e)) * g) + b) 0

/-- The two-pass normalisation of entry i of a column (each sum started from zero, as a host reduction does). -/
def normTwoPass (h : ι → EReal) (c e g b : EReal) (i : ι) : EReal :=
  max ((((h i - Ideal.div (0 + ∑ r, h r) c)
      * Ideal.rsqrt (Ideal.div (0 + ∑ r, (h r - Ideal.div (0 + ∑ s, h s) c) * (h r - Ideal.div (0 + ∑ s, h s) c)) c + e)) * g) + b) 0

/-- On a column of real numbers the two normalisations agree. -/
theorem normOnePass_eq_twoPass (h : ι → EReal) (hh : ∀ r, IsReal (h r)) (N : ℝ) (hN : N = (Fintype.card ι : ℝ))
    (hN0 : N ≠ 0) (e g b : EReal) (i : ι) :
    normOnePass h (N : EReal) e g b i = normTwoPass h (N : EReal) e g b i := by
  choose a ha using hh
  have hfun : h = fun r => (a r : EReal) := funext ha
  subst hfun
  unfold normOnePass normTwoPass
  simp only [zero_add, ← EReal.coe_mul, ← coe_sum, div_real _ hN0, ← EReal.coe_sub]
  rw [variance_two_ways a N hN hN0]

/-- The variance of a real column is nonnegative, so with a positive offset its reciprocal root is real, and the
    normalised entry is a real number when scale and shift are. -/
theorem isReal_normTwoPass (h : ι → EReal) (hh : ∀ r, IsReal (h r)) (N : ℝ) (hN0 : 0 < N) (e : ℝ) (he : 0 < e)
    (g b : EReal) (hg : IsReal g) (hb : IsReal b) (i : ι) : IsReal (normTwoPass h (N : EReal) (e : EReal) g b i) := by
  choose a ha using hh
  have hfun : h = fun r => (a r : EReal) := funext ha
  subst hfun
  unfold normTwoPass
  simp only [zero_add, ← EReal.coe_mul, ← coe_sum, div_real _ hN0.ne', ← EReal.coe_sub, ← EReal.coe_add]
  refine IsReal.max (IsReal.add (IsReal.mul (IsReal.mul (isReal_coe _) (isReal_rsqrt_pos ?_)) hg) hb) isReal_zero
  have : 0 ≤ (∑ r, (a r - (∑ s, a s) / N) * (a r - (∑ s, a s) / N)) / N :=
    div_nonneg (Finset.sum_nonneg fun r _ => mul_self_nonneg _) hN0.le
  linarith

end Cert.Bridge

end
-- ==== Proof.Consts.lean ====
/-
  The float words the two programs spell, as the extended reals they denote: zero, one, the node count 50000,
  negative infinity, and the variance offset, of which only "a positive real" is ever used.
-/
import Idealize.ShloMosaic.PureOps.Ideal

noncomputable section

namespace Cert.Bridge

open Idealize.ShloMosaic

/-- The zero word denotes 0. -/
theorem word_zero : Ideal.ofBits .f32 0x00000000#32 = 0 := by
  simp [Ideal.ofBits, Ideal.ieee]

/-- The word of 1.0 denotes 1. -/
theorem word_one : Ideal.ofBits .f32 0x3F800000#32 = 1 := by
  simp [Ideal.ofBits, Ideal.ieee, -EReal.coe_mul]; norm_num

/-- The word of 50000.0 denotes the real 50000: the number of rows every column statistic divides by. -/
theorem word_rows : Ideal.ofBits .f32 0x47435000#32 = ((50000 : ℝ) : EReal) := by
  simp [Ideal.ofBits, Ideal.ieee, -EReal.coe_mul]; norm_num

/-- The word with sign bit and all-ones exponent denotes negative infinity: the start of a maximum. -/
theorem word_neg_inf : Ideal.ofBits .f32 0xFF800000#32 = ⊥ := by
  simp [Ideal.ofBits, Ideal.ieee]

/-- The variance offset denotes a positive real. -/
theorem word_offset_pos : ∃ e : ℝ, 0 < e ∧ Ideal.ofBits .f32 0x3727C5AC#32 = (e : EReal) := by
  refine ⟨_, ?_, by simp [Ideal.ofBits, Ideal.ieee, -EReal.coe_mul]; rfl⟩
  norm_num

end Cert.Bridge

end
-- ==== Proof.RefNorm1.lean ====
/-
  The reference's first normalisation layer read at an entry. With h the layer's input (aggregate plus bias), entry
  (r, q) of the rectified output is the two-pass normalisation of column q of h at row r: the column mean
  (0 + Σ h) / 50000, the mean of the squared deviations, the reciprocal root of that plus the offset, then scale,
  shift and the maximum with zero.
-/
import proofs.«105290_j43542378447163_1_alg».proof.Proof.RefRead
import proofs.«105290_j43542378447163_1_alg».proof.Proof.LibBatchNorm
import proofs.«105290_j43542378447163_1_alg».proof.Proof.Consts
import Idealize.ShloMosaic.Lib.ValueIdx

set_option maxRecDepth 16384

noncomputable section

namespace Cert.ReferenceIdeal.RefValue

open Cert.ReferenceIdeal Cert.ReferenceIdeal.Read Idealize.ShloMosaic Idealize.ShloMosaic.ValueIdx Cert.Bridge

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))

/-- The column mean spread over the rows (where the deviations are taken) is the mean of the column. -/
theorem mean_spread1_a (r : Fin 50000) (q : Fin 128) :
    val_main_v50 (F := Ideal) x0 x1 x2 x3 (ix2 r q) = val_main_v48 (F := Ideal) x0 x1 x2 x3 (ix1 q) := by
  rw [val_main_v50_apply, val_main_v49_apply]
  exact congrArg _ (funext fun a => Fin.ext (by match a with | ⟨0, _⟩ => rfl))

/-- The column mean spread over the rows (where the output is centred) is the mean of the column. -/
theorem mean_spread1_b (r : Fin 50000) (q : Fin 128) :
    val_main_v57 (F := Ideal) x0 x1 x2 x3 (ix2 r q) = val_main_v48 (F := Ideal) x0 x1 x2 x3 (ix1 q) := by
  rw [val_main_v57_apply, val_main_v56_apply]
  exact congrArg _ (funext fun a => Fin.ext (by match a with | ⟨0, _⟩ => rfl))

/-- The column mean: the column's sum from zero, divided by the row count. -/
theorem mean_at1 (q : Fin 128) :
    val_main_v48 (F := Ideal) x0 x1 x2 x3 (ix1 q)
      = Ideal.div (0 + ∑ k : Fin 50000, val_main_v45 (F := Ideal) x0 x1 x2 x3 (ix2 k q)) (Ideal.ofBits .f32 0x47435000#32) := by
  rw [val_main_v48_apply, val_main_v46_apply, val_main_v47_apply, val_main_cst_9_apply, val_main_cst_8_apply]
  simp only [Ideal.hostDivf_def, Ideal.ofBits_def, word_zero]
  have e : ∀ k : Fin 50000, idx_main_v46 (ix1 q) k = ix2 k q := fun k =>
    funext fun a => Fin.ext (by match a with | ⟨0, _⟩ => rfl | ⟨1, _⟩ => rfl)
  simp only [e]

/-- The column variance: the mean of the squared deviations from the column mean. -/
theorem var_at1 (q : Fin 128) :
    val_main_v55 (F := Ideal) x0 x1 x2 x3 (ix1 q)
      = Ideal.div (0 + ∑ k : Fin 50000,
          (val_main_v45 (F := Ideal) x0 x1 x2 x3 (ix2 k q) - val_main_v48 (F := Ideal) x0 x1 x2 x3 (ix1 q))
            * (val_main_v45 (F := Ideal) x0 x1 x2 x3 (ix2 k q) - val_main_v48 (F := Ideal) x0 x1 x2 x3 (ix1 q)))
        (Ideal.ofBits .f32 0x47435000#32) := by
  rw [val_main_v55_apply, val_main_v53_apply, val_main_v54_apply, val_main_cst_11_apply, val_main_cst_10_apply]
  simp only [Ideal.hostDivf_def, Ideal.ofBits_def, word_zero]
  have e : ∀ k : Fin 50000, idx_main_v53 (ix1 q) k = ix2 k q := fun k =>
    funext fun a => Fin.ext (by match a with | ⟨0, _⟩ => rfl | ⟨1, _⟩ => rfl)
  have step : ∀ k : Fin 50000, val_main_v52 (F := Ideal) x0 x1 x2 x3 (idx_main_v53 (ix1 q) k)
      = (val_main_v45 (F := Ideal) x0 x1 x2 x3 (ix2 k q) - val_main_v48 (F := Ideal) x0 x1 x2 x3 (ix1 q))
        * (val_main_v45 (F := Ideal) x0 x1 x2 x3 (ix2 k q) - val_main_v48 (F := Ideal) x0 x1 x2 x3 (ix1 q)) := fun k => by
    rw [e k, val_main_v52_apply, val_main_v51_apply, mean_spread1_a]; rfl
  rw [Finset.sum_congr rfl fun k _ => step k]

/-- The reciprocal root of the variance plus the offset. -/
theorem inv_at1 (q : Fin 128) :
    val_main_v61 (F := Ideal) x0 x1 x2 x3 (ix1 q)
      = Ideal.rsqrt (val_main_v55 (F := Ideal) x0 x1 x2 x3 (ix1 q) + Ideal.ofBits .f32 0x3727C5AC#32) := by
  rw [val_main_v61_apply, val_main_v60_apply, val_main_v59_apply, val_main_cst_12_apply]
  rfl

/-- That reciprocal root spread over the rows. -/
theorem inv_spread1 (r : Fin 50000) (q : Fin 128) :
    val_main_v63 (F := Ideal) x0 x1 x2 x3 (ix2 r q) = val_main_v61 (F := Ideal) x0 x1 x2 x3 (ix1 q) := by
  rw [val_main_v63_apply, val_main_v62_apply]
  exact congrArg _ (funext fun a => Fin.ext (by match a with | ⟨0, _⟩ => rfl))

/-- The scale row spread over the rows. -/
theorem scale_spread1 (r : Fin 50000) (q : Fin 128) : val_main_v66 (F := Ideal) x4 (ix2 r q) = x4 (ix1 q) := by
  rw [val_main_v66_apply, val_main_v65_apply]
  exact congrArg _ (funext fun a => Fin.ext (by match a with | ⟨0, _⟩ => rfl))

/-- The shift row spread over the rows. -/
theorem shift_spread1 (r : Fin 50000) (q : Fin 128) : val_main_v69 (F := Ideal) x5 (ix2 r q) = x5 (ix1 q) := by
  rw [val_main_v69_apply, val_main_v68_apply]
  exact congrArg _ (funext fun a => Fin.ext (by match a with | ⟨0, _⟩ => rfl))

/-- Entry (r, q) of the layer's rectified output is the two-pass normalisation of column q at row r. -/
theorem norm1_ref (r : Fin 50000) (q : Fin 128) :
    val_main_v71 (F := Ideal) x0 x1 x2 x3 x4 x5 (ix2 r q)
      = normTwoPass (fun r' : Fin 50000 => val_main_v45 (F := Ideal) x0 x1 x2 x3 (ix2 r' q))
          (Ideal.ofBits .f32 0x47435000#32) (Ideal.ofBits .f32 0x3727C5AC#32) (x4 (ix1 q)) (x5 (ix1 q)) r := by
  rw [val_main_v71_apply, val_main_v70_apply, val_main_v67_apply, val_main_v64_apply, val_main_v58_apply, mean_spread1_b, inv_spread1,
    scale_spread1, shift_spread1, val_main_call0_v0_apply, val_main_call0_cst_apply, inv_at1, var_at1, mean_at1]
  simp only [Ideal.ofBits_def, word_zero]
  rfl

end Cert.ReferenceIdeal.RefValue

end
-- ==== Proof.RefFinite.lean ====
/- Real-valuedness through the reference network. The edge weights are products of reciprocal square roots of degrees
   clipped below at one, and a degree is a count of ones: all real numbers. A layer's input to its normalisation is the
   aggregate (for every edge, a row of the product X · W gathered at one end node, scaled by the edge's weight, and added
   into the row of the other end node, starting from zeros) plus the bias row: finite sums and products of real numbers
   when the features, the weights and the bias are real. A real column normalises to real numbers, so the first layer's
   output is real, and then so is the second layer's input to its normalisation. -/
import proofs.«105290_j43542378447163_1_alg».proof.Proof.RefRead
import proofs.«105290_j43542378447163_1_alg».proof.Proof.RefNorm1
import proofs.«105290_j43542378447163_1_alg».proof.Proof.LibBatchNorm
import proofs.«105290_j43542378447163_1_alg».proof.Proof.Consts
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Read Cert.Bridge Idealize.ShloMosaic Idealize.ShloMosaic.ValueIdx

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 : (⟨S128, .f32⟩ : BufTy).Contents (Elt Ideal))

/-! ## Three facts about the operations, whatever the shapes -/

/-- A host scatter-add reads, at every index, the operand's entry plus the finite sum of the updates landing there: real
    updates into a real operand give real numbers, whatever the shapes and the indices. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  unfold Host.scatterAdd
  rw [Ideal.hostScatterAdd_def]
  unfold Ideal.hostScatterAdd
  exact (hx i).add (isReal_sum _ _ fun j _ => hu j)

/-- A host gather reads one entry of its table at every index: a real table gives real numbers. -/
theorem isReal_gather {s si t : Shape} {w : Nat} (g : GatherDims s si t) (T : s.Idx → EReal) (idx : IVec si w)
    (hT : ∀ i, IsReal (T i)) (j : t.Idx) : IsReal (Host.gather g T idx j) := by
  unfold Host.gather
  exact hT _

/-- The graph aggregation keeps real numbers real: gather rows of a real table, scale each gathered entry by a real
    weight, scatter-add the scaled rows into a real array, and add a real array entry by entry. -/
theorem isReal_aggregate {s si sj su : Shape} {w w' : Nat} (d : ScatterDims s sj su) (g : GatherDims s si su)
    (Z T : FVec Ideal s .f32) (tgt : IVec sj w') (src : IVec si w) (W : FVec Ideal su .f32) (B : FVec Ideal s .f32)
    (hZ : ∀ i, IsReal (Z i)) (hT : ∀ i, IsReal (T i)) (hW : ∀ j, IsReal (W j)) (hB : ∀ i, IsReal (B i)) (i : s.Idx) :
    IsReal (addf (F := Ideal) (Host.scatterAdd (F := Ideal) d Z tgt (mulf (F := Ideal) (Host.gather g T src) W)) B i) := by
  show IsReal (Host.scatterAdd (F := Ideal) d Z tgt (mulf (F := Ideal) (Host.gather g T src) W) i + B i)
  refine (isReal_scatterAdd d Z tgt _ hZ (fun j => ?_) i).add (hB i)
  show IsReal (Host.gather g T src j * W j)
  exact (isReal_gather g T src hT j).mul (hW j)

/-- A plain matrix product of real matrices is real: each entry is a finite sum of products. -/
theorem isReal_sum_mul {ι : Type*} [Fintype ι] (a b : ι → EReal) (ha : ∀ k, IsReal (a k)) (hb : ∀ k, IsReal (b k)) :
    IsReal (∑ k, a k * b k) :=
  isReal_sum _ _ fun k _ => (ha k).mul (hb k)

/-- The number one is a real number. -/
theorem isReal_one : IsReal 1 := ⟨1, EReal.coe_one.symm⟩

/-- The reciprocal square root of a real number clipped below at one is a real number: the clipped number is at least
    one, so positive. -/
theorem isReal_rsqrt_clip {x : EReal} (hx : IsReal x) : IsReal (Ideal.rsqrt (max x 1)) := by
  obtain ⟨a, rfl⟩ := hx
  have h1 : max (a : EReal) 1 = ((max a 1 : ℝ) : EReal) :=
    (EReal.coe_strictMono.monotone.map_max (a := a) (b := 1)).symm
  rw [h1]
  exact isReal_rsqrt_pos (lt_of_lt_of_le one_pos (le_max_right a 1))

/-! ## The edge weights -/

/-- The ones that are counted into the degrees. -/
theorem ones_real (i : S650000.Idx) : IsReal (val_main_v7 (F := Ideal) i) := by
  rw [val_main_v7_apply, val_main_cst_apply, Ideal.ofBits_def, word_one]
  exact isReal_one

/-- The zeros the degrees are counted into. -/
theorem degree_start_real (i : S50000.Idx) : IsReal (val_main_v8 (F := Ideal) i) := by
  rw [val_main_v8_apply, val_main_cst_0_apply, Ideal.ofBits_def, word_zero]
  exact isReal_zero

/-- A node's degree, a count of ones, is a real number. -/
theorem degree_real (i : S50000.Idx) : IsReal (val_main_v10 (F := Ideal) x1 i) := by
  unfold val_main_v10
  exact isReal_scatterAdd _ _ _ _ degree_start_real ones_real i

/-- The reciprocal square root of the degree clipped below at one is a real number. -/
theorem inv_sqrt_degree_real (i : S50000.Idx) : IsReal (val_main_v13 (F := Ideal) x1 i) := by
  rw [val_main_v13_apply, Ideal.hostUnary_rsqrt_def, val_main_v12_apply, Ideal.maximumf_def, val_main_v11_apply,
    val_main_cst_1_apply, Ideal.ofBits_def, word_one]
  exact isReal_rsqrt_clip (degree_real x1 i)

/-- An edge's weight, the product of that factor at its two end nodes, is a real number. -/
theorem nrm_real : ∀ i, IsReal (val_main_v28 (F := Ideal) x1 i) := fun i => by
  rw [val_main_v28_apply, Ideal.mulf_def]
  refine IsReal.mul ?_ ?_
  · unfold val_main_v20
    exact isReal_gather _ _ _ (inv_sqrt_degree_real x1) i
  · unfold val_main_v27
    exact isReal_gather _ _ _ (inv_sqrt_degree_real x1) i

/-! ## The first layer's input to its normalisation -/

/-- The zeros the first aggregation adds into. -/
theorem sum_start1_real (i : S50000x128.Idx) : IsReal (val_main_v40 (F := Ideal) i) := by
  rw [val_main_v40_apply, val_main_cst_7_apply, Ideal.ofBits_def, word_zero]
  exact isReal_zero

/-- The first layer's aggregate plus its bias is real when the features, the weights and the bias are: the product
    X · W is a finite sum of products, and the aggregation keeps real numbers real. -/
theorem h1pre_real (h0 : ∀ i, IsReal (x0 i)) (h2 : ∀ i, IsReal (x2 i)) (h3 : ∀ i, IsReal (x3 i)) :
    ∀ i, IsReal (val_main_v45 (F := Ideal) x0 x1 x2 x3 i) := fun i => by
  unfold val_main_v45 val_main_v42 val_main_v39 val_main_v36
  refine isReal_aggregate _ _ _ _ _ _ _ _ sum_start1_real (fun j => ?_) (fun j => ?_) (fun j => ?_) i
  · rw [val_main_v29_apply]
    exact isReal_sum_mul _ _ (fun k => h0 _) (fun k => h2 _)
  · rw [val_main_v38_apply, val_main_v37_apply]
    exact nrm_real x1 _
  · rw [val_main_v44_apply, val_main_v43_apply]
    exact h3 _

/-! ## The first layer's output -/

/-- The first layer's normalised, rectified output is real when also the scale and the shift are: a real column
    normalises to real numbers (the row count is positive and so is the variance offset). -/
theorem h1_real (h0 : ∀ i, IsReal (x0 i)) (h2 : ∀ i, IsReal (x2 i)) (h3 : ∀ i, IsReal (x3 i))
    (h4 : ∀ i, IsReal (x4 i)) (h5 : ∀ i, IsReal (x5 i)) :
    ∀ i, IsReal (val_main_v71 (F := Ideal) x0 x1 x2 x3 x4 x5 i) := fun i => by
  obtain ⟨r, q, rfl⟩ : ∃ (r : Fin 50000) (q : Fin 128), i = ix2 r q := ⟨i 0, i 1, eq_ix2 i⟩
  obtain ⟨e, he, hw⟩ := word_offset_pos
  rw [norm1_ref, word_rows, hw]
  exact isReal_normTwoPass _ (fun r' => h1pre_real x0 x1 x2 x3 h0 h2 h3 _) 50000 (by norm_num) e he _ _ (h4 _) (h5 _) r

/-! ## The second layer's input to its normalisation -/

/-- The zeros the second aggregation adds into. -/
theorem sum_start2_real (i : S50000x128.Idx) : IsReal (val_main_v83 (F := Ideal) i) := by
  rw [val_main_v83_apply, val_main_cst_15_apply, Ideal.ofBits_def, word_zero]
  exact isReal_zero

/-- The second layer's aggregate plus its bias is real when all the arguments before it are. -/
theorem h2pre_real (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i)) :
    ∀ i, IsReal (val_main_v88 (F := Ideal) x0 x1 x2 x3 x4 x5 x6 x7 i) := fun i => by
  unfold val_main_v88 val_main_v85 val_main_v82 val_main_v79
  refine isReal_aggregate _ _ _ _ _ _ _ _ sum_start2_real (fun j => ?_) (fun j => ?_) (fun j => ?_) i
  · rw [val_main_v72_apply]
    exact isReal_sum_mul _ _ (fun k => h1_real x0 x1 x2 x3 x4 x5 h0 h2 h3 h4 h5 _) (fun k => h6 _)
  · rw [val_main_v81_apply, val_main_v80_apply]
    exact nrm_real x1 _
  · rw [val_main_v87_apply, val_main_v86_apply]
    exact h7 _

end Cert.ReferenceIdeal.RefValue

end
-- ==== Proof.InputsReal.lean ====
/-
  Real inputs. The certificate's precondition says every float argument holds finite values; at the exact
  instance that is: every entry of each of the eleven float argument arrays is a real number. This bundle states
  it of a memory, device by device (the second argument is the integer edge list and is not constrained).
-/
import proofs.«105290_j43542378447163_1_alg».proof.KernelIdeal
import proofs.«105290_j43542378447163_1_alg».proof.Proof.LibBatchNorm
import Idealize.ShloMosaic.PureOps.Ideal

set_option maxRecDepth 16384

noncomputable section

namespace Cert.KernelIdeal.Val

open Idealize.ShloMosaic Idealize.ShloMosaic.TcCoe Idealize.SL.Sem Cert.KernelIdeal Cert.Bridge

/-- Every entry of every float argument array of the memory, on device c, is a real number. -/
structure InputsReal (m : (ℓ : Loc nD τ sig) → Buf (Elt Ideal) ℓ) (c : Dev nD) : Prop where
  a0 : ∀ i, IsReal ((m ((c.tc : Thread nD τ).loc main_arg0) : S50000x128.Idx → EReal) i)
  a2 : ∀ i, IsReal ((m ((c.tc : Thread nD τ).loc main_arg2) : S128x128.Idx → EReal) i)
  a3 : ∀ i, IsReal ((m ((c.tc : Thread nD τ).loc main_arg3) : S128.Idx → EReal) i)
  a4 : ∀ i, IsReal ((m ((c.tc : Thread nD τ).loc main_arg4) : S128.Idx → EReal) i)
  a5 : ∀ i, IsReal ((m ((c.tc : Thread nD τ).loc main_arg5) : S128.Idx → EReal) i)
  a6 : ∀ i, IsReal ((m ((c.tc : Thread nD τ).loc main_arg6) : S128x128.Idx → EReal) i)
  a7 : ∀ i, IsReal ((m ((c.tc : Thread nD τ).loc main_arg7) : S128.Idx → EReal) i)
  a8 : ∀ i, IsReal ((m ((c.tc : Thread nD τ).loc main_arg8) : S128.Idx → EReal) i)
  a9 : ∀ i, IsReal ((m ((c.tc : Thread nD τ).loc main_arg9) : S128.Idx → EReal) i)
  a10 : ∀ i, IsReal ((m ((c.tc : Thread nD τ).loc main_arg10) : S128x40.Idx → EReal) i)
  a11 : ∀ i, IsReal ((m ((c.tc : Thread nD τ).loc main_arg11) : S40.Idx → EReal) i)

end Cert.KernelIdeal.Val

end
-- ==== Proof.StageNorm1.lean ====
/-
  The first normalisation layer. One kernel accumulates, over the ten row blocks, each column's sum and sum of
  squares of h = aggregate + bias; host operations turn them into the column mean S1/50000 and the reciprocal root
  of S2/50000 - mean² + offset; a second kernel returns max (((h - mean) · that) · scale + shift, 0). That is the
  one-pass normalisation of each column of h. The reference normalises the same h in two passes (the mean, then the
  mean of the squared deviations). Under the precondition every entry of h is a real number, so the two agree, and
  the kernel's output array is the reference's rectified stage.
-/
import proofs.«105290_j43542378447163_1_alg».proof.Proof.StageAgg1
import proofs.«105290_j43542378447163_1_alg».proof.Proof.Stats1
import proofs.«105290_j43542378447163_1_alg».proof.Proof.Norm2
import proofs.«105290_j43542378447163_1_alg».proof.Proof.RefNorm1
import proofs.«105290_j43542378447163_1_alg».proof.Proof.RefFinite
import proofs.«105290_j43542378447163_1_alg».proof.Proof.InputsReal
import proofs.«105290_j43542378447163_1_alg».proof.Proof.LibBatchNorm
import proofs.«105290_j43542378447163_1_alg».proof.Proof.Consts
import proofs.«105290_j43542378447163_1_alg».proof.Proof.LibRowOfVector
import Idealize.ShloMosaic.PureOps.Ideal
import Idealize.ShloMosaic.Lib.StableHlo.Run

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

open Cert.Bridge

/-- An array a kernel only reads is the same after the kernel: the aggregate across the statistics kernel. -/
theorem agg_after_stats1 (c : Dev nD) : W4 m ρ c (Proc.devRef .tc main_v42) = W3 m ρ c (Proc.devRef .tc main_v42) :=
  (W4_arr m ρ c 0).trans (((dat1 (V3 m ρ) c).arrAt_in 0 rfl _).trans (A_eq1 (V3 m ρ) c 0))

/-- Likewise the one-row bias. -/
theorem bias_after_stats1 (c : Dev nD) : W4 m ρ c (Proc.devRef .tc main_v43) = W3 m ρ c (Proc.devRef .tc main_v43) :=
  (W4_arr m ρ c 1).trans (((dat1 (V3 m ρ) c).arrAt_in 1 rfl _).trans (A_eq1 (V3 m ρ) c 1))

/-- The aggregate at the normalising kernel's entry is the reference's aggregate stage. -/
theorem agg_at5 (c : Dev nD) :
    W5 m ρ c (Proc.devRef .tc main_v42) = Cert.ReferenceIdeal.Read.val_main_v42 (F := Ideal) (m ((c.tc : Thread nD τ).loc main_arg0)) (m ((c.tc : Thread nD τ).loc main_arg1)) (m ((c.tc : Thread nD τ).loc main_arg2)) :=
  calc W5 m ρ c (Proc.devRef .tc main_v42)
    _ = W4 m ρ c (Proc.devRef .tc main_v42) :=
        StableHlo.after_of_forall_not_mem (b := Proc.devRef .tc main_v42) _ _ (by not_written hostOps2)
    _ = W3 m ρ c (Proc.devRef .tc main_v42) := agg_after_stats1 m ρ c
    _ = _ := st_agg1 m ρ c

/-- The one-row bias at the normalising kernel's entry is the reference's bias row. -/
theorem bias_at5 (c : Dev nD) :
    W5 m ρ c (Proc.devRef .tc main_v43) = Cert.ReferenceIdeal.Read.val_main_v43 (F := Ideal) (m ((c.tc : Thread nD τ).loc main_arg3)) :=
  calc W5 m ρ c (Proc.devRef .tc main_v43)
    _ = W4 m ρ c (Proc.devRef .tc main_v43) :=
        StableHlo.after_of_forall_not_mem (b := Proc.devRef .tc main_v43) _ _ (by not_written hostOps2)
    _ = W3 m ρ c (Proc.devRef .tc main_v43) := bias_after_stats1 m ρ c
    _ = _ := st_bias1 m ρ c

set_option maxHeartbeats 4000000 in
/-- The mean row: the column sums divided by the row count. -/
theorem mean_at5 (c : Dev nD) :
    W5 m ρ c (Proc.devRef .tc main_v46)
      = Host.divf (F := Ideal) (W4 m ρ c (Proc.devRef .tc main_v44_0))
          (broadcastInDim S1x128 ![] bcast_S_S1x128 (constant (F := Ideal) S_ .f32 0x47435000#32)) := by
  show StableHlo.after hostOps2 (W4 m ρ c) (Proc.devRef .tc main_v46) = _
  after_results_simp <;> rfl

set_option maxHeartbeats 4000000 in
/-- The reciprocal-root row: of the mean square less the squared mean, plus the offset. -/
theorem inv_at5 (c : Dev nD) :
    W5 m ρ c (Proc.devRef .tc main_v53)
      = Host.rsqrt (F := Ideal) (addf
          (subf
            (Host.divf (F := Ideal) (W4 m ρ c (Proc.devRef .tc main_v44_1))
              (broadcastInDim S1x128 ![] bcast_S_S1x128 (constant (F := Ideal) S_ .f32 0x47435000#32)))
            (mulf
              (Host.divf (F := Ideal) (W4 m ρ c (Proc.devRef .tc main_v44_0))
                (broadcastInDim S1x128 ![] bcast_S_S1x128 (constant (F := Ideal) S_ .f32 0x47435000#32)))
              (Host.divf (F := Ideal) (W4 m ρ c (Proc.devRef .tc main_v44_0))
                (broadcastInDim S1x128 ![] bcast_S_S1x128 (constant (F := Ideal) S_ .f32 0x47435000#32)))))
          (broadcastInDim S1x128 ![] bcast_S_S1x128 (constant (F := Ideal) S_ .f32 0x3727C5AC#32))) := by
  show StableHlo.after hostOps2 (W4 m ρ c) (Proc.devRef .tc main_v53) = _
  after_results_simp <;> rfl

set_option maxHeartbeats 4000000 in
/-- The scale row is the reference's scale row. -/
theorem scale_at5 (c : Dev nD) :
    W5 m ρ c (Proc.devRef .tc main_v54) = Cert.ReferenceIdeal.Read.val_main_v65 (F := Ideal) (m ((c.tc : Thread nD τ).loc main_arg4)) := by
  show StableHlo.after hostOps2 (W4 m ρ c) (Proc.devRef .tc main_v54) = _
  after_results_simp
  rw [arg4_at4 m ρ c]
  exact Cert.Lib.shapeCast_row_eq_broadcastInDim (n := 128) _ _ _

set_option maxHeartbeats 4000000 in
/-- The shift row is the reference's shift row. -/
theorem shift_at5 (c : Dev nD) :
    W5 m ρ c (Proc.devRef .tc main_v55) = Cert.ReferenceIdeal.Read.val_main_v68 (F := Ideal) (m ((c.tc : Thread nD τ).loc main_arg5)) := by
  show StableHlo.after hostOps2 (W4 m ρ c) (Proc.devRef .tc main_v55) = _
  after_results_simp
  rw [arg5_at4 m ρ c]
  exact Cert.Lib.shapeCast_row_eq_broadcastInDim (n := 128) _ _ _

/-- Column q of the layer's input: the aggregate plus the bias, row by row. -/
def col1 (c : Dev nD) (q : Fin 128) : Fin 50000 → EReal := fun r =>
  Cert.ReferenceIdeal.Read.val_main_v42 (F := Ideal) (m ((c.tc : Thread nD τ).loc main_arg0)) (m ((c.tc : Thread nD τ).loc main_arg1)) (m ((c.tc : Thread nD τ).loc main_arg2)) (ix2 r q) + Cert.ReferenceIdeal.Read.val_main_v43 (F := Ideal) (m ((c.tc : Thread nD τ).loc main_arg3)) (ix2 (0 : Fin 1) q)

/-- The column sums after the statistics kernel. -/
theorem sum_at4 (c : Dev nD) (q : Fin 128) :
    (W4 m ρ c (Proc.devRef .tc main_v44_0) : S1x128.Idx → EReal) (ix2 (0 : Fin 1) q) = ∑ r : Fin 50000, col1 m c q r :=
  (congrFun (W4_arr m ρ c 2) _).trans (stats1_sum (V3 m ρ) c q _ _ (st_agg1 m ρ c) (st_bias1 m ρ c))

/-- The column sums of squares after the statistics kernel. -/
theorem sumsq_at4 (c : Dev nD) (q : Fin 128) :
    (W4 m ρ c (Proc.devRef .tc main_v44_1) : S1x128.Idx → EReal) (ix2 (0 : Fin 1) q)
      = ∑ r : Fin 50000, col1 m c q r * col1 m c q r :=
  (congrFun (W4_arr m ρ c 3) _).trans (stats1_sumsq (V3 m ρ) c q _ _ (st_agg1 m ρ c) (st_bias1 m ρ c))

/-- The column is the reference's layer input, column q. -/
theorem col1_eq (c : Dev nD) (q : Fin 128) :
    col1 m c q = fun r => Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (ix2 r q) := by
  funext r
  rw [Cert.ReferenceIdeal.Read.val_main_v45_apply, Cert.ReferenceIdeal.Read.val_main_v44_apply]
  exact congrArg (fun j => _ + Cert.ReferenceIdeal.Read.val_main_v43 (F := Ideal) (m ((c.tc : Thread nD τ).loc main_arg3)) j)
    (funext fun a => Fin.ext (by match a with | ⟨0, _⟩ => rfl | ⟨1, _⟩ => rfl))

/-- Entry (r, q) of the normalising kernel's output: the one-pass normalisation of column q at row r. -/
theorem h1_entry (c : Dev nD) (r : Fin 50000) (q : Fin 128) :
    (W6 m ρ c (Proc.devRef .tc main_v56) : S50000x128.Idx → EReal) (ix2 r q)
      = normOnePass (col1 m c q) (Ideal.ofBits .f32 0x47435000#32) (Ideal.ofBits .f32 0x3727C5AC#32)
          ((m ((c.tc : Thread nD τ).loc main_arg4)) (ix1 q)) ((m ((c.tc : Thread nD τ).loc main_arg5)) (ix1 q)) r := by
  refine (congrFun (W6_arr m ρ c 6) _).trans ?_
  rw [norm2 (V5 m ρ) c r q _ _ _ _ _ _ (agg_at5 m ρ c) (bias_at5 m ρ c) (mean_at5 m ρ c) (inv_at5 m ρ c)
    (scale_at5 m ρ c) (shift_at5 m ρ c)]
  have hg : Cert.ReferenceIdeal.Read.val_main_v65 (F := Ideal) (m ((c.tc : Thread nD τ).loc main_arg4)) (ix2 (0 : Fin 1) q) = (m ((c.tc : Thread nD τ).loc main_arg4)) (ix1 q) := by
    rw [Cert.ReferenceIdeal.Read.val_main_v65_apply]
    exact congrArg _ (funext fun a => Fin.ext (by match a with | ⟨0, _⟩ => rfl))
  have hb : Cert.ReferenceIdeal.Read.val_main_v68 (F := Ideal) (m ((c.tc : Thread nD τ).loc main_arg5)) (ix2 (0 : Fin 1) q) = (m ((c.tc : Thread nD τ).loc main_arg5)) (ix1 q) := by
    rw [Cert.ReferenceIdeal.Read.val_main_v68_apply]
    exact congrArg _ (funext fun a => Fin.ext (by match a with | ⟨0, _⟩ => rfl))
  rw [hg, hb]
  unfold normOnePass
  simp only [← sum_at4 m ρ c q, ← sumsq_at4 m ρ c q]
  rfl

/-- The normalising kernel's output array is the reference's rectified first layer. -/
theorem st_h1 (c : Dev nD) (hR : InputsReal m c) :
    W6 m ρ c (Proc.devRef .tc main_v56) = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨r, q, rfl⟩ : ∃ (r : Fin 50000) (q : Fin 128), i = ix2 r q := ⟨_, _, eq_ix2 i⟩
  refine (h1_entry m ρ c r q).trans ?_
  rw [Cert.ReferenceIdeal.RefValue.norm1_ref, ← col1_eq m c q, word_rows]
  refine normOnePass_eq_twoPass (col1 m c q) (fun r' => ?_) 50000 (by simp) (by norm_num) _ _ _ r
  rw [col1_eq m c q]
  exact Cert.ReferenceIdeal.RefValue.h1pre_real _ _ _ _ hR.a0 hR.a2 hR.a3 _

end Cert.KernelIdeal.Val

end
-- ==== Proof.Prod3.lean ====
/- The second layer's matrix product, as one array. The kernel multiplies the [50000, 128] activations by the [128, 128]
   weights one block of 5000 rows at a time: each of the ten grid points rounds its row block (after a reshape to its own
   shape, which changes nothing) and the weights to bf16, multiplies them into a zero accumulator and writes the
   [5000, 128] result block back. Over the extended reals the rounding is the identity and the zero accumulator adds
   nothing, so a block's result at (a, b) is the sum over the contracted coordinate of x (a, c) · w (c, b); row a of block t
   is row 5000·t + a of the array, the ten blocks cover all 50000 rows, and so the result array ends holding, at (r, q), the
   sum over k of X (r, k) · W (k, q). -/
import proofs.«105290_j43542378447163_1_alg».proof.Proof.Gen.KernelIdeal.Frame
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The kernel's contraction record is the plain one: rows of the left operand against columns of the right. -/
theorem plain3 : dot_S5000x128_S128x128_S5000x128_1_0_0_1_n_n = DotDims.plain 5000 128 128 := rfl

/-- The origin of a two-axis block, as the constant-zero offsets. -/
theorem origin3 : (![0, 0] : Fin 2 → Nat) = fun _ => 0 := funext fun a => by fin_cases a <;> rfl

set_option maxHeartbeats 400000 in
/-- What the body computes from a block of rows `x` and the weights `w`, entry by entry: the plain product `x · w`. Rounding
    the operands changes nothing over the extended reals, and the zero accumulator adds nothing. -/
theorem pay3_at (x : FVec Ideal S5000x128 .f32) (w : FVec Ideal S128x128 .f32) (a : Fin 5000) (b : Fin 128) :
    k3_pay1 x w (ix2 a b) = ∑ c : Fin 128, x (ix2 a c) * w (ix2 c b) := by
  unfold k3_pay1
  rw [plain3, shapeCast_self]
  exact (Ideal.matmul_constant_zero_apply (DotDims.plain 5000 128 128) none _ _ (ix2 a b)).trans
    ((Ideal.dotGeneral_apply (DotDims.plain 5000 128 128) none default _ _ (ix2 a b)).symm.trans
      (StackMember.dotGeneral_plain_apply none _ _ a b))

set_option maxHeartbeats 400000 in
/-- A block of rows times the weights, read at a block index, is the whole product `X · W` read where the result block puts
    the index: entry (off + a, b) of `X · W` uses row off + a of `X` only. The three index maps say how the blocks sit in
    their arrays; only their coordinates are used. -/
theorem block3 (x : FVec Ideal S5000x128 .f32) (w : FVec Ideal S128x128 .f32)
    (X : FVec Ideal S50000x128 .f32) (W : FVec Ideal S128x128 .f32)
    (ex : S5000x128.Idx → S50000x128.Idx) (ew : S128x128.Idx → S128x128.Idx) (eo : S5000x128.Idx → S50000x128.Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : S5000x128.Idx) :
    k3_pay1 x w j = Host.dotGeneral (F := Ideal) (φ₁ := .f32) (φ₂ := .f32) (DotDims.plain 50000 128 128) none X W (eo j) := by
  obtain ⟨a, b, rfl⟩ : ∃ (a : Fin 5000) (b : Fin 128), j = ix2 a b := ⟨j 0, j 1, eq_ix2 j⟩
  obtain ⟨r, b', hab⟩ : ∃ (r : Fin 50000) (b' : Fin 128), eo (ix2 a b) = ix2 r b' :=
    ⟨eo (ix2 a b) 0, eo (ix2 a b) 1, eq_ix2 _⟩
  have hr : r.val = off + a.val := by
    have := heo0 (ix2 a b); rw [hab] at this; exact this
  have hb : b'.val = b.val := by
    have := heo1 (ix2 a b); rw [hab] at this; exact this
  rw [pay3_at, hab, StackMember.dotGeneral_plain_apply]
  refine Finset.sum_congr rfl fun c _ => ?_
  rw [hx, hw]
  have e1 : ex (ix2 a c) = ix2 r c := by
    funext d; apply Fin.ext
    match d with
    | ⟨0, _⟩ => exact (hex0 (ix2 a c)).trans hr.symm
    | ⟨1, _⟩ => exact hex1 (ix2 a c)
  have e2 : ew (ix2 c b) = ix2 c b' := by
    funext d; apply Fin.ext
    match d with
    | ⟨0, _⟩ => exact hew0 (ix2 c b)
    | ⟨1, _⟩ => exact (hew1 (ix2 c b)).trans hb.symm
  rw [e1, e2]

/-- Where each window's block sits at grid point `t`: the row blocks of the left operand and of the result are the `t`-th,
    the weights are one block. Decided over the ten points. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 400000 in
/-- What grid point `t` writes back is block `t` of the whole product of the two arrays as the region finds them. -/
theorem flushed3_eq (c : Dev nD) (t : Fin cfg3.N) :
    (dat3 (F := Ideal) V c).flushed 2 t = ((cfg3.win 2).blk t).view.read (Elt Ideal)
      (Host.dotGeneral (F := Ideal) (φ₁ := .f32) (φ₂ := .f32) (DotDims.plain 50000 128 128) none (V c main_v56) (V c main_arg6)) := by
  show (cfg3.win 2).cut (grid3.coords t) ((dat3 V c).after 2 t) = _
  rw [after3_2]
  unfold out3_2
  rw [View.canon_unit_zero origin3]
  simp only [View.ld_unit_zero (S := S5000x128) origin3, View.ld_unit_zero (S := S128x128) origin3]
  obtain ⟨e0, e1, e2, e3, e4, e5⟩ := idx3 t
  funext j
  refine block3 (iblk3 V c 0 t) (iblk3 V c 1 t) (V c main_v56) (V c main_arg6)
    (((cfg3.win 0).blk t).view.emb) (((cfg3.win 1).blk t).view.emb) (((cfg3.win 2).blk t).view.emb) (5000 * t.val)
    (fun y => rfl) (fun y => rfl) ?_ ?_ ?_ ?_ ?_ ?_ j
  · intro y; show win3_0.index t (0 : Fin 2) * 5000 + 1 * (y 0).val = _; omega
  · intro y; show win3_0.index t (1 : Fin 2) * 128 + 1 * (y 1).val = _; omega
  · intro y; show win3_1.index t (0 : Fin 2) * 128 + 1 * (y 0).val = _; omega
  · intro y; show win3_1.index t (1 : Fin 2) * 128 + 1 * (y 1).val = _; omega
  · intro y; show win3_2.index t (0 : Fin 2) * 5000 + 1 * (y 0).val = _; omega
  · intro y; show win3_2.index t (1 : Fin 2) * 128 + 1 * (y 1).val = _; omega

/-- An index of the result array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v57).slice (win3_2.rect t)).set ↔ _
  rw [View.set_slice_whole, Rect.mem_set_unit]
  exact Iff.rfl

/-- Every row of the result lies in some point's block: row `r` in that of point `r / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨e0, e1, e2, e3, e4, e5⟩ := idx3 ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    omega

/-- The result array after the region is the whole product of the two arrays the region finds. -/
theorem final3 (c : Dev nD) :
    (dat3 (F := Ideal) V c).arrAt 2 cfg3.N
      = Host.dotGeneral (F := Ideal) (φ₁ := .f32) (φ₂ := .f32) (DotDims.plain 50000 128 128) none (V c main_v56) (V c main_arg6) :=
  (dat3 (F := Ideal) V c).arrAt_eq_of_cover 2 _ (fun t _ => flushed3_eq V c t) (cover3)

/-- Entry (r, q) of the result array after the region, over the arrays as the region finds them. -/
theorem prod3_at (c : Dev nD) (r : Fin 50000) (q : Fin 128) :
    @Eq EReal ((dat3 (F := Ideal) V c).arrAt 2 cfg3.N (ix2 r q))
      (Finset.sum (M := EReal) Finset.univ fun k : Fin 128 =>
        HMul.hMul (α := EReal) (β := EReal) (γ := EReal) (V c main_v56 (ix2 r k)) (V c main_arg6 (ix2 k q))) :=
  (congrFun (final3 V c) (ix2 r q)).trans
    (StackMember.dotGeneral_plain_apply none (V c main_v56 : FVec Ideal S50000x128 .f32) (V c main_arg6 : FVec Ideal S128x128 .f32) r q)

/-- Entry (r, q) of the result array after the region: row `r` of the left array `x` against column `q` of the weights `w`. -/
theorem prod3 (c : Dev nD) (r : Fin 50000) (q : Fin 128) (x : S50000x128.Idx → EReal) (w : S128x128.Idx → EReal)
    (hx : V c main_v56 = x) (hw : V c main_arg6 = w) :
    (dat3 (F := Ideal) V c).arrAt 2 cfg3.N (ix2 r q) = ∑ k : Fin 128, x (ix2 r k) * w (ix2 k q) := by
  subst hx hw
  exact prod3_at V c r q

end Cert.KernelIdeal.Val

end
-- ==== Proof.StageProd3.lean ====
/-
  The second layer's matrix product. The kernel multiplies each block of 5000 rows by the whole weight matrix; its
  output array after the run is the product of the whole input with the weights, which is the reference's product
  of the same two arrays.
-/
import proofs.«105290_j43542378447163_1_alg».proof.Proof.StageNorm1
import proofs.«105290_j43542378447163_1_alg».proof.Proof.Prod3
import Idealize.ShloMosaic.PureOps.Ideal

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

/-- The kernel's product array is the reference's product stage. -/
theorem st_H1 (c : Dev nD) (hR : InputsReal m c) :
    W7 m ρ c (Proc.devRef .tc main_v57) = Cert.ReferenceIdeal.Read.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W7_arr m ρ c 2).trans ?_
  rw [final3 (V6 m ρ) c]
  show Host.dotGeneral (F := Ideal) (φ₁ := .f32) (φ₂ := .f32) (DotDims.plain 50000 128 128) none
      (W6 m ρ c (Proc.devRef .tc main_v56)) (W6 m ρ c (Proc.devRef .tc main_arg6)) = _
  rw [st_h1 m ρ c hR, arg6_at6 m ρ c]
  rfl

end Cert.KernelIdeal.Val

end
-- ==== Proof.StageAgg2.lean ====
/-
  The second layer's aggregation. Between the product kernel and the next kernel the program gathers the product's
  rows at the edge sources, scales each by its edge weight and adds them into the destination rows, and recasts
  the bias vector as a one-row array. The reference does the same to the same product with the same edge tables,
  so the aggregate is the reference's aggregate stage; the one-row bias is the reference's bias row (a recast of a
  vector to one row is its spread along the second axis).
-/
import proofs.«105290_j43542378447163_1_alg».proof.Proof.StageGlue
import proofs.«105290_j43542378447163_1_alg».proof.Proof.StageProd3
import proofs.«105290_j43542378447163_1_alg».proof.Proof.LibRowOfVector
import Idealize.ShloMosaic.PureOps.Ideal
import Idealize.ShloMosaic.Lib.StableHlo.Run

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

set_option maxHeartbeats 4000000 in
/-- The aggregate at the next kernel's entry is the reference's aggregate stage. -/
theorem st_agg2 (c : Dev nD) (hR : InputsReal m c) :
    W8 m ρ c (Proc.devRef .tc main_v70) = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps4 (W7 m ρ c) (Proc.devRef .tc main_v70) = _
  after_results_simp
  rw [st_H1 m ρ c hR, (src_at7 m ρ c).trans (src_at1 m ρ c), (dst_at7 m ρ c).trans (dst_at1 m ρ c),
    (nrm_at7 m ρ c).trans (nrm_at1 m ρ c)]
  rfl

set_option maxHeartbeats 4000000 in
/-- The one-row bias at the next kernel's entry is the reference's bias row. -/
theorem st_bias2 (c : Dev nD) :
    W8 m ρ c (Proc.devRef .tc main_v71) = Cert.ReferenceIdeal.Read.val_main_v86 (F := Ideal) (m ((c.tc : Thread nD τ).loc main_arg7)) := by
  show StableHlo.after hostOps4 (W7 m ρ c) (Proc.devRef .tc main_v71) = _
  after_results_simp
  rw [arg7_at7 m ρ c]
  exact Cert.Lib.shapeCast_row_eq_broadcastInDim (n := 128) _ _ _

end Cert.KernelIdeal.Val

end
-- ==== Proof.Stats4.lean ====
/- The accumulated column statistics of the second normalisation: over the ten row blocks of 5000 rows of x (a [50000, 128] array), with the bias row b ([1, 128]) added to every row, the kernel keeps two [1, 128] running rows — reset to zero at the first block, then at every block increased, column by column, by the block's sum of x + b and of (x + b)². Over the extended reals the order and grouping of a finite sum do not matter, so after the tenth block column q of the first row is the sum over all 50000 rows r of x(r, q) + b(q), and of the second the sum of the squares (x(r, q) + b(q))²; each output array is one block, written back after the last point, so the arrays end holding those rows. -/
import proofs.«105290_j43542378447163_1_alg».proof.Proof.Gen.KernelIdeal.Frame
import proofs.«105290_j43542378447163_1_alg».proof.Proof.LibRowBlockSum
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-! ## What one grid point leaves in the two running rows

At every point the body reads the row block x₀, the bias row x₁ and the two running rows, and stores the running rows
increased by the block's column sums; at the first point it first stores zero rows and reads those back. -/

/-- The zero offset of a whole-buffer access. -/
theorem stats4_hz : (![0, 0] : Fin 2 → Nat) = fun _ => 0 := funext fun a => by fin_cases a <;> rfl

section AnyF
variable {F : FTy → Type} [FloatOps F]

/-- At a later point the first running row, holding xo2, is left at the sum payload of the block, the bias row and xo2. -/
theorem stats4_out_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero stats4_hz]
  simp only [View.readAt_eq_ld, h1.read_unread, h2.read_unread, h3.read_unread,
    View.ld_unit_zero (S := S5000x128) stats4_hz, View.ld_unit_zero (S := S1x128) stats4_hz]

/-- At a later point the second running row, holding xo3, is left at the sum-of-squares payload of the block, the bias row and xo3. -/
theorem stats4_out_B_3 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero stats4_hz]
  simp only [View.readAt_eq_ld, h1.read_unread, h2.read_unread, h4.read_unread,
    View.ld_unit_zero (S := S5000x128) stats4_hz, View.ld_unit_zero (S := S1x128) stats4_hz]

/-- At the first point the first running row is left at the sum payload over the zero row just stored. -/
theorem stats4_out_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_2 c i a1 h1 a2 h2 a3 h3 a4 h4 hc x0 x1 = k4_pay4 x0 x1 (k4_pay1 (F := F)) := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) stats4_hz, View.readCov_unit_zero (S := S1x128) _ stats4_hz]
  simp only [View.readAt_eq_ld, h1.read_unread, h2.read_unread,
    View.ld_unit_zero (S := S5000x128) stats4_hz, View.ld_unit_zero (S := S1x128) stats4_hz]

/-- At the first point the second running row is left at the sum-of-squares payload over the zero row just stored. -/
theorem stats4_out_A_3 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_3 c i a1 h1 a2 h2 a3 h3 a4 h4 hc x0 x1 = k4_pay5 x0 x1 (k4_pay2 (F := F)) := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) stats4_hz, View.readCov_unit_zero (S := S1x128) _ stats4_hz]
  simp only [View.readAt_eq_ld, h1.read_unread, h2.read_unread,
    View.ld_unit_zero (S := S5000x128) stats4_hz, View.ld_unit_zero (S := S1x128) stats4_hz]

end AnyF

/-! ## The payloads read at a column, over the extended reals -/

/-- The sum over the rows of a [5000, 128] block, started from zero, read at column q, is the finite sum over the 5000 rows p of the entries (p, q). -/
theorem stats4_col_sum (src : FVec Ideal S5000x128 .f32) (h : S5000x128.Reduces [0] S128) (hφ : FKind.Formats .f32)
    (hacc : (0x00000000#32 : BitVec FTy.f32.bits) = FKind.add.neutral .f32 hφ) (q : Fin 128) :
    multiReduction .add [0] S128 src 0x00000000#32 h hφ hacc (ix1 q) = ∑ p : Fin 5000, src (ix2 p q) := by
  refine (Ideal.multiReduction_add_single src 0x00000000#32 h hφ hacc (ix1 q)).trans ?_
  show ∑ k : Fin 5000, src (h.lift (ix1 q) k) = _
  refine Finset.sum_congr rfl fun k _ => congrArg src ?_
  funext d; apply Fin.ext
  fin_cases d <;> rfl

/-- The block with the bias row added to every row, at (p, q): x₀(p, q) + x₁(0, q). -/
theorem stats4_pay3_apply (x0 : Vec Ideal S5000x128 .f32) (x1 : Vec Ideal S1x128 .f32) (p : Fin 5000) (q : Fin 128) :
    k4_pay3 (F := Ideal) x0 x1 (ix2 p q) = x0 (ix2 p q) + x1 (ix2 (0 : Fin 1) q) := by
  unfold k4_pay3
  rw [shapeCast_self, shapeCast_self]
  exact congrArg (x0 (ix2 p q) + ·) (broadcastTo_1b_ab_apply x1 broadcasts_S1x128_S5000x128 p q)

/-- The first reset row is zero. -/
theorem stats4_pay1_apply (q : Fin 128) : k4_pay1 (F := Ideal) (ix2 (0 : Fin 1) q) = 0 :=
  Ideal.ofBits_zero_f32

/-- The second reset row is zero. -/
theorem stats4_pay2_apply (q : Fin 128) : k4_pay2 (F := Ideal) (ix2 (0 : Fin 1) q) = 0 :=
  Ideal.ofBits_zero_f32

/-- The new first running row at column q: the old one plus the block's column sum of x₀ + x₁. -/
theorem stats4_pay4_apply (x0 : Vec Ideal S5000x128 .f32) (x1 acc : Vec Ideal S1x128 .f32) (q : Fin 128) :
    k4_pay4 (F := Ideal) x0 x1 acc (ix2 (0 : Fin 1) q)
      = acc (ix2 (0 : Fin 1) q) + ∑ p : Fin 5000, (x0 (ix2 p q) + x1 (ix2 (0 : Fin 1) q)) := by
  unfold k4_pay4
  dsimp only
  rw [shapeCast_self]
  refine congrArg (acc (ix2 (0 : Fin 1) q) + ·) ?_
  refine (shapeCast_a_1a_apply _ shapeCasts_S128_S1x128 (0 : Fin 1) q).trans ?_
  refine (stats4_col_sum _ _ _ _ q).trans ?_
  exact Finset.sum_congr rfl fun p _ => stats4_pay3_apply x0 x1 p q

/-- The new second running row at column q: the old one plus the block's column sum of (x₀ + x₁)². -/
theorem stats4_pay5_apply (x0 : Vec Ideal S5000x128 .f32) (x1 acc : Vec Ideal S1x128 .f32) (q : Fin 128) :
    k4_pay5 (F := Ideal) x0 x1 acc (ix2 (0 : Fin 1) q)
      = acc (ix2 (0 : Fin 1) q) + ∑ p : Fin 5000, (x0 (ix2 p q) + x1 (ix2 (0 : Fin 1) q)) * (x0 (ix2 p q) + x1 (ix2 (0 : Fin 1) q)) := by
  unfold k4_pay5
  dsimp only
  rw [shapeCast_self]
  refine congrArg (acc (ix2 (0 : Fin 1) q) + ·) ?_
  refine (shapeCast_a_1a_apply _ shapeCasts_S128_S1x128 (0 : Fin 1) q).trans ?_
  refine (stats4_col_sum _ _ _ _ q).trans ?_
  refine Finset.sum_congr rfl fun p _ => ?_
  exact congrArg₂ (· * ·) (stats4_pay3_apply x0 x1 p q) (stats4_pay3_apply x0 x1 p q)

section Regions
variable (V : (c : Dev nD) → (b : Ref sig .tc) → Buf (Elt Ideal) ((c : Thread nD τ).loc b))

/-! ## The input blocks read off their arrays -/

/-- At point t the window of x is at row block t, column block 0; the bias row's window is always its whole array. -/
theorem stats4_idx_facts : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- Entry (p, q) of the row block of x at point t is x at row p + 5000 t, column q. -/
theorem stats4_iblk0_apply (c : Dev nD) (t : Fin cfg4.N) (p : Fin 5000) (q : Fin 128) (r : Fin 50000)
    (hr : r.val = p.val + 5000 * t.val) :
    (iblk4 V c 0 t : Vec Ideal S5000x128 .f32) (ix2 p q) = V c main_v70 (ix2 r q) := by
  obtain ⟨e0, e1, -, -⟩ := stats4_idx_facts t
  show V c main_v70 (((cfg4.win 0).blk t).view.emb (ix2 p q)) = V c main_v70 (ix2 r q)
  refine congrArg (V c main_v70) ?_
  funext a; apply Fin.ext
  match a with
  | ⟨0, _⟩ => show win4_0.index t (0 : Fin 2) * 5000 + 1 * p.val = r.val; omega
  | ⟨1, _⟩ => show win4_0.index t (1 : Fin 2) * 128 + 1 * q.val = q.val; omega

/-- The bias row's block at any point is the bias row. -/
theorem stats4_iblk1_apply (c : Dev nD) (t : Fin cfg4.N) (q : Fin 128) :
    (iblk4 V c 1 t : Vec Ideal S1x128 .f32) (ix2 (0 : Fin 1) q) = V c main_v71 (ix2 (0 : Fin 1) q) := by
  obtain ⟨-, -, e2, e3⟩ := stats4_idx_facts t
  show V c main_v71 (((cfg4.win 1).blk t).view.emb (ix2 (0 : Fin 1) q)) = V c main_v71 (ix2 (0 : Fin 1) q)
  refine congrArg (V c main_v71) ?_
  funext a; apply Fin.ext
  match a with
  | ⟨0, _⟩ => show win4_1.index t (0 : Fin 2) * 1 + 1 * 0 = 0; omega
  | ⟨1, _⟩ => show win4_1.index t (1 : Fin 2) * 128 + 1 * q.val = q.val; omega

/-! ## What the two buffers hold after each point -/

/-- After the first point: the two payloads over the zero rows. -/
theorem stats4_first (c : Dev nD) (t : Fin cfg4.N) (h0 : t.val % 10 = 0) :
    outsAt4 V c t.val t.isLt
      = (k4_pay4 (iblk4 V c 0 t) (iblk4 V c 1 t) (k4_pay1 (F := Ideal)),
         k4_pay5 (iblk4 V c 0 t) (iblk4 V c 1 t) (k4_pay2 (F := Ideal))) := by
  rw [outsAt4_A V c t h0]
  exact congrArg₂ Prod.mk
    (stats4_out_A_2 c (grid4.coords t) (ms4_0 t) (hs4_0 t) (ms4_1 t) (hs4_1 t) (ms4_2 t) (hs4_2 t) (ms4_3 t) (hs4_3 t) ((hcond4_0 t).mpr h0) (iblk4 V c 0 t) (iblk4 V c 1 t))
    (stats4_out_A_3 c (grid4.coords t) (ms4_0 t) (hs4_0 t) (ms4_1 t) (hs4_1 t) (ms4_2 t) (hs4_2 t) (ms4_3 t) (hs4_3 t) ((hcond4_0 t).mpr h0) (iblk4 V c 0 t) (iblk4 V c 1 t))

/-- After a later point: the two payloads over what the point before left. -/
theorem stats4_step (c : Dev nD) (t : Fin cfg4.N) (h0 : ¬t.val % 10 = 0) :
    outsAt4 V c t.val t.isLt
      = (k4_pay4 (iblk4 V c 0 t) (iblk4 V c 1 t) (outsAt4 V c (t.val - 1) (Nat.lt_of_le_of_lt (Nat.sub_le _ _) t.isLt)).1,
         k4_pay5 (iblk4 V c 0 t) (iblk4 V c 1 t) (outsAt4 V c (t.val - 1) (Nat.lt_of_le_of_lt (Nat.sub_le _ _) t.isLt)).2) := by
  rw [outsAt4_B V c t h0]
  exact congrArg₂ Prod.mk
    (stats4_out_B_2 c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t)
      (outsAt4 V c (t.val - 1) (Nat.lt_of_le_of_lt (Nat.sub_le _ _) t.isLt)).1 (outsAt4 V c (t.val - 1) (Nat.lt_of_le_of_lt (Nat.sub_le _ _) t.isLt)).2)
    (stats4_out_B_3 c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t)
      (outsAt4 V c (t.val - 1) (Nat.lt_of_le_of_lt (Nat.sub_le _ _) t.isLt)).1 (outsAt4 V c (t.val - 1) (Nat.lt_of_le_of_lt (Nat.sub_le _ _) t.isLt)).2)

end Regions

/-- Column q of x + b summed over the rows 5000 s, …, 5000 s + 4999 of row block s (zero past the tenth block). -/
def stats4_blockSum (x : S50000x128.Idx → EReal) (b : S1x128.Idx → EReal) (s : ℕ) (q : Fin 128) : EReal :=
  if h : s < 10 then
    ∑ p : Fin 5000, (x (ix2 (⟨p.val + 5000 * s, by have := p.isLt; omega⟩ : Fin 50000) q) + b (ix2 (0 : Fin 1) q))
  else 0

/-- The same for the squares of x + b. -/
def stats4_blockSq (x : S50000x128.Idx → EReal) (b : S1x128.Idx → EReal) (s : ℕ) (q : Fin 128) : EReal :=
  if h : s < 10 then
    ∑ p : Fin 5000, (x (ix2 (⟨p.val + 5000 * s, by have := p.isLt; omega⟩ : Fin 50000) q) + b (ix2 (0 : Fin 1) q))
      * (x (ix2 (⟨p.val + 5000 * s, by have := p.isLt; omega⟩ : Fin 50000) q) + b (ix2 (0 : Fin 1) q))
  else 0

/-- A block x₀ that reads x at the rows of row block s, and a row x₁ that reads b, have the column sum of x₀ + x₁ equal to that block sum. -/
theorem stats4_blockSum_eq (x : S50000x128.Idx → EReal) (b : S1x128.Idx → EReal) (x0 : Vec Ideal S5000x128 .f32)
    (x1 : Vec Ideal S1x128 .f32) (s : ℕ) (hs : s < 10) (q : Fin 128)
    (h0 : ∀ (p : Fin 5000) (r : Fin 50000), r.val = p.val + 5000 * s → x0 (ix2 p q) = x (ix2 r q))
    (h1 : x1 (ix2 (0 : Fin 1) q) = b (ix2 (0 : Fin 1) q)) :
    ∑ p : Fin 5000, (x0 (ix2 p q) + x1 (ix2 (0 : Fin 1) q)) = stats4_blockSum x b s q := by
  unfold stats4_blockSum
  rw [dif_pos hs]
  refine Finset.sum_congr rfl fun p _ => ?_
  exact congrArg₂ (· + ·) (h0 p ⟨p.val + 5000 * s, by have := p.isLt; omega⟩ rfl) h1

/-- The same for the squares. -/
theorem stats4_blockSq_eq (x : S50000x128.Idx → EReal) (b : S1x128.Idx → EReal) (x0 : Vec Ideal S5000x128 .f32)
    (x1 : Vec Ideal S1x128 .f32) (s : ℕ) (hs : s < 10) (q : Fin 128)
    (h0 : ∀ (p : Fin 5000) (r : Fin 50000), r.val = p.val + 5000 * s → x0 (ix2 p q) = x (ix2 r q))
    (h1 : x1 (ix2 (0 : Fin 1) q) = b (ix2 (0 : Fin 1) q)) :
    ∑ p : Fin 5000, (x0 (ix2 p q) + x1 (ix2 (0 : Fin 1) q)) * (x0 (ix2 p q) + x1 (ix2 (0 : Fin 1) q))
      = stats4_blockSq x b s q := by
  unfold stats4_blockSq
  rw [dif_pos hs]
  refine Finset.sum_congr rfl fun p _ => ?_
  have e := congrArg₂ (· + ·) (h0 p ⟨p.val + 5000 * s, by have := p.isLt; omega⟩ rfl) h1
  exact congrArg₂ (· * ·) e e

section Regions2
variable (V : (c : Dev nD) → (b : Ref sig .tc) → Buf (Elt Ideal) ((c : Thread nD τ).loc b))

/-- The grid has ten points. -/
theorem stats4_lt (t : Fin cfg4.N) : t.val < 10 := by
  have hN : cfg4.N = 10 := N_4
  have := t.isLt; omega

set_option maxHeartbeats 400000 in
/-- THE RUNNING ROWS: after point n, column q of the first holds the block sums of blocks 0 … n added up, and of the second the block sums of squares — by induction on the point (zero + the first block's sum at the first point; the previous total + the point's block sum after). -/
theorem stats4_outsAt_eq (c : Dev nD) : ∀ (n : ℕ) (h : n < cfg4.N) (q : Fin 128),
    (outsAt4 V c n h).1 (ix2 (0 : Fin 1) q) = ∑ s ∈ Finset.range (n + 1), stats4_blockSum (V c main_v70) (V c main_v71) s q
    ∧ (outsAt4 V c n h).2 (ix2 (0 : Fin 1) q) = ∑ s ∈ Finset.range (n + 1), stats4_blockSq (V c main_v70) (V c main_v71) s q
  | 0, h, q => by
    rw [stats4_first V c ⟨0, h⟩ rfl, Finset.sum_range_one, Finset.sum_range_one]
    constructor
    · refine (stats4_pay4_apply (iblk4 V c 0 ⟨0, h⟩) (iblk4 V c 1 ⟨0, h⟩) (k4_pay1 (F := Ideal)) q).trans ?_
      rw [stats4_pay1_apply, zero_add]
      exact stats4_blockSum_eq (V c main_v70) (V c main_v71) (iblk4 V c 0 ⟨0, h⟩) (iblk4 V c 1 ⟨0, h⟩) 0 (by decide) q
        (fun p r hr => stats4_iblk0_apply V c ⟨0, h⟩ p q r hr) (stats4_iblk1_apply V c ⟨0, h⟩ q)
    · refine (stats4_pay5_apply (iblk4 V c 0 ⟨0, h⟩) (iblk4 V c 1 ⟨0, h⟩) (k4_pay2 (F := Ideal)) q).trans ?_
      rw [stats4_pay2_apply, zero_add]
      exact stats4_blockSq_eq (V c main_v70) (V c main_v71) (iblk4 V c 0 ⟨0, h⟩) (iblk4 V c 1 ⟨0, h⟩) 0 (by decide) q
        (fun p r hr => stats4_iblk0_apply V c ⟨0, h⟩ p q r hr) (stats4_iblk1_apply V c ⟨0, h⟩ q)
  | n + 1, h, q => by
    have hN : cfg4.N = 10 := N_4
    have hB : ¬(⟨n + 1, h⟩ : Fin cfg4.N).val % 10 = 0 := by dsimp only; omega
    obtain ⟨ih1, ih2⟩ := stats4_outsAt_eq c n (Nat.lt_of_succ_lt h) q
    rw [stats4_step V c ⟨n + 1, h⟩ hB, Finset.sum_range_succ _ (n + 1), Finset.sum_range_succ _ (n + 1)]
    constructor
    · refine (stats4_pay4_apply (iblk4 V c 0 ⟨n + 1, h⟩) (iblk4 V c 1 ⟨n + 1, h⟩) _ q).trans ?_
      exact congrArg₂ (· + ·) ih1
        (stats4_blockSum_eq (V c main_v70) (V c main_v71) (iblk4 V c 0 ⟨n + 1, h⟩) (iblk4 V c 1 ⟨n + 1, h⟩) (n + 1) (stats4_lt ⟨n + 1, h⟩) q
          (fun p r hr => stats4_iblk0_apply V c ⟨n + 1, h⟩ p q r hr) (stats4_iblk1_apply V c ⟨n + 1, h⟩ q))
    · refine (stats4_pay5_apply (iblk4 V c 0 ⟨n + 1, h⟩) (iblk4 V c 1 ⟨n + 1, h⟩) _ q).trans ?_
      exact congrArg₂ (· + ·) ih2
        (stats4_blockSq_eq (V c main_v70) (V c main_v71) (iblk4 V c 0 ⟨n + 1, h⟩) (iblk4 V c 1 ⟨n + 1, h⟩) (n + 1) (stats4_lt ⟨n + 1, h⟩) q
          (fun p r hr => stats4_iblk0_apply V c ⟨n + 1, h⟩ p q r hr) (stats4_iblk1_apply V c ⟨n + 1, h⟩ q))

end Regions2

section Regions3
variable (V : (c : Dev nD) → (b : Ref sig .tc) → Buf (Elt Ideal) ((c : Thread nD τ).loc b))

/-! ## The two arrays after the run -/

/-- What the first running row holds after the last point, as contents of the first output array (its one block is the array). -/
abbrev stats4_res2 (c : Dev nD) : Buf (Elt Ideal) ((c : Thread nD τ).loc main_v72_0) :=
  (outsAt4 V c 9 (by rw [show cfg4.N = 10 from N_4]; decide)).1
/-- The second of them. -/
abbrev stats4_res3 (c : Dev nD) : Buf (Elt Ideal) ((c : Thread nD τ).loc main_v72_1) :=
  (outsAt4 V c 9 (by rw [show cfg4.N = 10 from N_4]; decide)).2

/-- The one write-back of the first output, after the last point, writes that row: block (0, 0) of a [1, 128] array read through zero offsets is the array. -/
theorem stats4_flushed_2 (c : Dev nD) (t : Fin cfg4.N) (hf : (cfg4.win 2).flush t = true) :
    (dat4 V c).flushed 2 t = ((cfg4.win 2).blk t).view.read (Elt Ideal) (stats4_res2 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v72_0.ty.shape.size a) = fun _ => 0 := funext fun a => by fin_cases a <;> decide
  exact (Memref.read_access_unit_zero (Elt Ideal) main_v72_0 hz' (fun a => by rw [congrFun hz' a]; simp) (stats4_res2 V c)).symm

/-- The same for the second output. -/
theorem stats4_flushed_3 (c : Dev nD) (t : Fin cfg4.N) (hf : (cfg4.win 3).flush t = true) :
    (dat4 V c).flushed 3 t = ((cfg4.win 3).blk t).view.read (Elt Ideal) (stats4_res3 V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3]
  have hz' : (fun a => win4_3.index t4_9 a * main_v72_1.ty.shape.size a) = fun _ => 0 := funext fun a => by fin_cases a <;> decide
  exact (Memref.read_access_unit_zero (Elt Ideal) main_v72_1 hz' (fun a => by rw [congrFun hz' a]; simp) (stats4_res3 V c)).symm

/-- So the first output array ends holding the first running row after the last point: the last point's block covers the array. -/
theorem stats4_final_2 (c : Dev nD) : (dat4 V c).arrAt 2 cfg4.N = stats4_res2 V c :=
  (dat4 V c).arrAt_eq_of_cover 2 (stats4_res2 V c) (stats4_flushed_2 V c) fun i =>
    ⟨t4_9, (flush4_2 t4_9).mpr rfl, by
      show i ∈ ((View.whole main_v72_0).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

/-- And the second output array the second running row. -/
theorem stats4_final_3 (c : Dev nD) : (dat4 V c).arrAt 3 cfg4.N = stats4_res3 V c :=
  (dat4 V c).arrAt_eq_of_cover 3 (stats4_res3 V c) (stats4_flushed_3 V c) fun i =>
    ⟨t4_9, (flush4_3 t4_9).mpr rfl, by
      show i ∈ ((View.whole main_v72_1).slice (win4_3.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 128 from by decide +kernel]; omega⟩

end Regions3

/-! ## The ten block sums are the sum over all the rows -/

/-- Ten numbers f 0, …, f 9, each the sum of g over the 5000 rows p + 5000 s of row block s, add up to the sum of g over all 50000 rows (50000 = 10 · 5000; only the grouping of a finite sum changes). -/
theorem stats4_join (g : Fin 50000 → EReal) (f : ℕ → EReal)
    (hf : ∀ (s : ℕ) (h : s < 10), f s = ∑ p : Fin 5000, g ⟨p.val + 5000 * s, by have := p.isLt; omega⟩) :
    ∑ s ∈ Finset.range (9 + 1), f s = ∑ r : Fin 50000, g r := by
  rw [← Fin.sum_univ_eq_sum_range f (9 + 1)]
  refine Eq.trans ?_ (Cert.Lib.sum_rows_blocks (a := 10) (b := 5000) g).symm
  refine Finset.sum_congr rfl fun t _ => ?_
  rw [hf t.val t.isLt]
  rfl

section Regions4
variable (V : (c : Dev nD) → (b : Ref sig .tc) → Buf (Elt Ideal) ((c : Thread nD τ).loc b))

/-- After the run, column q of the first output holds the sum over all 50000 rows of x + b. -/
theorem stats4_sum (c : Dev nD) (q : Fin 128) (x : S50000x128.Idx → EReal) (b : S1x128.Idx → EReal)
    (hx : V c main_v70 = x) (hb : V c main_v71 = b) :
    (dat4 (F := Ideal) V c).arrAt 2 cfg4.N (ix2 (0 : Fin 1) q)
      = ∑ r : Fin 50000, (x (ix2 r q) + b (ix2 (0 : Fin 1) q)) := by
  refine (congrFun (stats4_final_2 V c) (ix2 (0 : Fin 1) q)).trans ?_
  refine ((stats4_outsAt_eq V c 9 _ q).1).trans ?_
  rw [hx, hb]
  exact stats4_join (fun r => x (ix2 r q) + b (ix2 (0 : Fin 1) q)) _
    (fun s h => by unfold stats4_blockSum; rw [dif_pos h])

/-- After the run, column q of the second output holds the sum over all 50000 rows of (x + b)². -/
theorem stats4_sumsq (c : Dev nD) (q : Fin 128) (x : S50000x128.Idx → EReal) (b : S1x128.Idx → EReal)
    (hx : V c main_v70 = x) (hb : V c main_v71 = b) :
    (dat4 (F := Ideal) V c).arrAt 3 cfg4.N (ix2 (0 : Fin 1) q)
      = ∑ r : Fin 50000, (x (ix2 r q) + b (ix2 (0 : Fin 1) q)) * (x (ix2 r q) + b (ix2 (0 : Fin 1) q)) := by
  refine (congrFun (stats4_final_3 V c) (ix2 (0 : Fin 1) q)).trans ?_
  refine ((stats4_outsAt_eq V c 9 _ q).2).trans ?_
  rw [hx, hb]
  exact stats4_join (fun r => (x (ix2 r q) + b (ix2 (0 : Fin 1) q)) * (x (ix2 r q) + b (ix2 (0 : Fin 1) q))) _
    (fun s h => by unfold stats4_blockSq; rw [dif_pos h])

end Regions4

end Cert.KernelIdeal.Val
end
-- ==== Proof.Norm5.lean ====
/- Region 5 of the kernel's program normalises a [50000,128] array point by point: to each entry it adds its
   column's entry of a first row, subtracts that of a second, multiplies by those of a third and a fourth, adds that of
   a fifth, and takes the maximum with zero. The region works on ten blocks of 5000 rows; every block reads the five
   rows whole and its own 5000 rows of the array. This file reads the output array after the region, entry by entry,
   as that formula of the entry contents: first the body's arithmetic at one entry of a block, then where a block's
   entries sit in the arrays (block t's row a is the array's row 5000·t + a), then the ten blocks cover the array. -/
import proofs.«105290_j43542378447163_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offsets of a whole-buffer access, all zero. -/
theorem norm5_offsets : (![0, 0] : Fin 2 → Nat) = fun _ => 0 := funext fun a => by fin_cases a <;> rfl

/-- The body's arithmetic at entry (a, b) of a block: the five rows are read at column b. -/
theorem norm5_payload (x0 : Vec Ideal S5000x128 .f32) (x1 x2 x3 x4 x5 : Vec Ideal S1x128 .f32) (a : Fin 5000) (b : Fin 128) :
    k5_pay1 (F := Ideal) x0 x1 x2 x3 x4 x5 (ix2 a b)
      = max ((((x0 (ix2 a b) + x1 (ix2 (0 : Fin 1) b)) - x2 (ix2 (0 : Fin 1) b)) * x3 (ix2 (0 : Fin 1) b)) * x4 (ix2 (0 : Fin 1) b) + x5 (ix2 (0 : Fin 1) b)) 0 := by
  unfold k5_pay1
  simp only [shapeCast_self]
  rw [maximumf_apply, addf_apply, mulf_apply, mulf_apply, subf_apply, addf_apply, broadcast_apply,
    broadcastTo_1b_ab_apply, broadcastTo_1b_ab_apply, broadcastTo_1b_ab_apply, broadcastTo_1b_ab_apply, broadcastTo_1b_ab_apply]
  show max _ (Ideal.ofBits .f32 0x00000000#32) = _
  rw [Ideal.ofBits_zero_f32]

/-- The formula at entry (r, q), of the array X and the five rows. -/
def norm5_at (X : S50000x128.Idx → EReal) (B1 B2 B3 B4 B5 : S1x128.Idx → EReal) (r : Fin 50000) (q : Fin 128) : EReal :=
  max ((((X (ix2 r q) + B1 (ix2 (0 : Fin 1) q)) - B2 (ix2 (0 : Fin 1) q)) * B3 (ix2 (0 : Fin 1) q)) * B4 (ix2 (0 : Fin 1) q) + B5 (ix2 (0 : Fin 1) q)) 0

/-- The formula spelt out. -/
theorem norm5_at_eq (X : S50000x128.Idx → EReal) (B1 B2 B3 B4 B5 : S1x128.Idx → EReal) (r : Fin 50000) (q : Fin 128) :
    norm5_at X B1 B2 B3 B4 B5 r q
      = max ((((X (ix2 r q) + B1 (ix2 (0 : Fin 1) q)) - B2 (ix2 (0 : Fin 1) q)) * B3 (ix2 (0 : Fin 1) q)) * B4 (ix2 (0 : Fin 1) q) + B5 (ix2 (0 : Fin 1) q)) 0 := rfl

/-- The output array as a function of the region's entry contents. -/
def norm5_fn (c : Dev nD) : S50000x128.Idx → Elt Ideal .f32 := fun i =>
  norm5_at (V c main_v70) (V c main_v71) (V c main_v74) (V c main_v81) (V c main_v82) (V c main_v83) (i 0) (i 1)

/-- Which block of its array each window reads at each of the ten points: the big array's windows move one block of
    rows per point, the rows stay. -/
theorem norm5_index_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = t.val
    ∧ win5_6.index t (1 : Fin 2) = 0 :=
  (by decide +kernel : ∀ t : Fin grid5.N, _)

/-- Entry (a, b) of the input's block at point t is the array's entry (5000·t + a, b). -/
theorem norm5_block_in (c : Dev nD) (t : Fin cfg5.N) (a : Fin 5000) (b : Fin 128) (p : Fin 50000)
    (hp : p.val = t.val * 5000 + a.val) : iblk5 V c 0 t (ix2 a b) = V c main_v70 (ix2 p b) := by
  show V c main_v70 (((cfg5.win 0).blk t).view.emb (ix2 a b)) = V c main_v70 (ix2 p b)
  refine congrArg _ (funext fun d => Fin.ext ?_)
  obtain ⟨e00, e01, e10, e11, e20, e21, e30, e31, e40, e41, e50, e51, e60, e61⟩ := norm5_index_facts t
  match d with
  | ⟨0, _⟩ => show win5_0.index t (0 : Fin 2) * 5000 + 1 * a.val = p.val; omega
  | ⟨1, _⟩ => show win5_0.index t (1 : Fin 2) * 128 + 1 * b.val = b.val; omega

/-- Row window 1's block at any point is the whole row. -/
theorem norm5_block_row1 (c : Dev nD) (t : Fin cfg5.N) (b : Fin 128) :
    iblk5 V c 1 t (ix2 (0 : Fin 1) b) = V c main_v71 (ix2 (0 : Fin 1) b) := by
  show V c main_v71 (((cfg5.win 1).blk t).view.emb (ix2 (0 : Fin 1) b)) = V c main_v71 (ix2 (0 : Fin 1) b)
  refine congrArg _ (funext fun d => Fin.ext ?_)
  obtain ⟨e00, e01, e10, e11, e20, e21, e30, e31, e40, e41, e50, e51, e60, e61⟩ := norm5_index_facts t
  match d with
  | ⟨0, _⟩ => show win5_1.index t (0 : Fin 2) * 1 + 1 * 0 = 0; omega
  | ⟨1, _⟩ => show win5_1.index t (1 : Fin 2) * 128 + 1 * b.val = b.val; omega

/-- Row window 2's block at any point is the whole row. -/
theorem norm5_block_row2 (c : Dev nD) (t : Fin cfg5.N) (b : Fin 128) :
    iblk5 V c 2 t (ix2 (0 : Fin 1) b) = V c main_v74 (ix2 (0 : Fin 1) b) := by
  show V c main_v74 (((cfg5.win 2).blk t).view.emb (ix2 (0 : Fin 1) b)) = V c main_v74 (ix2 (0 : Fin 1) b)
  refine congrArg _ (funext fun d => Fin.ext ?_)
  obtain ⟨e00, e01, e10, e11, e20, e21, e30, e31, e40, e41, e50, e51, e60, e61⟩ := norm5_index_facts t
  match d with
  | ⟨0, _⟩ => show win5_2.index t (0 : Fin 2) * 1 + 1 * 0 = 0; omega
  | ⟨1, _⟩ => show win5_2.index t (1 : Fin 2) * 128 + 1 * b.val = b.val; omega

/-- Row window 3's block at any point is the whole row. -/
theorem norm5_block_row3 (c : Dev nD) (t : Fin cfg5.N) (b : Fin 128) :
    iblk5 V c 3 t (ix2 (0 : Fin 1) b) = V c main_v81 (ix2 (0 : Fin 1) b) := by
  show V c main_v81 (((cfg5.win 3).blk t).view.emb (ix2 (0 : Fin 1) b)) = V c main_v81 (ix2 (0 : Fin 1) b)
  refine congrArg _ (funext fun d => Fin.ext ?_)
  obtain ⟨e00, e01, e10, e11, e20, e21, e30, e31, e40, e41, e50, e51, e60, e61⟩ := norm5_index_facts t
  match d with
  | ⟨0, _⟩ => show win5_3.index t (0 : Fin 2) * 1 + 1 * 0 = 0; omega
  | ⟨1, _⟩ => show win5_3.index t (1 : Fin 2) * 128 + 1 * b.val = b.val; omega

/-- Row window 4's block at any point is the whole row. -/
theorem norm5_block_row4 (c : Dev nD) (t : Fin cfg5.N) (b : Fin 128) :
    iblk5 V c 4 t (ix2 (0 : Fin 1) b) = V c main_v82 (ix2 (0 : Fin 1) b) := by
  show V c main_v82 (((cfg5.win 4).blk t).view.emb (ix2 (0 : Fin 1) b)) = V c main_v82 (ix2 (0 : Fin 1) b)
  refine congrArg _ (funext fun d => Fin.ext ?_)
  obtain ⟨e00, e01, e10, e11, e20, e21, e30, e31, e40, e41, e50, e51, e60, e61⟩ := norm5_index_facts t
  match d with
  | ⟨0, _⟩ => show win5_4.index t (0 : Fin 2) * 1 + 1 * 0 = 0; omega
  | ⟨1, _⟩ => show win5_4.index t (1 : Fin 2) * 128 + 1 * b.val = b.val; omega

/-- Row window 5's block at any point is the whole row. -/
theorem norm5_block_row5 (c : Dev nD) (t : Fin cfg5.N) (b : Fin 128) :
    iblk5 V c 5 t (ix2 (0 : Fin 1) b) = V c main_v83 (ix2 (0 : Fin 1) b) := by
  show V c main_v83 (((cfg5.win 5).blk t).view.emb (ix2 (0 : Fin 1) b)) = V c main_v83 (ix2 (0 : Fin 1) b)
  refine congrArg _ (funext fun d => Fin.ext ?_)
  obtain ⟨e00, e01, e10, e11, e20, e21, e30, e31, e40, e41, e50, e51, e60, e61⟩ := norm5_index_facts t
  match d with
  | ⟨0, _⟩ => show win5_5.index t (0 : Fin 2) * 1 + 1 * 0 = 0; omega
  | ⟨1, _⟩ => show win5_5.index t (1 : Fin 2) * 128 + 1 * b.val = b.val; omega

/-- Entry (a, b) of the output's block at point t sits at the array's index (5000·t + a, b). -/
theorem norm5_block_out (t : Fin cfg5.N) (a : Fin 5000) (b : Fin 128) (p : Fin 50000)
    (hp : p.val = t.val * 5000 + a.val) : ((cfg5.win 6).blk t).view.emb (ix2 a b) = ix2 p b := by
  refine funext fun d => Fin.ext ?_
  obtain ⟨e00, e01, e10, e11, e20, e21, e30, e31, e40, e41, e50, e51, e60, e61⟩ := norm5_index_facts t
  match d with
  | ⟨0, _⟩ => show win5_6.index t (0 : Fin 2) * 5000 + 1 * a.val = p.val; omega
  | ⟨1, _⟩ => show win5_6.index t (1 : Fin 2) * 128 + 1 * b.val = b.val; omega

/-- What point t writes back is block t of the function. -/
theorem norm5_flushed (c : Dev nD) (t : Fin cfg5.N) :
    (dat5 (F := Ideal) V c).flushed 6 t = ((cfg5.win 6).blk t).view.read (Elt Ideal) (norm5_fn V c) := by
  show (cfg5.win 6).cut (grid5.coords t) ((dat5 V c).after 6 t) = _
  rw [after5_6]
  unfold out5_6
  rw [View.canon_unit_zero norm5_offsets]
  simp only [View.ld_unit_zero (S := S5000x128) norm5_offsets, View.ld_unit_zero (S := S1x128) norm5_offsets]
  funext j
  obtain ⟨a, b, rfl⟩ : ∃ (a : Fin 5000) (b : Fin 128), j = ix2 a b := ⟨j 0, j 1, eq_ix2 j⟩
  have ht : t.val < 10 := lt_of_lt_of_eq t.isLt N_5
  have ha : a.val < 5000 := a.isLt
  obtain ⟨p, hp⟩ : ∃ p : Fin 50000, p.val = t.val * 5000 + a.val := ⟨⟨t.val * 5000 + a.val, by omega⟩, rfl⟩
  show k5_pay1 (F := Ideal) (iblk5 V c 0 t) (iblk5 V c 1 t) (iblk5 V c 2 t) (iblk5 V c 3 t) (iblk5 V c 4 t) (iblk5 V c 5 t) (ix2 a b)
    = norm5_fn V c (((cfg5.win 6).blk t).view.emb (ix2 a b))
  refine (norm5_payload (iblk5 V c 0 t) (iblk5 V c 1 t) (iblk5 V c 2 t) (iblk5 V c 3 t) (iblk5 V c 4 t) (iblk5 V c 5 t) a b).trans ?_
  rw [norm5_block_in V c t a b p hp, norm5_block_row1 V c t b, norm5_block_row2 V c t b, norm5_block_row3 V c t b,
    norm5_block_row4 V c t b, norm5_block_row5 V c t b, norm5_block_out t a b p hp]
  rfl

/-- An index of the array is in point t's block iff each coordinate is in the block's range on its axis. -/
theorem norm5_mem_block (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v84).slice (win5_6.rect t)).set ↔ _
  rw [View.set_slice_whole, Rect.mem_set_unit]
  exact Iff.rfl

/-- Every index of the array is in the block of the point its row falls in. -/
theorem norm5_cover (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, htv⟩ : ∃ t : Fin cfg5.N, t.val = (i 0).val / 5000 :=
    ⟨⟨(i 0).val / 5000, lt_of_lt_of_eq (by omega : (i 0).val / 5000 < 10) N_5.symm⟩, rfl⟩
  obtain ⟨e00, e01, e10, e11, e20, e21, e30, e31, e40, e41, e50, e51, e60, e61⟩ := norm5_index_facts t
  refine ⟨t, flush5_6 t, ?_⟩
  rw [norm5_mem_block]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- The output array after the region is the function. -/
theorem norm5_array (c : Dev nD) : (dat5 (F := Ideal) V c).arrAt 6 cfg5.N = norm5_fn V c :=
  (dat5 V c).arrAt_eq_of_cover 6 (norm5_fn V c) (fun t _ => norm5_flushed V c t) norm5_cover

/-- The output array after the region, entry by entry, as the formula of the region's entry contents. -/
theorem norm5_entry (c : Dev nD) (r : Fin 50000) (q : Fin 128) :
    (dat5 (F := Ideal) V c).arrAt 6 cfg5.N (ix2 r q)
      = norm5_at (V c main_v70) (V c main_v71) (V c main_v74) (V c main_v81) (V c main_v82) (V c main_v83) r q := by
  rw [norm5_array V c]
  rfl

/-- The same with the formula spelt out, the entry contents of the array and of the five rows named x and b1 … b5. -/
theorem norm5 (c : Dev nD) (r : Fin 50000) (q : Fin 128) (x : S50000x128.Idx → EReal) (b1 b2 b3 b4 b5 : S1x128.Idx → EReal)
    (hx : V c main_v70 = x) (h1 : V c main_v71 = b1) (h2 : V c main_v74 = b2) (h3 : V c main_v81 = b3) (h4 : V c main_v82 = b4)
    (h5 : V c main_v83 = b5) :
    (dat5 (F := Ideal) V c).arrAt 6 cfg5.N (ix2 r q)
      = max ((((x (ix2 r q) + b1 (ix2 (0 : Fin 1) q)) - b2 (ix2 (0 : Fin 1) q)) * b3 (ix2 (0 : Fin 1) q)) * b4 (ix2 (0 : Fin 1) q) + b5 (ix2 (0 : Fin 1) q)) 0 := by
  subst hx h1 h2 h3 h4 h5
  exact norm5_entry V c r q

end Cert.KernelIdeal.Val

end
-- ==== Proof.RefNorm2.lean ====
/-
  The reference's second normalisation layer read at an entry. With h the layer's input (aggregate plus bias), entry
  (r, q) of the rectified output is the two-pass normalisation of column q of h at row r: the column mean
  (0 + Σ h) / 50000, the mean of the squared deviations, the reciprocal root of that plus the offset, then scale,
  shift and the maximum with zero.
-/
import proofs.«105290_j43542378447163_1_alg».proof.Proof.RefRead
import proofs.«105290_j43542378447163_1_alg».proof.Proof.LibBatchNorm
import proofs.«105290_j43542378447163_1_alg».proof.Proof.Consts
import Idealize.ShloMosaic.Lib.ValueIdx

set_option maxRecDepth 16384

noncomputable section

namespace Cert.ReferenceIdeal.RefValue

open Cert.ReferenceIdeal Cert.ReferenceIdeal.Read Idealize.ShloMosaic Idealize.ShloMosaic.ValueIdx Cert.Bridge

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))

/-- The column mean spread over the rows (where the deviations are taken) is the mean of the column. -/
theorem mean_spread2_a (r : Fin 50000) (q : Fin 128) :
    val_main_v93 (F := Ideal) x0 x1 x2 x3 x4 x5 x6 x7 (ix2 r q) = val_main_v91 (F := Ideal) x0 x1 x2 x3 x4 x5 x6 x7 (ix1 q) := by
  rw [val_main_v93_apply, val_main_v92_apply]
  exact congrArg _ (funext fun a => Fin.ext (by match a with | ⟨0, _⟩ => rfl))

/-- The column mean spread over the rows (where the output is centred) is the mean of the column. -/
theorem mean_spread2_b (r : Fin 50000) (q : Fin 128) :
    val_main_v100 (F := Ideal) x0 x1 x2 x3 x4 x5 x6 x7 (ix2 r q) = val_main_v91 (F := Ideal) x0 x1 x2 x3 x4 x5 x6 x7 (ix1 q) := by
  rw [val_main_v100_apply, val_main_v99_apply]
  exact congrArg _ (funext fun a => Fin.ext (by match a with | ⟨0, _⟩ => rfl))

/-- The column mean: the column's sum from zero, divided by the row count. -/
theorem mean_at2 (q : Fin 128) :
    val_main_v91 (F := Ideal) x0 x1 x2 x3 x4 x5 x6 x7 (ix1 q)
      = Ideal.div (0 + ∑ k : Fin 50000, val_main_v88 (F := Ideal) x0 x1 x2 x3 x4 x5 x6 x7 (ix2 k q)) (Ideal.ofBits .f32 0x47435000#32) := by
  rw [val_main_v91_apply, val_main_v89_apply, val_main_v90_apply, val_main_cst_17_apply, val_main_cst_16_apply]
  simp only [Ideal.hostDivf_def, Ideal.ofBits_def, word_zero]
  have e : ∀ k : Fin 50000, idx_main_v89 (ix1 q) k = ix2 k q := fun k =>
    funext fun a => Fin.ext (by match a with | ⟨0, _⟩ => rfl | ⟨1, _⟩ => rfl)
  simp only [e]

/-- The column variance: the mean of the squared deviations from the column mean. -/
theorem var_at2 (q : Fin 128) :
    val_main_v98 (F := Ideal) x0 x1 x2 x3 x4 x5 x6 x7 (ix1 q)
      = Ideal.div (0 + ∑ k : Fin 50000,
          (val_main_v88 (F := Ideal) x0 x1 x2 x3 x4 x5 x6 x7 (ix2 k q) - val_main_v91 (F := Ideal) x0 x1 x2 x3 x4 x5 x6 x7 (ix1 q))
            * (val_main_v88 (F := Ideal) x0 x1 x2 x3 x4 x5 x6 x7 (ix2 k q) - val_main_v91 (F := Ideal) x0 x1 x2 x3 x4 x5 x6 x7 (ix1 q)))
        (Ideal.ofBits .f32 0x47435000#32) := by
  rw [val_main_v98_apply, val_main_v96_apply, val_main_v97_apply, val_main_cst_19_apply, val_main_cst_18_apply]
  simp only [Ideal.hostDivf_def, Ideal.ofBits_def, word_zero]
  have e : ∀ k : Fin 50000, idx_main_v96 (ix1 q) k = ix2 k q := fun k =>
    funext fun a => Fin.ext (by match a with | ⟨0, _⟩ => rfl | ⟨1, _⟩ => rfl)
  have step : ∀ k : Fin 50000, val_main_v95 (F := Ideal) x0 x1 x2 x3 x4 x5 x6 x7 (idx_main_v96 (ix1 q) k)
      = (val_main_v88 (F := Ideal) x0 x1 x2 x3 x4 x5 x6 x7 (ix2 k q) - val_main_v91 (F := Ideal) x0 x1 x2 x3 x4 x5 x6 x7 (ix1 q))
        * (val_main_v88 (F := Ideal) x0 x1 x2 x3 x4 x5 x6 x7 (ix2 k q) - val_main_v91 (F := Ideal) x0 x1 x2 x3 x4 x5 x6 x7 (ix1 q)) := fun k => by
    rw [e k, val_main_v95_apply, val_main_v94_apply, mean_spread2_a]; rfl
  rw [Finset.sum_congr rfl fun k _ => step k]

/-- The reciprocal root of the variance plus the offset. -/
theorem inv_at2 (q : Fin 128) :
    val_main_v104 (F := Ideal) x0 x1 x2 x3 x4 x5 x6 x7 (ix1 q)
      = Ideal.rsqrt (val_main_v98 (F := Ideal) x0 x1 x2 x3 x4 x5 x6 x7 (ix1 q) + Ideal.ofBits .f32 0x3727C5AC#32) := by
  rw [val_main_v104_apply, val_main_v103_apply, val_main_v102_apply, val_main_cst_20_apply]
  rfl

/-- That reciprocal root spread over the rows. -/
theorem inv_spread2 (r : Fin 50000) (q : Fin 128) :
    val_main_v106 (F := Ideal) x0 x1 x2 x3 x4 x5 x6 x7 (ix2 r q) = val_main_v104 (F := Ideal) x0 x1 x2 x3 x4 x5 x6 x7 (ix1 q) := by
  rw [val_main_v106_apply, val_main_v105_apply]
  exact congrArg _ (funext fun a => Fin.ext (by match a with | ⟨0, _⟩ => rfl))

/-- The scale row spread over the rows. -/
theorem scale_spread2 (r : Fin 50000) (q : Fin 128) : val_main_v109 (F := Ideal) x8 (ix2 r q) = x8 (ix1 q) := by
  rw [val_main_v109_apply, val_main_v108_apply]
  exact congrArg _ (funext fun a => Fin.ext (by match a with | ⟨0, _⟩ => rfl))

/-- The shift row spread over the rows. -/
theorem shift_spread2 (r : Fin 50000) (q : Fin 128) : val_main_v112 (F := Ideal) x9 (ix2 r q) = x9 (ix1 q) := by
  rw [val_main_v112_apply, val_main_v111_apply]
  exact congrArg _ (funext fun a => Fin.ext (by match a with | ⟨0, _⟩ => rfl))

/-- Entry (r, q) of the layer's rectified output is the two-pass normalisation of column q at row r. -/
theorem norm2_ref (r : Fin 50000) (q : Fin 128) :
    val_main_v114 (F := Ideal) x0 x1 x2 x3 x4 x5 x6 x7 x8 x9 (ix2 r q)
      = normTwoPass (fun r' : Fin 50000 => val_main_v88 (F := Ideal) x0 x1 x2 x3 x4 x5 x6 x7 (ix2 r' q))
          (Ideal.ofBits .f32 0x47435000#32) (Ideal.ofBits .f32 0x3727C5AC#32) (x8 (ix1 q)) (x9 (ix1 q)) r := by
  rw [val_main_v114_apply, val_main_v113_apply, val_main_v110_apply, val_main_v107_apply, val_main_v101_apply, mean_spread2_b, inv_spread2,
    scale_spread2, shift_spread2, val_main_call1_v0_apply, val_main_call1_cst_apply, inv_at2, var_at2, mean_at2]
  simp only [Ideal.ofBits_def, word_zero]
  rfl

end Cert.ReferenceIdeal.RefValue

end
-- ==== Proof.StageNorm2.lean ====
/-
  The second normalisation layer. One kernel accumulates, over the ten row blocks, each column's sum and sum of
  squares of h = aggregate + bias; host operations turn them into the column mean S1/50000 and the reciprocal root
  of S2/50000 - mean² + offset; a second kernel returns max (((h - mean) · that) · scale + shift, 0). That is the
  one-pass normalisation of each column of h. The reference normalises the same h in two passes (the mean, then the
  mean of the squared deviations). Under the precondition every entry of h is a real number, so the two agree, and
  the kernel's output array is the reference's rectified stage.
-/
import proofs.«105290_j43542378447163_1_alg».proof.Proof.StageAgg2
import proofs.«105290_j43542378447163_1_alg».proof.Proof.Stats4
import proofs.«105290_j43542378447163_1_alg».proof.Proof.Norm5
import proofs.«105290_j43542378447163_1_alg».proof.Proof.RefNorm2
import proofs.«105290_j43542378447163_1_alg».proof.Proof.RefFinite
import proofs.«105290_j43542378447163_1_alg».proof.Proof.InputsReal
import proofs.«105290_j43542378447163_1_alg».proof.Proof.LibBatchNorm
import proofs.«105290_j43542378447163_1_alg».proof.Proof.Consts
import proofs.«105290_j43542378447163_1_alg».proof.Proof.LibRowOfVector
import Idealize.ShloMosaic.PureOps.Ideal
import Idealize.ShloMosaic.Lib.StableHlo.Run

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

open Cert.Bridge

/-- An array a kernel only reads is the same after the kernel: the aggregate across the statistics kernel. -/
theorem agg_after_stats4 (c : Dev nD) : W9 m ρ c (Proc.devRef .tc main_v70) = W8 m ρ c (Proc.devRef .tc main_v70) :=
  (W9_arr m ρ c 0).trans (((dat4 (V8 m ρ) c).arrAt_in 0 rfl _).trans (A_eq4 (V8 m ρ) c 0))

/-- Likewise the one-row bias. -/
theorem bias_after_stats4 (c : Dev nD) : W9 m ρ c (Proc.devRef .tc main_v71) = W8 m ρ c (Proc.devRef .tc main_v71) :=
  (W9_arr m ρ c 1).trans (((dat4 (V8 m ρ) c).arrAt_in 1 rfl _).trans (A_eq4 (V8 m ρ) c 1))

/-- The aggregate at the normalising kernel's entry is the reference's aggregate stage. -/
theorem agg_at10 (c : Dev nD) (hR : InputsReal m c) :
    W10 m ρ c (Proc.devRef .tc main_v70) = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  calc W10 m ρ c (Proc.devRef .tc main_v70)
    _ = W9 m ρ c (Proc.devRef .tc main_v70) :=
        StableHlo.after_of_forall_not_mem (b := Proc.devRef .tc main_v70) _ _ (by not_written hostOps5)
    _ = W8 m ρ c (Proc.devRef .tc main_v70) := agg_after_stats4 m ρ c
    _ = _ := st_agg2 m ρ c hR

/-- The one-row bias at the normalising kernel's entry is the reference's bias row. -/
theorem bias_at10 (c : Dev nD) :
    W10 m ρ c (Proc.devRef .tc main_v71) = Cert.ReferenceIdeal.Read.val_main_v86 (F := Ideal) (m ((c.tc : Thread nD τ).loc main_arg7)) :=
  calc W10 m ρ c (Proc.devRef .tc main_v71)
    _ = W9 m ρ c (Proc.devRef .tc main_v71) :=
        StableHlo.after_of_forall_not_mem (b := Proc.devRef .tc main_v71) _ _ (by not_written hostOps5)
    _ = W8 m ρ c (Proc.devRef .tc main_v71) := bias_after_stats4 m ρ c
    _ = _ := st_bias2 m ρ c

set_option maxHeartbeats 4000000 in
/-- The mean row: the column sums divided by the row count. -/
theorem mean_at10 (c : Dev nD) :
    W10 m ρ c (Proc.devRef .tc main_v74)
      = Host.divf (F := Ideal) (W9 m ρ c (Proc.devRef .tc main_v72_0))
          (broadcastInDim S1x128 ![] bcast_S_S1x128 (constant (F := Ideal) S_ .f32 0x47435000#32)) := by
  show StableHlo.after hostOps5 (W9 m ρ c) (Proc.devRef .tc main_v74) = _
  after_results_simp <;> rfl

set_option maxHeartbeats 4000000 in
/-- The reciprocal-root row: of the mean square less the squared mean, plus the offset. -/
theorem inv_at10 (c : Dev nD) :
    W10 m ρ c (Proc.devRef .tc main_v81)
      = Host.rsqrt (F := Ideal) (addf
          (subf
            (Host.divf (F := Ideal) (W9 m ρ c (Proc.devRef .tc main_v72_1))
              (broadcastInDim S1x128 ![] bcast_S_S1x128 (constant (F := Ideal) S_ .f32 0x47435000#32)))
            (mulf
              (Host.divf (F := Ideal) (W9 m ρ c (Proc.devRef .tc main_v72_0))
                (broadcastInDim S1x128 ![] bcast_S_S1x128 (constant (F := Ideal) S_ .f32 0x47435000#32)))
              (Host.divf (F := Ideal) (W9 m ρ c (Proc.devRef .tc main_v72_0))
                (broadcastInDim S1x128 ![] bcast_S_S1x128 (constant (F := Ideal) S_ .f32 0x47435000#32)))))
          (broadcastInDim S1x128 ![] bcast_S_S1x128 (constant (F := Ideal) S_ .f32 0x3727C5AC#32))) := by
  show StableHlo.after hostOps5 (W9 m ρ c) (Proc.devRef .tc main_v81) = _
  after_results_simp <;> rfl

set_option maxHeartbeats 4000000 in
/-- The scale row is the reference's scale row. -/
theorem scale_at10 (c : Dev nD) :
    W10 m ρ c (Proc.devRef .tc main_v82) = Cert.ReferenceIdeal.Read.val_main_v108 (F := Ideal) (m ((c.tc : Thread nD τ).loc main_arg8)) := by
  show StableHlo.after hostOps5 (W9 m ρ c) (Proc.devRef .tc main_v82) = _
  after_results_simp
  rw [arg8_at9 m ρ c]
  exact Cert.Lib.shapeCast_row_eq_broadcastInDim (n := 128) _ _ _

set_option maxHeartbeats 4000000 in
/-- The shift row is the reference's shift row. -/
theorem shift_at10 (c : Dev nD) :
    W10 m ρ c (Proc.devRef .tc main_v83) = Cert.ReferenceIdeal.Read.val_main_v111 (F := Ideal) (m ((c.tc : Thread nD τ).loc main_arg9)) := by
  show StableHlo.after hostOps5 (W9 m ρ c) (Proc.devRef .tc main_v83) = _
  after_results_simp
  rw [arg9_at9 m ρ c]
  exact Cert.Lib.shapeCast_row_eq_broadcastInDim (n := 128) _ _ _

/-- Column q of the layer's input: the aggregate plus the bias, row by row. -/
def col2 (c : Dev nD) (q : Fin 128) : Fin 50000 → EReal := fun r =>
  Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 r q) + Cert.ReferenceIdeal.Read.val_main_v86 (F := Ideal) (m ((c.tc : Thread nD τ).loc main_arg7)) (ix2 (0 : Fin 1) q)

/-- The column sums after the statistics kernel. -/
theorem sum_at9 (c : Dev nD) (hR : InputsReal m c) (q : Fin 128) :
    (W9 m ρ c (Proc.devRef .tc main_v72_0) : S1x128.Idx → EReal) (ix2 (0 : Fin 1) q) = ∑ r : Fin 50000, col2 m c q r :=
  (congrFun (W9_arr m ρ c 2) _).trans (stats4_sum (V8 m ρ) c q _ _ (st_agg2 m ρ c hR) (st_bias2 m ρ c))

/-- The column sums of squares after the statistics kernel. -/
theorem sumsq_at9 (c : Dev nD) (hR : InputsReal m c) (q : Fin 128) :
    (W9 m ρ c (Proc.devRef .tc main_v72_1) : S1x128.Idx → EReal) (ix2 (0 : Fin 1) q)
      = ∑ r : Fin 50000, col2 m c q r * col2 m c q r :=
  (congrFun (W9_arr m ρ c 3) _).trans (stats4_sumsq (V8 m ρ) c q _ _ (st_agg2 m ρ c hR) (st_bias2 m ρ c))

/-- The column is the reference's layer input, column q. -/
theorem col2_eq (c : Dev nD) (q : Fin 128) :
    col2 m c q = fun r => Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 r q) := by
  funext r
  rw [Cert.ReferenceIdeal.Read.val_main_v88_apply, Cert.ReferenceIdeal.Read.val_main_v87_apply]
  exact congrArg (fun j => _ + Cert.ReferenceIdeal.Read.val_main_v86 (F := Ideal) (m ((c.tc : Thread nD τ).loc main_arg7)) j)
    (funext fun a => Fin.ext (by match a with | ⟨0, _⟩ => rfl | ⟨1, _⟩ => rfl))

/-- Entry (r, q) of the normalising kernel's output: the one-pass normalisation of column q at row r. -/
theorem h2_entry (c : Dev nD) (hR : InputsReal m c) (r : Fin 50000) (q : Fin 128) :
    (W11 m ρ c (Proc.devRef .tc main_v84) : S50000x128.Idx → EReal) (ix2 r q)
      = normOnePass (col2 m c q) (Ideal.ofBits .f32 0x47435000#32) (Ideal.ofBits .f32 0x3727C5AC#32)
          ((m ((c.tc : Thread nD τ).loc main_arg8)) (ix1 q)) ((m ((c.tc : Thread nD τ).loc main_arg9)) (ix1 q)) r := by
  refine (congrFun (W11_arr m ρ c 6) _).trans ?_
  rw [norm5 (V10 m ρ) c r q _ _ _ _ _ _ (agg_at10 m ρ c hR) (bias_at10 m ρ c) (mean_at10 m ρ c) (inv_at10 m ρ c)
    (scale_at10 m ρ c) (shift_at10 m ρ c)]
  have hg : Cert.ReferenceIdeal.Read.val_main_v108 (F := Ideal) (m ((c.tc : Thread nD τ).loc main_arg8)) (ix2 (0 : Fin 1) q) = (m ((c.tc : Thread nD τ).loc main_arg8)) (ix1 q) := by
    rw [Cert.ReferenceIdeal.Read.val_main_v108_apply]
    exact congrArg _ (funext fun a => Fin.ext (by match a with | ⟨0, _⟩ => rfl))
  have hb : Cert.ReferenceIdeal.Read.val_main_v111 (F := Ideal) (m ((c.tc : Thread nD τ).loc main_arg9)) (ix2 (0 : Fin 1) q) = (m ((c.tc : Thread nD τ).loc main_arg9)) (ix1 q) := by
    rw [Cert.ReferenceIdeal.Read.val_main_v111_apply]
    exact congrArg _ (funext fun a => Fin.ext (by match a with | ⟨0, _⟩ => rfl))
  rw [hg, hb]
  unfold normOnePass
  simp only [← sum_at9 m ρ c hR q, ← sumsq_at9 m ρ c hR q]
  rfl

/-- The normalising kernel's output array is the reference's rectified second layer. -/
theorem st_h2 (c : Dev nD) (hR : InputsReal m c) :
    W11 m ρ c (Proc.devRef .tc main_v84) = Cert.ReferenceIdeal.Read.val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨r, q, rfl⟩ : ∃ (r : Fin 50000) (q : Fin 128), i = ix2 r q := ⟨_, _, eq_ix2 i⟩
  refine (h2_entry m ρ c hR r q).trans ?_
  rw [Cert.ReferenceIdeal.RefValue.norm2_ref, ← col2_eq m c q, word_rows]
  refine normOnePass_eq_twoPass (col2 m c q) (fun r' => ?_) 50000 (by simp) (by norm_num) _ _ _ r
  rw [col2_eq m c q]
  exact Cert.ReferenceIdeal.RefValue.h2pre_real _ _ _ _ _ _ _ _ hR.a0 hR.a2 hR.a3 hR.a4 hR.a5 hR.a6 hR.a7 _

end Cert.KernelIdeal.Val

end
-- ==== Proof.Prod6.lean ====
/- The last layer's matrix product, as one array. The kernel multiplies the [50000, 128] activations by the [128, 40]
   weights one block of 5000 rows at a time: each of the ten grid points rounds its row block (after a reshape to its own
   shape, which changes nothing) and the weights to bf16, multiplies them into a zero accumulator and writes the
   [5000, 40] result block back. Over the extended reals the rounding is the identity and the zero accumulator adds
   nothing, so a block's result at (a, b) is the sum over the contracted coordinate of x (a, c) · w (c, b); row a of block t
   is row 5000·t + a of the array, the ten blocks cover all 50000 rows, and so the result array ends holding, at (r, q), the
   sum over k of X (r, k) · W (k, q). -/
import proofs.«105290_j43542378447163_1_alg».proof.Proof.Gen.KernelIdeal.Frame
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The kernel's contraction record is the plain one: rows of the left operand against columns of the right. -/
theorem plain6 : dot_S5000x128_S128x40_S5000x40_1_0_0_1_n_n = DotDims.plain 5000 128 40 := rfl

/-- The origin of a two-axis block, as the constant-zero offsets. -/
theorem origin6 : (![0, 0] : Fin 2 → Nat) = fun _ => 0 := funext fun a => by fin_cases a <;> rfl

set_option maxHeartbeats 400000 in
/-- What the body computes from a block of rows `x` and the weights `w`, entry by entry: the plain product `x · w`. Rounding
    the operands changes nothing over the extended reals, and the zero accumulator adds nothing. -/
theorem pay6_at (x : FVec Ideal S5000x128 .f32) (w : FVec Ideal S128x40 .f32) (a : Fin 5000) (b : Fin 40) :
    k6_pay1 x w (ix2 a b) = ∑ c : Fin 128, x (ix2 a c) * w (ix2 c b) := by
  unfold k6_pay1
  rw [plain6, shapeCast_self]
  exact (Ideal.matmul_constant_zero_apply (DotDims.plain 5000 128 40) none _ _ (ix2 a b)).trans
    ((Ideal.dotGeneral_apply (DotDims.plain 5000 128 40) none default _ _ (ix2 a b)).symm.trans
      (StackMember.dotGeneral_plain_apply none _ _ a b))

set_option maxHeartbeats 400000 in
/-- A block of rows times the weights, read at a block index, is the whole product `X · W` read where the result block puts
    the index: entry (off + a, b) of `X · W` uses row off + a of `X` only. The three index maps say how the blocks sit in
    their arrays; only their coordinates are used. -/
theorem block6 (x : FVec Ideal S5000x128 .f32) (w : FVec Ideal S128x40 .f32)
    (X : FVec Ideal S50000x128 .f32) (W : FVec Ideal S128x40 .f32)
    (ex : S5000x128.Idx → S50000x128.Idx) (ew : S128x40.Idx → S128x40.Idx) (eo : S5000x40.Idx → S50000x40.Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : S5000x40.Idx) :
    k6_pay1 x w j = Host.dotGeneral (F := Ideal) (φ₁ := .f32) (φ₂ := .f32) (DotDims.plain 50000 128 40) none X W (eo j) := by
  obtain ⟨a, b, rfl⟩ : ∃ (a : Fin 5000) (b : Fin 40), j = ix2 a b := ⟨j 0, j 1, eq_ix2 j⟩
  obtain ⟨r, b', hab⟩ : ∃ (r : Fin 50000) (b' : Fin 40), eo (ix2 a b) = ix2 r b' :=
    ⟨eo (ix2 a b) 0, eo (ix2 a b) 1, eq_ix2 _⟩
  have hr : r.val = off + a.val := by
    have := heo0 (ix2 a b); rw [hab] at this; exact this
  have hb : b'.val = b.val := by
    have := heo1 (ix2 a b); rw [hab] at this; exact this
  rw [pay6_at, hab, StackMember.dotGeneral_plain_apply]
  refine Finset.sum_congr rfl fun c _ => ?_
  rw [hx, hw]
  have e1 : ex (ix2 a c) = ix2 r c := by
    funext d; apply Fin.ext
    match d with
    | ⟨0, _⟩ => exact (hex0 (ix2 a c)).trans hr.symm
    | ⟨1, _⟩ => exact hex1 (ix2 a c)
  have e2 : ew (ix2 c b) = ix2 c b' := by
    funext d; apply Fin.ext
    match d with
    | ⟨0, _⟩ => exact hew0 (ix2 c b)
    | ⟨1, _⟩ => exact (hew1 (ix2 c b)).trans hb.symm
  rw [e1, e2]

/-- Where each window's block sits at grid point `t`: the row blocks of the left operand and of the result are the `t`-th,
    the weights are one block. Decided over the ten points. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 400000 in
/-- What grid point `t` writes back is block `t` of the whole product of the two arrays as the region finds them. -/
theorem flushed6_eq (c : Dev nD) (t : Fin cfg6.N) :
    (dat6 (F := Ideal) V c).flushed 2 t = ((cfg6.win 2).blk t).view.read (Elt Ideal)
      (Host.dotGeneral (F := Ideal) (φ₁ := .f32) (φ₂ := .f32) (DotDims.plain 50000 128 40) none (V c main_v84) (V c main_arg10)) := by
  show (cfg6.win 2).cut (grid6.coords t) ((dat6 V c).after 2 t) = _
  rw [after6_2]
  unfold out6_2
  rw [View.canon_unit_zero origin6]
  simp only [View.ld_unit_zero (S := S5000x128) origin6, View.ld_unit_zero (S := S128x40) origin6]
  obtain ⟨e0, e1, e2, e3, e4, e5⟩ := idx6 t
  funext j
  refine block6 (iblk6 V c 0 t) (iblk6 V c 1 t) (V c main_v84) (V c main_arg10)
    (((cfg6.win 0).blk t).view.emb) (((cfg6.win 1).blk t).view.emb) (((cfg6.win 2).blk t).view.emb) (5000 * t.val)
    (fun y => rfl) (fun y => rfl) ?_ ?_ ?_ ?_ ?_ ?_ j
  · intro y; show win6_0.index t (0 : Fin 2) * 5000 + 1 * (y 0).val = _; omega
  · intro y; show win6_0.index t (1 : Fin 2) * 128 + 1 * (y 1).val = _; omega
  · intro y; show win6_1.index t (0 : Fin 2) * 128 + 1 * (y 0).val = _; omega
  · intro y; show win6_1.index t (1 : Fin 2) * 40 + 1 * (y 1).val = _; omega
  · intro y; show win6_2.index t (0 : Fin 2) * 5000 + 1 * (y 0).val = _; omega
  · intro y; show win6_2.index t (1 : Fin 2) * 40 + 1 * (y 1).val = _; omega

/-- An index of the result array is in point `t`'s block iff each coordinate is in the block's range on its axis. -/
theorem mem_blk6 (t : Fin cfg6.N) (i : S50000x40.Idx) :
    i ∈ ((cfg6.win 2).blk t).view.set ↔ ∀ a : Fin 2, win6_2.index t a * S5000x40.size a ≤ (i a).val ∧ (i a).val < win6_2.index t a * S5000x40.size a + S5000x40.size a := by
  show i ∈ ((View.whole main_v85).slice (win6_2.rect t)).set ↔ _
  rw [View.set_slice_whole, Rect.mem_set_unit]
  exact Iff.rfl

/-- Every row of the result lies in some point's block: row `r` in that of point `r / 5000`. -/
theorem cover6 (i : S50000x40.Idx) :
    ∃ t : Fin cfg6.N, (cfg6.win 2).flush t = true ∧ i ∈ ((cfg6.win 2).blk t).view.set := by
  have hi0 : (i 0).val < 50000 := (i 0).isLt
  have hi1 : (i 1).val < 40 := (i 1).isLt
  have hN : cfg6.N = 10 := N_6
  have ht : (i 0).val / 5000 < cfg6.N := by rw [hN]; omega
  obtain ⟨e0, e1, e2, e3, e4, e5⟩ := idx6 ⟨(i 0).val / 5000, ht⟩
  have e4' : win6_2.index ⟨(i 0).val / 5000, ht⟩ (0 : Fin 2) = (i 0).val / 5000 := e4
  refine ⟨⟨(i 0).val / 5000, ht⟩, flush6_2 _, ?_⟩
  rw [mem_blk6]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    omega
  | ⟨1, _⟩ =>
    show win6_2.index ⟨(i 0).val / 5000, ht⟩ (1 : Fin 2) * 40 ≤ (i 1).val ∧ (i 1).val < win6_2.index ⟨(i 0).val / 5000, ht⟩ (1 : Fin 2) * 40 + 40
    omega

/-- The result array after the region is the whole product of the two arrays the region finds. -/
theorem final6 (c : Dev nD) :
    (dat6 (F := Ideal) V c).arrAt 2 cfg6.N
      = Host.dotGeneral (F := Ideal) (φ₁ := .f32) (φ₂ := .f32) (DotDims.plain 50000 128 40) none (V c main_v84) (V c main_arg10) :=
  (dat6 (F := Ideal) V c).arrAt_eq_of_cover 2 _ (fun t _ => flushed6_eq V c t) (cover6)

/-- Entry (r, q) of the result array after the region, over the arrays as the region finds them. -/
theorem prod6_at (c : Dev nD) (r : Fin 50000) (q : Fin 40) :
    @Eq EReal ((dat6 (F := Ideal) V c).arrAt 2 cfg6.N (ix2 r q))
      (Finset.sum (M := EReal) Finset.univ fun k : Fin 128 =>
        HMul.hMul (α := EReal) (β := EReal) (γ := EReal) (V c main_v84 (ix2 r k)) (V c main_arg10 (ix2 k q))) :=
  (congrFun (final6 V c) (ix2 r q)).trans
    (StackMember.dotGeneral_plain_apply none (V c main_v84 : FVec Ideal S50000x128 .f32) (V c main_arg10 : FVec Ideal S128x40 .f32) r q)

/-- Entry (r, q) of the result array after the region: row `r` of the left array `x` against column `q` of the weights `w`. -/
theorem prod6 (c : Dev nD) (r : Fin 50000) (q : Fin 40) (x : S50000x128.Idx → EReal) (w : S128x40.Idx → EReal)
    (hx : V c main_v84 = x) (hw : V c main_arg10 = w) :
    (dat6 (F := Ideal) V c).arrAt 2 cfg6.N (ix2 r q) = ∑ k : Fin 128, x (ix2 r k) * w (ix2 k q) := by
  subst hx hw
  exact prod6_at V c r q

end Cert.KernelIdeal.Val

end
-- ==== Proof.StageProd6.lean ====
/-
  The third layer's matrix product. The kernel multiplies each block of 5000 rows by the whole weight matrix; its
  output array after the run is the product of the whole input with the weights, which is the reference's product
  of the same two arrays.
-/
import proofs.«105290_j43542378447163_1_alg».proof.Proof.StageNorm2
import proofs.«105290_j43542378447163_1_alg».proof.Proof.Prod6
import Idealize.ShloMosaic.PureOps.Ideal

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

/-- The kernel's product array is the reference's product stage. -/
theorem st_H2 (c : Dev nD) (hR : InputsReal m c) :
    W12 m ρ c (Proc.devRef .tc main_v85) = Cert.ReferenceIdeal.Read.val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W12_arr m ρ c 2).trans ?_
  rw [final6 (V11 m ρ) c]
  show Host.dotGeneral (F := Ideal) (φ₁ := .f32) (φ₂ := .f32) (DotDims.plain 50000 128 40) none
      (W11 m ρ c (Proc.devRef .tc main_v84)) (W11 m ρ c (Proc.devRef .tc main_arg10)) = _
  rw [st_h2 m ρ c hR, arg10_at11 m ρ c]
  rfl

end Cert.KernelIdeal.Val

end
-- ==== Proof.StageAgg3.lean ====
/-
  The third layer's aggregation. Between the product kernel and the next kernel the program gathers the product's
  rows at the edge sources, scales each by its edge weight and adds them into the destination rows, and recasts
  the bias vector as a one-row array. The reference does the same to the same product with the same edge tables,
  so the aggregate is the reference's aggregate stage; the one-row bias is the reference's bias row (a recast of a
  vector to one row is its spread along the second axis).
-/
import proofs.«105290_j43542378447163_1_alg».proof.Proof.StageGlue
import proofs.«105290_j43542378447163_1_alg».proof.Proof.StageProd6
import proofs.«105290_j43542378447163_1_alg».proof.Proof.LibRowOfVector
import Idealize.ShloMosaic.PureOps.Ideal
import Idealize.ShloMosaic.Lib.StableHlo.Run

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

set_option maxHeartbeats 4000000 in
/-- The aggregate at the next kernel's entry is the reference's aggregate stage. -/
theorem st_agg3 (c : Dev nD) (hR : InputsReal m c) :
    W13 m ρ c (Proc.devRef .tc main_v98) = Cert.ReferenceIdeal.Read.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps7 (W12 m ρ c) (Proc.devRef .tc main_v98) = _
  after_results_simp
  rw [st_H2 m ρ c hR, (src_at12 m ρ c).trans (src_at1 m ρ c), (dst_at12 m ρ c).trans (dst_at1 m ρ c),
    (nrm_at12 m ρ c).trans (nrm_at1 m ρ c)]
  rfl

set_option maxHeartbeats 4000000 in
/-- The one-row bias at the next kernel's entry is the reference's bias row. -/
theorem st_bias3 (c : Dev nD) :
    W13 m ρ c (Proc.devRef .tc main_v99) = Cert.ReferenceIdeal.Read.val_main_v129 (F := Ideal) (m ((c.tc : Thread nD τ).loc main_arg11)) := by
  show StableHlo.after hostOps7 (W12 m ρ c) (Proc.devRef .tc main_v99) = _
  after_results_simp
  rw [arg11_at12 m ρ c]
  exact Cert.Lib.shapeCast_row_eq_broadcastInDim (n := 40) _ _ _

end Cert.KernelIdeal.Val

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibHeadLayout.lean ====
/-
  Three readings at an index that a kernel's head meets when a matrix product with a one-column matrix is written as a
  broadcast multiply and a sum over the lanes.

  * The sum over the lanes of a [a, b] block, started from zero, read at row p, is the sum over k of the block's entries
    (p, k): over the extended reals a reduction from the neutral element is the plain finite sum.
  * A one-column matrix [a, 1] recast as a row [1, a] reads, at (·, q), the column's entry (q, 0): the recast keeps the
    row-major order, and both shapes list the same a numbers in it.
  * A one-entry vector recast as a one-entry matrix reads its entry.
-/
import Idealize.ShloMosaic.Lib.Pipeline.Value
import Idealize.ShloMosaic.Lib.ValueIdx
import Idealize.ShloMosaic.PureOps.Ideal.Laws

noncomputable section

namespace Cert.Lib

open Idealize.ShloMosaic Idealize.ShloMosaic.ValueIdx

/-- Summing the lanes of an [a, b] array from zero: at row p the result is the sum over k of the entries (p, k). -/
theorem lane_sum_zero_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src ?_
  funext c; apply Fin.ext
  fin_cases c <;> rfl

variable {α : Type}

/-- An [a, 1] column recast as a [1, a] row reads, at (u, q), the column at (q, 0). -/
theorem shapeCast_a1_1a_apply {a : ℕ} (x : (⟨2, ![a, 1]⟩ : Shape).Idx → α) (h : (⟨2, ![a, 1]⟩ : Shape).ShapeCasts ⟨2, ![1, a]⟩)
    (u : Fin 1) (q : Fin a) : shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu, Nat.zero_mul, Nat.zero_add, Nat.mul_one, Nat.add_zero])

/-- A one-entry vector recast as a [1, 1] matrix reads, everywhere, its entry. -/
theorem shapeCast_1_11_apply (x : (⟨1, ![1]⟩ : Shape).Idx → α) (h : (⟨1, ![1]⟩ : Shape).ShapeCasts ⟨2, ![1, 1]⟩)
    (u w : Fin 1) : shapeCast ⟨2, ![1, 1]⟩ x h (ix2 u w) = x (ix1 (0 : Fin 1)) :=
  shapeCast_apply x h _ _ (by
    have hu : u.val = 0 := by omega
    have hw : w.val = 0 := by omega
    rw [Shape.rowMajor_val_one, Shape.rowMajor_val_two]
    show 0 = u.val * 1 + w.val
    rw [hu, hw])

end Cert.Lib

end
-- ==== Proof.LogSoftmax7.lean ====
/- Region 7 of the kernel's program adds a bias row to a [50000,40] array and takes the logarithm of the softmax of
   every row: with z the row plus the bias and M the maximum of z's 40 entries (taken from the least extended real),
   entry q of the result is (z q - M) - log (sum over k of exp (z k - M)). The region works on ten blocks of 5000 rows;
   every block reads the bias row whole and its own 5000 rows of the array. This file reads the output array after the
   region, entry by entry, as that formula of the entry contents: first the body's arithmetic at one entry of a block
   (the row maximum and the row sum are kept as a column and spread back over the row), then where a block's entries
   sit in the arrays (block t's row a is the array's row 5000·t + a), then the ten blocks cover the array. -/
import proofs.«105290_j43542378447163_1_alg».proof.Proof.Gen.KernelIdeal.Frame
import proofs.«105290_j43542378447163_1_alg».proof.Proof.LibColumnLayout
import proofs.«105290_j43542378447163_1_alg».proof.Proof.LibHeadLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offsets of a whole-buffer access, all zero. -/
theorem lsm7_offsets : (![0, 0] : Fin 2 → Nat) = fun _ => 0 := funext fun a => by fin_cases a <;> rfl

/-- The word of minus infinity reads as the least extended real. -/
theorem lsm7_neg_inf : Ideal.ofBits .f32 0xFF800000#32 = ⊥ := by simp [Ideal.ofBits, Ideal.ieee]

/-- The formula on one row z of 40 extended reals, at lane q. -/
def lsm7_row (z : Fin 40 → EReal) (q : Fin 40) : EReal :=
  (z q - (Finset.univ : Finset (Fin 40)).fold max (⊥ : EReal) z)
    - Ideal.log (∑ k : Fin 40, Ideal.exp (z k - (Finset.univ : Finset (Fin 40)).fold max (⊥ : EReal) z))

/-- The formula at entry (r, q), of the array X and the bias row B. -/
def lsm7_at (X : S50000x40.Idx → EReal) (B : S1x40.Idx → EReal) (r : Fin 50000) (q : Fin 40) : EReal :=
  lsm7_row (fun k => X (ix2 r k) + B (ix2 (0 : Fin 1) k)) q

/-- The formula spelt out. -/
theorem lsm7_at_eq (X : S50000x40.Idx → EReal) (B : S1x40.Idx → EReal) (r : Fin 50000) (q : Fin 40) :
    lsm7_at X B r q
      = ((X (ix2 r q) + B (ix2 (0 : Fin 1) q))
          - (Finset.univ : Finset (Fin 40)).fold max (⊥ : EReal) (fun k => X (ix2 r k) + B (ix2 (0 : Fin 1) k)))
        - Ideal.log (∑ k : Fin 40, Ideal.exp ((X (ix2 r k) + B (ix2 (0 : Fin 1) k))
            - (Finset.univ : Finset (Fin 40)).fold max (⊥ : EReal) (fun k => X (ix2 r k) + B (ix2 (0 : Fin 1) k)))) := rfl

/-- The row maximum, kept as a column and spread back over the row's 40 lanes, at entry (a, b): the maximum, from the
    least element, of row a's 40 entries. -/
theorem lsm7_row_max (src : FVec Ideal S5000x40 .f32) (h : S5000x40.Reduces [1] S5000) (hc : S5000.ShapeCasts S5000x1)
    (hb : S5000x1.Broadcasts S5000x40) (hφ : FKind.Formats .f32)
    (hacc : (0xFF800000#32 : BitVec FTy.f32.bits) = FKind.maximumf.neutral .f32 hφ) (a : Fin 5000) (b : Fin 40) :
    broadcastTo S5000x40 (shapeCast S5000x1 (multiReduction .maximumf [1] S5000 src 0xFF800000#32 h hφ hacc) hc) hb (ix2 a b)
      = (Finset.univ : Finset (Fin 40)).fold max (⊥ : EReal) (fun k => src (ix2 a k)) := by
  refine (Cert.Lib.broadcastTo_a1_ab_apply _ hb a b).trans ?_
  refine (Cert.Lib.shapeCast_a_a1_apply _ hc a (0 : Fin 1)).trans ?_
  refine (Ideal.multiReduction_maximumf_single src 0xFF800000#32 h hφ hacc (ix1 a)).trans ?_
  show (Finset.univ : Finset (Fin 40)).fold max (Ideal.ofBits .f32 0xFF800000#32) (src ∘ h.lift (ix1 a)) = _
  rw [lsm7_neg_inf]
  refine congrArg (fun f => Finset.fold max (⊥ : EReal) f (Finset.univ : Finset (Fin 40))) (funext fun k => congrArg src ?_)
  funext c; apply Fin.ext
  fin_cases c <;> rfl

/-- The logarithm of the row sum, kept as a column and spread back over the row's 40 lanes, at entry (a, b). -/
theorem lsm7_row_logsum (src : FVec Ideal S5000x40 .f32) (h : S5000x40.Reduces [1] S5000) (hc : S5000.ShapeCasts S5000x1)
    (hb : S5000x1.Broadcasts S5000x40) (hφ : FKind.Formats .f32)
    (hacc : (0x00000000#32 : BitVec FTy.f32.bits) = FKind.add.neutral .f32 hφ) (a : Fin 5000) (b : Fin 40) :
    broadcastTo S5000x40 (Idealize.ShloMosaic.log (shapeCast S5000x1 (multiReduction .add [1] S5000 src 0x00000000#32 h hφ hacc) hc)) hb (ix2 a b)
      = Ideal.log (∑ k : Fin 40, src (ix2 a k)) := by
  refine (Cert.Lib.broadcastTo_a1_ab_apply _ hb a b).trans ?_
  show Ideal.log (shapeCast S5000x1 (multiReduction .add [1] S5000 src 0x00000000#32 h hφ hacc) hc (ix2 a (0 : Fin 1))) = _
  refine congrArg Ideal.log ?_
  refine (Cert.Lib.shapeCast_a_a1_apply _ hc a (0 : Fin 1)).trans ?_
  exact Cert.Lib.lane_sum_zero_apply src h hφ hacc a

/-- The body after the bias is added, over any block v5 whose row a is z: subtract the row maximum, then subtract the
    logarithm of the row sum of the exponentials. -/
theorem lsm7_tail (v5 : FVec Ideal S5000x40 .f32) (h : S5000x40.Reduces [1] S5000) (hc : S5000.ShapeCasts S5000x1)
    (hb : S5000x1.Broadcasts S5000x40) (hφ : FKind.Formats .f32)
    (hacc1 : (0xFF800000#32 : BitVec FTy.f32.bits) = FKind.maximumf.neutral .f32 hφ)
    (hacc0 : (0x00000000#32 : BitVec FTy.f32.bits) = FKind.add.neutral .f32 hφ)
    (a : Fin 5000) (b : Fin 40) (z : Fin 40 → EReal) (hz : ∀ k : Fin 40, v5 (ix2 a k) = z k) :
    subf (subf v5 (broadcastTo S5000x40 (shapeCast S5000x1 (multiReduction .maximumf [1] S5000 v5 0xFF800000#32 h hφ hacc1) hc) hb))
      (broadcastTo S5000x40 (Idealize.ShloMosaic.log (shapeCast S5000x1 (multiReduction .add [1] S5000
        (Idealize.ShloMosaic.exp (subf v5 (broadcastTo S5000x40 (shapeCast S5000x1 (multiReduction .maximumf [1] S5000 v5 0xFF800000#32 h hφ hacc1) hc) hb))) 0x00000000#32 h hφ hacc0) hc)) hb) (ix2 a b)
      = lsm7_row z b := by
  unfold lsm7_row
  have hM : ∀ k : Fin 40, (broadcastTo S5000x40 (shapeCast S5000x1 (multiReduction .maximumf [1] S5000 v5 0xFF800000#32 h hφ hacc1) hc) hb) (ix2 a k) = (Finset.univ : Finset (Fin 40)).fold max (⊥ : EReal) z := fun k =>
    (lsm7_row_max v5 h hc hb hφ hacc1 a k).trans
      (congrArg (fun f => Finset.fold max (⊥ : EReal) f (Finset.univ : Finset (Fin 40))) (funext hz))
  have hD : ∀ k : Fin 40, subf v5 (broadcastTo S5000x40 (shapeCast S5000x1 (multiReduction .maximumf [1] S5000 v5 0xFF800000#32 h hφ hacc1) hc) hb) (ix2 a k)
      = z k - (Finset.univ : Finset (Fin 40)).fold max (⊥ : EReal) z := fun k =>
    (subf_apply _ _ _).trans (congrArg₂ (fun x y : EReal => x - y) (hz k) (hM k))
  refine (subf_apply _ _ _).trans ?_
  refine congrArg₂ (fun x y : EReal => x - y) (hD b) ?_
  refine (lsm7_row_logsum _ h hc hb hφ hacc0 a b).trans ?_
  refine congrArg Ideal.log (Finset.sum_congr rfl fun k _ => ?_)
  show Ideal.exp (subf v5 (broadcastTo S5000x40 (shapeCast S5000x1 (multiReduction .maximumf [1] S5000 v5 0xFF800000#32 h hφ hacc1) hc) hb) (ix2 a k)) = _
  exact congrArg Ideal.exp (hD k)

/-- The body's arithmetic at entry (a, b) of a block: the formula on the block's row a plus the bias row. -/
theorem lsm7_payload (x0 : Vec Ideal S5000x40 .f32) (x1 : Vec Ideal S1x40 .f32) (a : Fin 5000) (b : Fin 40) :
    k7_pay1 (F := Ideal) x0 x1 (ix2 a b) = lsm7_row (fun k => x0 (ix2 a k) + x1 (ix2 (0 : Fin 1) k)) b := by
  unfold k7_pay1
  simp only [shapeCast_self]
  exact lsm7_tail _ _ _ _ _ _ _ a b _ (fun k =>
    (addf_apply _ _ _).trans (congrArg (fun y : EReal => x0 (ix2 a k) + y) (broadcastTo_1b_ab_apply x1 _ a k)))

/-- The output array as a function of the region's entry contents. -/
def lsm7_fn (c : Dev nD) : S50000x40.Idx → Elt Ideal .f32 := fun i =>
  lsm7_at (V c main_v98) (V c main_v99) (i 0) (i 1)

/-- Which block of its array each window reads at each of the ten points: the big array's windows move one block of
    rows per point, the bias row stays. -/
theorem lsm7_index_facts : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

/-- Entry (a, b) of the input's block at point t is the array's entry (5000·t + a, b). -/
theorem lsm7_block_in (c : Dev nD) (t : Fin cfg7.N) (a : Fin 5000) (b : Fin 40) (p : Fin 50000)
    (hp : p.val = t.val * 5000 + a.val) : iblk7 V c 0 t (ix2 a b) = V c main_v98 (ix2 p b) := by
  show V c main_v98 (((cfg7.win 0).blk t).view.emb (ix2 a b)) = V c main_v98 (ix2 p b)
  refine congrArg _ (funext fun d => Fin.ext ?_)
  obtain ⟨e00, e01, e10, e11, e20, e21⟩ := lsm7_index_facts t
  match d with
  | ⟨0, _⟩ => show win7_0.index t (0 : Fin 2) * 5000 + 1 * a.val = p.val; omega
  | ⟨1, _⟩ => show win7_0.index t (1 : Fin 2) * 40 + 1 * b.val = b.val; omega

/-- The bias window's block at any point is the whole row. -/
theorem lsm7_block_row (c : Dev nD) (t : Fin cfg7.N) (b : Fin 40) :
    iblk7 V c 1 t (ix2 (0 : Fin 1) b) = V c main_v99 (ix2 (0 : Fin 1) b) := by
  show V c main_v99 (((cfg7.win 1).blk t).view.emb (ix2 (0 : Fin 1) b)) = V c main_v99 (ix2 (0 : Fin 1) b)
  refine congrArg _ (funext fun d => Fin.ext ?_)
  obtain ⟨e00, e01, e10, e11, e20, e21⟩ := lsm7_index_facts t
  match d with
  | ⟨0, _⟩ => show win7_1.index t (0 : Fin 2) * 1 + 1 * 0 = 0; omega
  | ⟨1, _⟩ => show win7_1.index t (1 : Fin 2) * 40 + 1 * b.val = b.val; omega

/-- Entry (a, b) of the output's block at point t sits at the array's index (5000·t + a, b). -/
theorem lsm7_block_out (t : Fin cfg7.N) (a : Fin 5000) (b : Fin 40) (p : Fin 50000)
    (hp : p.val = t.val * 5000 + a.val) : ((cfg7.win 2).blk t).view.emb (ix2 a b) = ix2 p b := by
  refine funext fun d => Fin.ext ?_
  obtain ⟨e00, e01, e10, e11, e20, e21⟩ := lsm7_index_facts t
  match d with
  | ⟨0, _⟩ => show win7_2.index t (0 : Fin 2) * 5000 + 1 * a.val = p.val; omega
  | ⟨1, _⟩ => show win7_2.index t (1 : Fin 2) * 40 + 1 * b.val = b.val; omega

/-- What point t writes back is block t of the function. -/
theorem lsm7_flushed (c : Dev nD) (t : Fin cfg7.N) :
    (dat7 (F := Ideal) V c).flushed 2 t = ((cfg7.win 2).blk t).view.read (Elt Ideal) (lsm7_fn V c) := by
  show (cfg7.win 2).cut (grid7.coords t) ((dat7 V c).after 2 t) = _
  rw [after7_2]
  unfold out7_2
  rw [View.canon_unit_zero lsm7_offsets]
  simp only [View.ld_unit_zero (S := S5000x40) lsm7_offsets, View.ld_unit_zero (S := S1x40) lsm7_offsets]
  funext j
  obtain ⟨a, b, rfl⟩ : ∃ (a : Fin 5000) (b : Fin 40), j = ix2 a b := ⟨j 0, j 1, eq_ix2 j⟩
  have ht : t.val < 10 := lt_of_lt_of_eq t.isLt N_7
  have ha : a.val < 5000 := a.isLt
  obtain ⟨p, hp⟩ : ∃ p : Fin 50000, p.val = t.val * 5000 + a.val := ⟨⟨t.val * 5000 + a.val, by omega⟩, rfl⟩
  show k7_pay1 (F := Ideal) (iblk7 V c 0 t) (iblk7 V c 1 t) (ix2 a b)
    = lsm7_fn V c (((cfg7.win 2).blk t).view.emb (ix2 a b))
  refine (lsm7_payload (iblk7 V c 0 t) (iblk7 V c 1 t) a b).trans ?_
  rw [lsm7_block_out t a b p hp]
  show _ = lsm7_at (V c main_v98) (V c main_v99) p b
  unfold lsm7_at
  refine congrArg (fun z => lsm7_row z b) (funext fun k => ?_)
  exact congrArg₂ (fun x y : EReal => x + y) (lsm7_block_in V c t a k p hp) (lsm7_block_row V c t k)

/-- An index of the array is in point t's block iff each coordinate is in the block's range on its axis. -/
theorem lsm7_mem_block (t : Fin cfg7.N) (i : S50000x40.Idx) :
    i ∈ ((cfg7.win 2).blk t).view.set ↔ ∀ a : Fin 2, win7_2.index t a * S5000x40.size a ≤ (i a).val ∧ (i a).val < win7_2.index t a * S5000x40.size a + S5000x40.size a := by
  show i ∈ ((View.whole main_v100).slice (win7_2.rect t)).set ↔ _
  rw [View.set_slice_whole, Rect.mem_set_unit]
  exact Iff.rfl

/-- Every index of the array is in the block of the point its row falls in. -/
theorem lsm7_cover (i : S50000x40.Idx) :
    ∃ t : Fin cfg7.N, (cfg7.win 2).flush t = true ∧ i ∈ ((cfg7.win 2).blk t).view.set := by
  have hi0 : (i 0).val < 50000 := (i 0).isLt
  have hi1 : (i 1).val < 40 := (i 1).isLt
  obtain ⟨t, htv⟩ : ∃ t : Fin cfg7.N, t.val = (i 0).val / 5000 :=
    ⟨⟨(i 0).val / 5000, lt_of_lt_of_eq (by omega : (i 0).val / 5000 < 10) N_7.symm⟩, rfl⟩
  obtain ⟨e00, e01, e10, e11, e20, e21⟩ := lsm7_index_facts t
  refine ⟨t, flush7_2 t, ?_⟩
  rw [lsm7_mem_block]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 40 ≤ (i 1).val ∧ (i 1).val < win7_2.index t (1 : Fin 2) * 40 + 40; omega

/-- The output array after the region is the function. -/
theorem lsm7_array (c : Dev nD) : (dat7 (F := Ideal) V c).arrAt 2 cfg7.N = lsm7_fn V c :=
  (dat7 V c).arrAt_eq_of_cover 2 (lsm7_fn V c) (fun t _ => lsm7_flushed V c t) lsm7_cover

/-- The output array after the region, entry by entry, as the formula of the region's entry contents. -/
theorem logsoftmax7_entry (c : Dev nD) (r : Fin 50000) (q : Fin 40) :
    (dat7 (F := Ideal) V c).arrAt 2 cfg7.N (ix2 r q) = lsm7_at (V c main_v98) (V c main_v99) r q := by
  rw [lsm7_array V c]
  rfl

/-- The same with the formula spelt out, the entry contents of the array and of the bias row named x and b. -/
theorem logsoftmax7 (c : Dev nD) (r : Fin 50000) (q : Fin 40) (x : S50000x40.Idx → EReal) (b : S1x40.Idx → EReal)
    (hx : V c main_v98 = x) (hb : V c main_v99 = b) :
    (dat7 (F := Ideal) V c).arrAt 2 cfg7.N (ix2 r q)
      = ((x (ix2 r q) + b (ix2 (0 : Fin 1) q)) - (Finset.univ : Finset (Fin 40)).fold max (⊥ : EReal) (fun k => x (ix2 r k) + b (ix2 (0 : Fin 1) k)))
        - Ideal.log (∑ k : Fin 40, Ideal.exp ((x (ix2 r k) + b (ix2 (0 : Fin 1) k)) - (Finset.univ : Finset (Fin 40)).fold max (⊥ : EReal) (fun k => x (ix2 r k) + b (ix2 (0 : Fin 1) k)))) := by
  subst hx hb
  exact logsoftmax7_entry V c r q

end Cert.KernelIdeal.Val

end
-- ==== Proof.RefLogSoftmax.lean ====
/-
  The reference's last stage read at an entry. With h the stage's input (the last layer's aggregate plus its bias, a
  [50000, 40] array), entry (r, q) of the result is the row-wise log-softmax of h in its shifted form: with M the maximum
  of row r of h (taken from negative infinity), the entry is (h(r, q) − M) − log Σ_k exp (h(r, k) − M), the sum over the
  40 columns taken from zero.
-/
import proofs.«105290_j43542378447163_1_alg».proof.Proof.RefRead
import proofs.«105290_j43542378447163_1_alg».proof.Proof.Consts
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Bridge Idealize.ShloMosaic Idealize.ShloMosaic.ValueIdx

/-- From negative infinity the reduction with a maximum body over the 40 columns of a [50000, 40] array, at row r, is the
    maximum of the row's entries: a fold of max from ⊥ over the columns. -/
theorem logsoftmax_row_max (y : FVec Ideal S50000x40 .f32) (h' : S50000x40.ReducesTo [1] S50000) (h : S50000x40.Reduces [1] S50000)
    (hu : 0 < S_.numel) (r : Fin 50000) :
    Host.reduce FloatOps.maximumf y (constant S_ .f32 0xFF800000#32) h' hu (ix1 r)
      = (Finset.univ : Finset (Fin 40)).fold max (⊥ : EReal) (fun k => y (ix2 r k)) := by
  rw [Host.reduce_eq_fold_single FloatOps.maximumf y _ h' h hu]
  have hi : constant (F := Ideal) S_ .f32 0xFF800000#32 (Shape.Idx.first hu) = (⊥ : EReal) := word_neg_inf
  have hf : (y ∘ h.lift (ix1 r)) = fun k : Fin 40 => y (ix2 r k) :=
    funext fun k => congrArg y (funext fun c => Fin.ext (by fin_cases c <;> rfl))
  rw [hi, hf]
  rfl

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x40, .f32⟩ : BufTy).Contents (Elt Ideal)) (x11 : (⟨S40, .f32⟩ : BufTy).Contents (Elt Ideal))

/-- The row maximum the stage computes: the maximum of row r of h, from negative infinity. -/
theorem logsoftmax_max_at (r : Fin 50000) :
    val_main_call2_v0 (F := Ideal) x0 x1 x2 x3 x4 x5 x6 x7 x8 x9 x10 x11 (ix1 r)
      = (Finset.univ : Finset (Fin 40)).fold max (⊥ : EReal) (fun k => val_main_v131 (F := Ideal) x0 x1 x2 x3 x4 x5 x6 x7 x8 x9 x10 x11 (ix2 r k)) := by
  unfold val_main_call2_v0 val_main_call2_cst
  exact logsoftmax_row_max (val_main_v131 (F := Ideal) x0 x1 x2 x3 x4 x5 x6 x7 x8 x9 x10 x11) reducesTo_S50000x40_S50000_d1 (by decide) h_S_ r

/-- The shifted input: h(r, q) minus the row maximum (the maximum once more with negative infinity changes nothing, and
    spreading it back over the row reads it at the row). -/
theorem logsoftmax_shift_at (r : Fin 50000) (q : Fin 40) :
    val_main_call2_v5 (F := Ideal) x0 x1 x2 x3 x4 x5 x6 x7 x8 x9 x10 x11 (ix2 r q)
      = val_main_v131 (F := Ideal) x0 x1 x2 x3 x4 x5 x6 x7 x8 x9 x10 x11 (ix2 r q) - (Finset.univ : Finset (Fin 40)).fold max (⊥ : EReal) (fun k => val_main_v131 (F := Ideal) x0 x1 x2 x3 x4 x5 x6 x7 x8 x9 x10 x11 (ix2 r k)) := by
  rw [val_main_call2_v5_apply, val_main_call2_v4_apply, val_main_call2_v3_apply, val_main_call2_v2_apply,
    val_main_call2_v1_apply, val_main_call2_cst_0_apply]
  have e : idx_main_call2_v3 (idx_main_call2_v4 (ix2 r q)) = ix1 r :=
    funext fun a => Fin.ext (by match a with | ⟨0, _⟩ => rfl)
  rw [e, logsoftmax_max_at]
  simp only [Ideal.ofBits_def, word_neg_inf, Ideal.maximumf_def, Ideal.subf_def, max_bot_left]

/-- The exponential of the shifted input. -/
theorem logsoftmax_exp_at (r : Fin 50000) (k : Fin 40) :
    val_main_call2_v6 (F := Ideal) x0 x1 x2 x3 x4 x5 x6 x7 x8 x9 x10 x11 (ix2 r k)
      = Ideal.exp (val_main_v131 (F := Ideal) x0 x1 x2 x3 x4 x5 x6 x7 x8 x9 x10 x11 (ix2 r k) - (Finset.univ : Finset (Fin 40)).fold max (⊥ : EReal) (fun k' => val_main_v131 (F := Ideal) x0 x1 x2 x3 x4 x5 x6 x7 x8 x9 x10 x11 (ix2 r k'))) := by
  rw [val_main_call2_v6_apply, logsoftmax_shift_at]
  exact Ideal.hostUnary_exp_def _

/-- The row's sum of those exponentials, from zero. -/
theorem logsoftmax_sum_at (r : Fin 50000) :
    val_main_call2_v7 (F := Ideal) x0 x1 x2 x3 x4 x5 x6 x7 x8 x9 x10 x11 (ix1 r)
      = ∑ k : Fin 40, Ideal.exp (val_main_v131 (F := Ideal) x0 x1 x2 x3 x4 x5 x6 x7 x8 x9 x10 x11 (ix2 r k) - (Finset.univ : Finset (Fin 40)).fold max (⊥ : EReal) (fun k' => val_main_v131 (F := Ideal) x0 x1 x2 x3 x4 x5 x6 x7 x8 x9 x10 x11 (ix2 r k'))) := by
  rw [val_main_call2_v7_apply, val_main_call2_cst_1_apply]
  simp only [Ideal.ofBits_def, word_zero, zero_add]
  refine Finset.sum_congr rfl fun k _ => ?_
  have e : idx_main_call2_v7 (ix1 r) k = ix2 r k :=
    funext fun a => Fin.ext (by match a with | ⟨0, _⟩ => rfl | ⟨1, _⟩ => rfl)
  rw [e, logsoftmax_exp_at]

/-- The logarithm of that sum, spread back over the row. -/
theorem logsoftmax_log_at (r : Fin 50000) (q : Fin 40) :
    val_main_call2_v10 (F := Ideal) x0 x1 x2 x3 x4 x5 x6 x7 x8 x9 x10 x11 (ix2 r q)
      = Ideal.log (val_main_call2_v7 (F := Ideal) x0 x1 x2 x3 x4 x5 x6 x7 x8 x9 x10 x11 (ix1 r)) := by
  rw [val_main_call2_v10_apply, val_main_call2_v9_apply, val_main_call2_v8_apply]
  have e : idx_main_call2_v8 (idx_main_call2_v10 (ix2 r q)) = ix1 r :=
    funext fun a => Fin.ext (by match a with | ⟨0, _⟩ => rfl)
  rw [e]
  exact Ideal.hostUnary_log_def _

/-- Entry (r, q) of the stage's result: (h(r, q) − M) − log Σ_k exp (h(r, k) − M), M the maximum of row r of h. -/
theorem logsoftmax_ref (r : Fin 50000) (q : Fin 40) :
    val_main_v132 (F := Ideal) x0 x1 x2 x3 x4 x5 x6 x7 x8 x9 x10 x11 (ix2 r q)
      = (val_main_v131 (F := Ideal) x0 x1 x2 x3 x4 x5 x6 x7 x8 x9 x10 x11 (ix2 r q) - (Finset.univ : Finset (Fin 40)).fold max (⊥ : EReal) (fun k => val_main_v131 (F := Ideal) x0 x1 x2 x3 x4 x5 x6 x7 x8 x9 x10 x11 (ix2 r k)))
        - Ideal.log (∑ k : Fin 40, Ideal.exp (val_main_v131 (F := Ideal) x0 x1 x2 x3 x4 x5 x6 x7 x8 x9 x10 x11 (ix2 r k) - (Finset.univ : Finset (Fin 40)).fold max (⊥ : EReal) (fun k' => val_main_v131 (F := Ideal) x0 x1 x2 x3 x4 x5 x6 x7 x8 x9 x10 x11 (ix2 r k')))) := by
  rw [val_main_v132_apply, logsoftmax_log_at, logsoftmax_sum_at, logsoftmax_shift_at]
  exact Ideal.subf_def _ _

end Cert.ReferenceIdeal.RefValue

end
-- ==== Proof.StageOut.lean ====
/-
  The output layer. The last kernel adds the bias row to the third aggregate and takes each row's log-softmax:
  with h = aggregate + bias and M the row's maximum, entry (r, q) is (h(r,q) - M) - log Σ_k exp (h(r,k) - M). The
  reference's log-softmax of the same h is the same expression, so the program's result array is the reference's.
-/
import proofs.«105290_j43542378447163_1_alg».proof.Proof.StageAgg3
import proofs.«105290_j43542378447163_1_alg».proof.Proof.LogSoftmax7
import proofs.«105290_j43542378447163_1_alg».proof.Proof.RefLogSoftmax
import proofs.«105290_j43542378447163_1_alg».proof.Proof.InputsReal
import Idealize.ShloMosaic.PureOps.Ideal

set_option maxRecDepth 16384

noncomputable section

namespace Cert.KernelIdeal.Val

open Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ) (ρ : Dev nD → PrngReg)

/-- The program's result array is the reference's result stage. -/
theorem st_out (c : Dev nD) (hR : InputsReal m c) :
    W14 m ρ c (Proc.devRef .tc main_v100) = Cert.ReferenceIdeal.Read.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨r, q, rfl⟩ : ∃ (r : Fin 50000) (q : Fin 40), i = ix2 r q := ⟨_, _, eq_ix2 i⟩
  refine (congrFun (W14_arr m ρ c 2) _).trans ?_
  rw [logsoftmax7 (V13 m ρ) c r q _ _ (st_agg3 m ρ c hR) (st_bias3 m ρ c), Cert.ReferenceIdeal.RefValue.logsoftmax_ref]
  have e : ∀ k : Fin 40, Cert.ReferenceIdeal.Read.val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 r k)
      = Cert.ReferenceIdeal.Read.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 r k) + Cert.ReferenceIdeal.Read.val_main_v129 (F := Ideal) (m ((c.tc : Thread nD τ).loc main_arg11)) (ix2 (0 : Fin 1) k) := fun k => by
    rw [Cert.ReferenceIdeal.Read.val_main_v131_apply, Cert.ReferenceIdeal.Read.val_main_v130_apply]
    exact congrArg (fun j => _ + Cert.ReferenceIdeal.Read.val_main_v129 (F := Ideal) (m ((c.tc : Thread nD τ).loc main_arg11)) j)
      (funext fun a => Fin.ext (by match a with | ⟨0, _⟩ => rfl | ⟨1, _⟩ => rfl))
  simp only [e]

end Cert.KernelIdeal.Val

end
-- ==== Proof.PreReal.lean ====
/- The certificate's precondition tests each of the eleven float input arrays entrywise, |x| < +∞, takes the
   conjunction of an array's tests, and then the conjunction over the arrays; the claim states the result is 1.
   On the extended reals |x| = max x (-x), and +∞ is the top element, so the test max x (-x) < ⊤ fails at
   x = ⊤ and at x = ⊥ and holds at every real: an entry that passes is a real number. A conjunction that is 1
   has every conjunct 1, and an and-reduction over all axes that is 1 had a 1 at every index. Hence every entry
   of every float input is a real number. (The integer input is not tested.) -/
import proofs.«105290_j43542378447163_1_alg».proof.Pre_finite_inputs
import proofs.«105290_j43542378447163_1_alg».proof.Proof.LibBatchNorm
import Idealize.ShloMosaic.PureOps.Ideal
import Idealize.ShloMosaic.Lib.ReduceAll
import Idealize.ShloMosaic.Lib.ValueIdx

set_option maxRecDepth 16384

noncomputable section

namespace Cert.Bridge

open Idealize.ShloMosaic Cert.Pre_finite_inputs

/-- The f32 pattern 0x7F800000 denotes +∞. -/
theorem ofBits_inf_f32 : Ideal.ofBits .f32 0x7F800000#32 = (⊤ : EReal) := by
  simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [ofBits_inf_f32] at h
  induction x using EReal.rec with
  | bot => simp [Ideal.cmp] at h
  | coe a => exact ⟨a, rfl⟩
  | top => simp [Ideal.cmp] at h

/-- An array whose all-finite test (every |entry| < +∞, and-reduced over all axes from 1) is 1 has real entries. -/
theorem real_of_all_finite {S : Shape} {axes : List (Fin S.rank)} (x : FVec Ideal S .f32)
    (hb : S_.BroadcastsInDim S (![] : Fin 0 → Fin S.rank)) (hr : S.ReducesTo axes S_) (hu : 0 < S_.numel)
    (h : Host.reduce IntOp.andi
        (cmpf .olt (Host.absf x) (broadcastInDim S ![] hb (constant (F := Ideal) S_ .f32 0x7F800000#32)))
        (constantI S_ 1 1#1) hr hu ValueIdx.ix0 = 1#1) :
    ∀ i, IsReal (x i) := by
  intro i
  -- the rank-0 result shape has one index
  haveI : Subsingleton S_.Idx := ⟨fun a b => funext fun d => d.elim0⟩
  have e := Host.reduce_andi_all _ _ hr hu ValueIdx.ix0 h i
  exact isReal_of_abs_lt_inf (x i) e

variable [Cert.Pre_finite_inputs.Facts]

/-- THE PRECONDITION DECODED: every entry of every float input is a real number. -/
theorem inputs_real (a0 : FVec Ideal S50000x128 .f32) (a1 : IVec S2x600000 32) (a2 : FVec Ideal S128x128 .f32)
    (a3 a4 a5 : FVec Ideal S128 .f32) (a6 : FVec Ideal S128x128 .f32) (a7 a8 a9 : FVec Ideal S128 .f32)
    (a10 : FVec Ideal S128x40 .f32) (a11 : FVec Ideal S40 .f32)
    (h : fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have e := congrFun h ValueIdx.ix0
  dsimp only [fn] at e
  dsimp only [fn_part1] at e
  dsimp only [fn_part2] at e
  dsimp only [fn_part3] at e
  simp only [andi, IntOp.andi_eq_one] at e
  obtain ⟨⟨⟨⟨⟨⟨⟨⟨⟨⟨h0, h2⟩, h3⟩, h4⟩, h5⟩, h6⟩, h7⟩, h8⟩, h9⟩, h10⟩, h11⟩ := e
  exact ⟨real_of_all_finite a0 _ _ _ h0, real_of_all_finite a2 _ _ _ h2, real_of_all_finite a3 _ _ _ h3,
    real_of_all_finite a4 _ _ _ h4, real_of_all_finite a5 _ _ _ h5, real_of_all_finite a6 _ _ _ h6,
    real_of_all_finite a7 _ _ _ h7, real_of_all_finite a8 _ _ _ h8, real_of_all_finite a9 _ _ _ h9,
    real_of_all_finite a10 _ _ _ h10, real_of_all_finite a11 _ _ _ h11⟩

end Cert.Bridge

end
-- ==== Proof.InputsOfPre.lean ====
/- The precondition of the certificate, stated of a memory, says that on every device the all-finite test of the
   eleven float argument arrays the memory holds is 1. Decoded array by array (each entry with |x| < +∞ on the
   extended reals is a real number), it gives the bundle of eleven facts "every entry of this argument array
   is a real number" for that device. -/
import proofs.«105290_j43542378447163_1_alg».proof.Defs
import proofs.«105290_j43542378447163_1_alg».proof.Proof.PreReal
import proofs.«105290_j43542378447163_1_alg».proof.Proof.InputsReal

set_option maxRecDepth 16384

noncomputable section

namespace Cert.KernelIdeal.Val

open Idealize.ShloMosaic Idealize.ShloMosaic.TcCoe Idealize.SL.Sem Cert.KernelIdeal Cert.Bridge

/-- A memory that meets the precondition holds, on every device, real numbers in all eleven float argument arrays. -/
theorem inputsReal_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Val.InputsReal m c := by
  obtain ⟨h0, h2, h3, h4, h5, h6, h7, h8, h9, h10, h11⟩ :=
    Cert.Bridge.inputs_real _ _ _ _ _ _ _ _ _ _ _ _ (hpre c)
  exact ⟨h0, h2, h3, h4, h5, h6, h7, h8, h9, h10, h11⟩

end Cert.KernelIdeal.Val

end
-- ==== Proof.lean ====
/-
  The certificate of a three-layer graph network's kernels against its plain reference.

  Each layer multiplies the node features by a weight matrix, gathers the product's rows at the edge sources
  (one self-loop per node appended), scales them by the symmetric degree weights and adds them into the
  destination rows. The first two layers then add a bias, normalise every column over the 50000 nodes, rescale,
  shift and rectify; the last adds its bias and takes each row's log-softmax. The program does the products, the
  column statistics, the normalisation and the log-softmax in eight grid kernels over blocks of 5000 rows and the
  gathers and scatters on the host, as the reference does.

  Both programs, read with exact extended-real arithmetic, compute the same function of the arguments:
  * a kernel product of a row block, accumulated from zero, is that block of the whole product; rounding the
    operands to a shorter format changes nothing at the exact instance;
  * the gathers and scatter-adds are the same operations applied to equal arrays;
  * the kernels take each column's variance as (Σ h²)/n - ((Σ h)/n)², the reference as Σ (h - mean)² / n; these agree
    when every entry of the column is a real number, which the precondition (all inputs finite) gives, layer by
    layer: sums and products of reals are real, and a normalised real column with real scale, shift and a positive
    offset is real;
  * the two log-softmaxes are the same expression of the same rows.
  The three frame claims are the generated frame certificates and the reference's run read in stretches; the idealisation
  rewrote no operation, so nothing is owed for it.
-/
import proofs.«105290_j43542378447163_1_alg».proof.Defs
import proofs.«105290_j43542378447163_1_alg».proof.Proof.Gen.Kernel
import proofs.«105290_j43542378447163_1_alg».proof.Proof.Gen.Kernel.Frame
import proofs.«105290_j43542378447163_1_alg».proof.Proof.Gen.KernelIdeal
import proofs.«105290_j43542378447163_1_alg».proof.Proof.Gen.KernelIdeal.Frame
import proofs.«105290_j43542378447163_1_alg».proof.Proof.Gen.ReferenceIdeal
import proofs.«105290_j43542378447163_1_alg».proof.Proof.Gen.Pre_finite_inputs
import proofs.«105290_j43542378447163_1_alg».proof.Proof.KRun
import proofs.«105290_j43542378447163_1_alg».proof.Proof.RefRun
import proofs.«105290_j43542378447163_1_alg».proof.Proof.RefRead
import proofs.«105290_j43542378447163_1_alg».proof.Proof.RefStages
import proofs.«105290_j43542378447163_1_alg».proof.Proof.StageOut
import proofs.«105290_j43542378447163_1_alg».proof.Proof.InputsOfPre
import Idealize.ShloMosaic.Adequacy
import Idealize.ShloMosaic.Init

set_option maxRecDepth 16384

noncomputable section

namespace Cert.Proof

open Idealize.ShloMosaic Idealize.SL.Sem

/-- The word-level program terminates without a fault and leaves its arguments unchanged. -/
theorem frame_kernel : Cert.frame_Kernel := fun m ρ _ => Cert.Kernel.Gen.frame m ρ

/-- So does the program read with exact arithmetic. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The exact reading is the program's own text: no rewrite to account for. -/
theorem preserves : Cert.preserves_Kernel_KernelIdeal := trivial

/-- From memories that agree on the arguments both programs end with the same result array: the last boundary's
    contents of the program, which is the reference's result stage of the same arguments. -/
theorem algebraic : Cert.algebraic_KernelIdeal_ReferenceIdeal := by
  intro m ρ m' ρ' hpre hagree
  refine ⟨fun c => Cert.KernelIdeal.Gen.W14 m ρ c (Proc.devRef .tc Cert.KernelIdeal.main_v100),
    Cert.KernelIdeal.Val.run_named (F := Ideal) m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.Val.st_out m ρ c (Cert.KernelIdeal.Val.inputsReal_of_pre m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
